-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v210)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v210) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50000 : Shape := ⟨1, ![50000]⟩
abbrev S2x64 : Shape := ⟨2, ![2, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S5x64 : Shape := ⟨2, ![5, 64]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64 : S_.BroadcastsInDim S5x64 (![] : Fin 0 → Fin S5x64.rank)
  reducesTo_S5x64_S_d0_1 : S5x64.ReducesTo [0, 1] S_

variable [Facts]

def fn_part3 {F : FTy → Type} [FloatOps F] (main_v48 : IVec S_ 1) (main_v49 : FVec F S5x64 .f32) (main_v50 : FVec F S5x64 .f32) : IVec S_ 1 :=
  let main_v51 : IVec S5x64 1 := cmpf .olt main_v49 main_v50
  let main_c_19 : IVec S_ 1 := constantI S_ 1 1#1
  let main_v52 : IVec S_ 1 := (fun x v => Host.reduce IntOp.andi x v reducesTo_S5x64_S_d0_1 h_S_) main_v51 main_c_19
  let main_v53 : IVec S_ 1 := andi main_v48 main_v52
  main_v53

def fn_part2 {F : FTy → Type} [FloatOps F] (main_arg9 : FVec F S4x64x64 .f32) (main_arg10 : FVec F S4x64 .f32) (main_arg11 : FVec F S5x64 .f32) (main_arg12 : FVec F S5x64 .f32) (main_v33 : IVec S_ 1) : IVec S_ 1 :=
  let main_v34 : FVec F S4x64x64 .f32 := Host.absf main_arg9
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S5x64 .f32 := Host.absf main_arg11
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S5x64 .f32 := Host.absf main_arg12
  let main_cst_18 : FVec F S_ .f32 := constant S_ .f32 0x7F800000#32
  let main_v50 : FVec F S5x64 .f32 := broadcastInDim S5x64 ![] bcast_S_S5x64 main_cst_18
  fn_part3 (F := F) main_v48 main_v49 main_v50

def fn_part1 {F : FTy → Type} [FloatOps F] (main_arg6 : FVec F S64 .f32) (main_arg7 : FVec F S4x64x64 .f32) (main_arg8 : FVec F S4x64 .f32) (main_arg9 : FVec F S4x64x64 .f32) (main_arg10 : FVec F S4x64 .f32) (main_arg11 : FVec F S5x64 .f32) (main_arg12 : FVec F S5x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x2 .f32) (main_arg1 : IVec S2x800000 32) (main_arg2 : IVec S50000 32) (main_arg3 : FVec F S2x64 .f32) (main_arg4 : FVec F S64 .f32) (main_arg5 : FVec F S64x64 .f32) (main_arg6 : FVec F S64 .f32) (main_arg7 : FVec F S4x64x64 .f32) (main_arg8 : FVec F S4x64 .f32) (main_arg9 : FVec F S4x64x64 .f32) (main_arg10 : FVec F S4x64 .f32) (main_arg11 : FVec F S5x64 .f32) (main_arg12 : FVec F S5x64 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x2 : Shape := ⟨2, ![50000, 2]⟩
abbrev S2x800000 : Shape := ⟨2, ![2, 800000]⟩
abbrev S50000 : Shape := ⟨1, ![50000]⟩
abbrev S2x64 : Shape := ⟨2, ![2, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S5x64 : Shape := ⟨2, ![5, 64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x2 : Shape := ⟨2, ![800000, 2]⟩
abbrev S50000x64 : Shape := ⟨2, ![50000, 64]⟩
abbrev S5000x2 : Shape := ⟨2, ![5000, 2]⟩
abbrev S5000x64 : Shape := ⟨2, ![5000, 64]⟩
abbrev S1x64x64 : Shape := ⟨3, ![1, 64, 64]⟩
abbrev S800000x64 : Shape := ⟨2, ![800000, 64]⟩

abbrev nBuf : Space → Nat
  | .hbm => 264
  | .vmem => 90
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S2x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S4x64x64, .f32⟩
  | 10 => ⟨S4x64, .f32⟩
  | 11 => ⟨S5x64, .f32⟩
  | 12 => ⟨S5x64, .f32⟩
  | 13 => ⟨S1x800000, .i32⟩
  | 14 => ⟨S800000, .i32⟩
  | 15 => ⟨S1x800000, .i32⟩
  | 16 => ⟨S800000, .i32⟩
  | 17 => ⟨S1x64, .f32⟩
  | 18 => ⟨S64, .f32⟩
  | 19 => ⟨S1x64, .f32⟩
  | 20 => ⟨S64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x2, .f32⟩
  | 30 => ⟨S_, .f32⟩
  | 31 => ⟨S50000x2, .f32⟩
  | 32 => ⟨S800000x1, .i32⟩
  | 33 => ⟨S50000x2, .f32⟩
  | 34 => ⟨S1x64, .f32⟩
  | 35 => ⟨S1x64, .f32⟩
  | 36 => ⟨S50000x64, .f32⟩
  | 37 => ⟨S_, .f32⟩
  | 38 => ⟨S64, .f32⟩
  | 39 => ⟨S_, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S64, .f32⟩
  | 55 => ⟨S1x64, .f32⟩
  | 56 => ⟨S1x64, .f32⟩
  | 57 => ⟨S1x64, .f32⟩
  | 58 => ⟨S1x64, .f32⟩
  | 59 => ⟨S50000x64, .f32⟩
  | 60 => ⟨S1x64x64, .f32⟩
  | 61 => ⟨S64x64, .f32⟩
  | 62 => ⟨S1x64, .f32⟩
  | 63 => ⟨S64, .f32⟩
  | 64 => ⟨S1x64x64, .f32⟩
  | 65 => ⟨S64x64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S1x64, .f32⟩
  | 86 => ⟨S1x64, .f32⟩
  | 87 => ⟨S50000x64, .f32⟩
  | 88 => ⟨S_, .f32⟩
  | 89 => ⟨S64, .f32⟩
  | 90 => ⟨S_, .f32⟩
  | 91 => ⟨S64, .f32⟩
  | 92 => ⟨S64, .f32⟩
  | 93 => ⟨S1x64, .f32⟩
  | 94 => ⟨S50000x64, .f32⟩
  | 95 => ⟨S50000x64, .f32⟩
  | 96 => ⟨S50000x64, .f32⟩
  | 97 => ⟨S_, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S64, .f32⟩
  | 106 => ⟨S1x64, .f32⟩
  | 107 => ⟨S1x64, .f32⟩
  | 108 => ⟨S1x64, .f32⟩
  | 109 => ⟨S1x64, .f32⟩
  | 110 => ⟨S50000x64, .f32⟩
  | 111 => ⟨S1x64x64, .f32⟩
  | 112 => ⟨S64x64, .f32⟩
  | 113 => ⟨S1x64, .f32⟩
  | 114 => ⟨S64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x2, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S1x64, .f32⟩
  | 9 => ⟨S1x64, .f32⟩
  | 10 => ⟨S50000x64, .f32⟩
  | 11 => ⟨S_, .f32⟩
  | 12 => ⟨S64, .f32⟩
  | 13 => ⟨S_, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S50000x64, .f32⟩
  | 20 => ⟨S_, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S1x64, .f32⟩
  | 30 => ⟨S1x64, .f32⟩
  | 31 => ⟨S1x64, .f32⟩
  | 32 => ⟨S1x64, .f32⟩
  | 33 => ⟨S50000x64, .f32⟩
  | 34 => ⟨S1x64x64, .f32⟩
  | 35 => ⟨S64x64, .f32⟩
  | 36 => ⟨S1x64, .f32⟩
  | 37 => ⟨S64, .f32⟩
  | 38 => ⟨S1x64x64, .f32⟩
  | 39 => ⟨S64x64, .f32⟩
  | 40 => ⟨S1x64, .f32⟩
  | 41 => ⟨S64, .f32⟩
  | 42 => ⟨S1x64, .f32⟩
  | 43 => ⟨S64, .f32⟩
  | 44 => ⟨S1x64, .f32⟩
  | 45 => ⟨S64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S1x64, .f32⟩
  | 60 => ⟨S1x64, .f32⟩
  | 61 => ⟨S50000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S50000x64, .f32⟩
  | 71 => ⟨S_, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S64, .f32⟩
  | 80 => ⟨S1x64, .f32⟩
  | 81 => ⟨S1x64, .f32⟩
  | 82 => ⟨S1x64, .f32⟩
  | 83 => ⟨S1x64, .f32⟩
  | 84 => ⟨S50000x64, .f32⟩
  | 85 => ⟨S1x64x64, .f32⟩
  | 86 => ⟨S64x64, .f32⟩
  | 87 => ⟨S1x64, .f32⟩
  | 88 => ⟨S64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S64, .f32⟩
  | 95 => ⟨S1x64, .f32⟩
  | 96 => ⟨S64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S1x64, .f32⟩
  | 111 => ⟨S1x64, .f32⟩
  | 112 => ⟨S50000x64, .f32⟩
  | 113 => ⟨S_, .f32⟩
  | 114 => ⟨S64, .f32⟩
  | 115 => ⟨S_, .f32⟩
  | 116 => ⟨S64, .f32⟩
  | 117 => ⟨S64, .f32⟩
  | 118 => ⟨S1x64, .f32⟩
  | 119 => ⟨S50000x64, .f32⟩
  | 120 => ⟨S50000x64, .f32⟩
  | 121 => ⟨S50000x64, .f32⟩
  | 122 => ⟨S_, .f32⟩
  | 123 => ⟨S64, .f32⟩
  | 124 => ⟨S_, .f32⟩
  | 125 => ⟨S64, .f32⟩
  | 126 => ⟨S64, .f32⟩
  | 127 => ⟨S_, .f32⟩
  | _ => ⟨S50000x2, .f32⟩

abbrev hbmTy0_2 (i : Nat) : BufTy := match i % 128 with
  | 0 => ⟨S64, .f32⟩
  | 1 => ⟨S64, .f32⟩
  | 2 => ⟨S64, .f32⟩
  | 3 => ⟨S1x64, .f32⟩
  | 4 => ⟨S1x64, .f32⟩
  | 5 => ⟨S1x64, .f32⟩
  | 6 => ⟨S1x64, .f32⟩
  | 7 => ⟨S50000x64, .f32⟩
  | _ => ⟨S50000x2, .f32⟩

abbrev hbmTy (i : Nat) : BufTy := match i / 128 with
  | 0 => hbmTy0_0 i
  | 1 => hbmTy0_1 i
  | 2 => hbmTy0_2 i
  | _ => ⟨S50000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S64x64, .f32⟩
  | .local _ .vmem, ⟨77, _⟩ => ⟨S1x64, .f32⟩
  | .local _ .vmem, ⟨78, _⟩ => ⟨S64x64, .f32⟩
  | .local _ .vmem, ⟨79, _⟩ => ⟨S1x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S5000x64, .f32⟩
  | .local _ .vmem, ⟨89, _⟩ => ⟨S5000x64, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_6 : Ref sig .tc := ⟨.hbm, 72, rfl⟩
abbrev main_v51 : Ref sig .tc := ⟨.hbm, 73, rfl⟩
abbrev main_v52 : Ref sig .tc := ⟨.hbm, 74, rfl⟩
abbrev main_c_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_14 : Ref sig .tc := ⟨.hbm, 123, rfl⟩
abbrev main_v94 : Ref sig .tc := ⟨.hbm, 124, rfl⟩
abbrev main_v95 : Ref sig .tc := ⟨.hbm, 125, rfl⟩
abbrev main_c_15 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_17 : Ref sig .tc := ⟨.hbm, 139, rfl⟩
abbrev main_v107 : Ref sig .tc := ⟨.hbm, 140, rfl⟩
abbrev main_cst_18 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_19 : Ref sig .tc := ⟨.hbm, 148, rfl⟩
abbrev main_v114 : Ref sig .tc := ⟨.hbm, 149, rfl⟩
abbrev main_cst_20 : Ref sig .tc := ⟨.hbm, 150, rfl⟩
abbrev main_v115 : Ref sig .tc := ⟨.hbm, 151, rfl⟩
abbrev main_v116 : Ref sig .tc := ⟨.hbm, 152, rfl⟩
abbrev main_cst_21 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_c_22 : Ref sig .tc := ⟨.hbm, 174, rfl⟩
abbrev main_v137 : Ref sig .tc := ⟨.hbm, 175, rfl⟩
abbrev main_v138 : Ref sig .tc := ⟨.hbm, 176, rfl⟩
abbrev main_c_23 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_24 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_25 : Ref sig .tc := ⟨.hbm, 190, rfl⟩
abbrev main_v150 : Ref sig .tc := ⟨.hbm, 191, rfl⟩
abbrev main_cst_26 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_27 : Ref sig .tc := ⟨.hbm, 199, rfl⟩
abbrev main_v157 : Ref sig .tc := ⟨.hbm, 200, rfl⟩
abbrev main_cst_28 : Ref sig .tc := ⟨.hbm, 201, rfl⟩
abbrev main_v158 : Ref sig .tc := ⟨.hbm, 202, rfl⟩
abbrev main_v159 : Ref sig .tc := ⟨.hbm, 203, rfl⟩
abbrev main_cst_29 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_c_30 : Ref sig .tc := ⟨.hbm, 225, rfl⟩
abbrev main_v180 : Ref sig .tc := ⟨.hbm, 226, rfl⟩
abbrev main_v181 : Ref sig .tc := ⟨.hbm, 227, rfl⟩
abbrev main_c_31 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_32 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_33 : Ref sig .tc := ⟨.hbm, 241, rfl⟩
abbrev main_v193 : Ref sig .tc := ⟨.hbm, 242, rfl⟩
abbrev main_cst_34 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_35 : Ref sig .tc := ⟨.hbm, 250, rfl⟩
abbrev main_v200 : Ref sig .tc := ⟨.hbm, 251, rfl⟩
abbrev main_cst_36 : Ref sig .tc := ⟨.hbm, 252, rfl⟩
abbrev main_v201 : Ref sig .tc := ⟨.hbm, 253, rfl⟩
abbrev main_v202 : Ref sig .tc := ⟨.hbm, 254, rfl⟩
abbrev main_cst_37 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg6_0 : Ref sig .tc := ⟨.vmem, 80, rfl⟩
abbrev cc8_stg6_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem6_0 : DmaSem sig := 80
abbrev cc8_sem6_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5x64_S1x64_0_0 : S5x64.Slices ![0, 0] S1x64
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x2 : S_.BroadcastsInDim S50000x2 (![] : Fin 0 → Fin S50000x2.rank)
  shapeCasts_S64_S1x64 : S64.ShapeCasts S1x64
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  slices_S5x64_S1x64_1_0 : S5x64.Slices ![1, 0] S1x64
  bcast_S_S50000x64 : S_.BroadcastsInDim S50000x64 (![] : Fin 0 → Fin S50000x64.rank)
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S5x64_S1x64_2_0 : S5x64.Slices ![2, 0] S1x64
  slices_S4x64x64_S1x64x64_2_0_0 : S4x64x64.Slices ![2, 0, 0] S1x64x64
  slices_S4x64_S1x64_2_0 : S4x64.Slices ![2, 0] S1x64
  slices_S5x64_S1x64_3_0 : S5x64.Slices ![3, 0] S1x64
  slices_S4x64x64_S1x64x64_3_0_0 : S4x64x64.Slices ![3, 0, 0] S1x64x64
  slices_S4x64_S1x64_3_0 : S4x64.Slices ![3, 0] S1x64
  slices_S5x64_S1x64_4_0 : S5x64.Slices ![4, 0] S1x64
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S5000x2_S2x64_S5000x64_1_0_0_1_n_n_wf : DotDims.WF S5000x2 S2x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S50000x2.size a
  hwx0_0 : ∀ i : grid0.Coords, EltTy.bits .f32 = 32 ∨ (Rect.block (s := S50000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S50000x64.size a
  hwx8_6 : ∀ i : grid8.Coords, EltTy.bits .f32 = 32 ∨ (Rect.block (s := S50000x64) S5000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v106) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v106) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v124) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v146) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v126) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v130) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v148) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v149) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v149) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v163) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v164) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v165) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v166) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v167) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v167) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v189) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v169) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v190) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v173) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v191) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v192) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v192) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v206) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v207) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v208) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v209) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v210) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50000 : Shape := ⟨1, ![50000]⟩
abbrev S2x64 : Shape := ⟨2, ![2, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S5x64 : Shape := ⟨2, ![5, 64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x2 : Shape := ⟨2, ![800000, 2]⟩
abbrev S50000x64 : Shape := ⟨2, ![50000, 64]⟩
abbrev S1x64x64 : Shape := ⟨3, ![1, 64, 64]⟩
abbrev S800000x64 : Shape := ⟨2, ![800000, 64]⟩

abbrev nBuf : Space → Nat
  | .hbm => 356
  | .vmem => 0
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S2x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S4x64x64, .f32⟩
  | 10 => ⟨S4x64, .f32⟩
  | 11 => ⟨S5x64, .f32⟩
  | 12 => ⟨S5x64, .f32⟩
  | 13 => ⟨S1x800000, .i32⟩
  | 14 => ⟨S800000, .i32⟩
  | 15 => ⟨S1x800000, .i32⟩
  | 16 => ⟨S800000, .i32⟩
  | 17 => ⟨S1x64, .f32⟩
  | 18 => ⟨S64, .f32⟩
  | 19 => ⟨S1x64, .f32⟩
  | 20 => ⟨S64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x2, .f32⟩
  | 30 => ⟨S_, .f32⟩
  | 31 => ⟨S50000x2, .f32⟩
  | 32 => ⟨S800000x1, .i32⟩
  | 33 => ⟨S50000x2, .f32⟩
  | 34 => ⟨S50000x2, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S50000x64, .f32⟩
  | 55 => ⟨S_, .f32⟩
  | 56 => ⟨S64, .f32⟩
  | 57 => ⟨S_, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S_, .f32⟩
  | 64 => ⟨S64, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S1x64x64, .f32⟩
  | 80 => ⟨S64x64, .f32⟩
  | 81 => ⟨S1x64, .f32⟩
  | 82 => ⟨S64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S50000x64, .f32⟩
  | 123 => ⟨S50000x64, .f32⟩
  | 124 => ⟨S50000x64, .f32⟩
  | 125 => ⟨S_, .f32⟩
  | 126 => ⟨S64, .f32⟩
  | 127 => ⟨S_, .f32⟩
  | _ => ⟨S50000x2, .f32⟩

abbrev hbmTy0_1 (i : Nat) : BufTy := match i % 128 with
  | 0 => ⟨S64, .f32⟩
  | 1 => ⟨S64, .f32⟩
  | 2 => ⟨S1x64, .f32⟩
  | 3 => ⟨S50000x64, .f32⟩
  | 4 => ⟨S50000x64, .f32⟩
  | 5 => ⟨S_, .f32⟩
  | 6 => ⟨S64, .f32⟩
  | 7 => ⟨S64, .f32⟩
  | 8 => ⟨S64, .f32⟩
  | 9 => ⟨S1x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S64, .f32⟩
  | 31 => ⟨S1x64, .f32⟩
  | 32 => ⟨S64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S50000x64, .f32⟩
  | 65 => ⟨S50000x64, .f32⟩
  | 66 => ⟨S50000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S50000x64, .f32⟩
  | 74 => ⟨S50000x64, .f32⟩
  | 75 => ⟨S_, .f32⟩
  | 76 => ⟨S64, .f32⟩
  | 77 => ⟨S64, .f32⟩
  | 78 => ⟨S64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S1x64x64, .f32⟩
  | 92 => ⟨S64x64, .f32⟩
  | 93 => ⟨S1x64, .f32⟩
  | 94 => ⟨S64, .f32⟩
  | 95 => ⟨S1x64x64, .f32⟩
  | 96 => ⟨S64x64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x2, .f32⟩

abbrev hbmTy0_2 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S50000x64, .f32⟩
  | 7 => ⟨S50000x64, .f32⟩
  | 8 => ⟨S50000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S50000x64, .f32⟩
  | 16 => ⟨S50000x64, .f32⟩
  | 17 => ⟨S_, .f32⟩
  | 18 => ⟨S64, .f32⟩
  | 19 => ⟨S64, .f32⟩
  | 20 => ⟨S64, .f32⟩
  | 21 => ⟨S1x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S1x64x64, .f32⟩
  | 34 => ⟨S64x64, .f32⟩
  | 35 => ⟨S1x64, .f32⟩
  | 36 => ⟨S64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S64, .f32⟩
  | 43 => ⟨S1x64, .f32⟩
  | 44 => ⟨S64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S_, .f32⟩
  | 88 => ⟨S64, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | _ => ⟨S50000x2, .f32⟩

abbrev hbmTy (i : Nat) : BufTy := match i / 128 with
  | 0 => hbmTy0_0 i
  | 1 => hbmTy0_1 i
  | 2 => hbmTy0_2 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_8 : Ref sig .tc := ⟨.hbm, 91, rfl⟩
abbrev main_v68 : Ref sig .tc := ⟨.hbm, 92, rfl⟩
abbrev main_v69 : Ref sig .tc := ⟨.hbm, 93, rfl⟩
abbrev main_c_9 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_cst_13 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_cst_15 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_17 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_18 : Ref sig .tc := ⟨.hbm, 161, rfl⟩
abbrev main_v128 : Ref sig .tc := ⟨.hbm, 162, rfl⟩
abbrev main_v129 : Ref sig .tc := ⟨.hbm, 163, rfl⟩
abbrev main_c_19 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_20 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_21 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_22 : Ref sig .tc := ⟨.hbm, 186, rfl⟩
abbrev main_v149 : Ref sig .tc := ⟨.hbm, 187, rfl⟩
abbrev main_cst_23 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_24 : Ref sig .tc := ⟨.hbm, 195, rfl⟩
abbrev main_v156 : Ref sig .tc := ⟨.hbm, 196, rfl⟩
abbrev main_cst_25 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_26 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_cst_27 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_c_28 : Ref sig .tc := ⟨.hbm, 231, rfl⟩
abbrev main_v188 : Ref sig .tc := ⟨.hbm, 232, rfl⟩
abbrev main_v189 : Ref sig .tc := ⟨.hbm, 233, rfl⟩
abbrev main_c_29 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_30 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_cst_31 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_cst_32 : Ref sig .tc := ⟨.hbm, 256, rfl⟩
abbrev main_v209 : Ref sig .tc := ⟨.hbm, 257, rfl⟩
abbrev main_cst_33 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_cst_34 : Ref sig .tc := ⟨.hbm, 265, rfl⟩
abbrev main_v216 : Ref sig .tc := ⟨.hbm, 266, rfl⟩
abbrev main_cst_35 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_cst_36 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_cst_37 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_c_38 : Ref sig .tc := ⟨.hbm, 301, rfl⟩
abbrev main_v248 : Ref sig .tc := ⟨.hbm, 302, rfl⟩
abbrev main_v249 : Ref sig .tc := ⟨.hbm, 303, rfl⟩
abbrev main_c_39 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_cst_40 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_cst_41 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_cst_42 : Ref sig .tc := ⟨.hbm, 326, rfl⟩
abbrev main_v269 : Ref sig .tc := ⟨.hbm, 327, rfl⟩
abbrev main_cst_43 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_cst_44 : Ref sig .tc := ⟨.hbm, 335, rfl⟩
abbrev main_v276 : Ref sig .tc := ⟨.hbm, 336, rfl⟩
abbrev main_cst_45 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_cst_46 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5x64_S1x64_0_0 : S5x64.Slices ![0, 0] S1x64
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x2 : S_.BroadcastsInDim S50000x2 (![] : Fin 0 → Fin S50000x2.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  slices_S5x64_S1x64_1_0 : S5x64.Slices ![1, 0] S1x64
  slices_S4x64x64_S1x64x64_1_0_0 : S4x64x64.Slices ![1, 0, 0] S1x64x64
  slices_S4x64_S1x64_1_0 : S4x64.Slices ![1, 0] S1x64
  slices_S5x64_S1x64_2_0 : S5x64.Slices ![2, 0] S1x64
  slices_S4x64x64_S1x64x64_2_0_0 : S4x64x64.Slices ![2, 0, 0] S1x64x64
  slices_S4x64_S1x64_2_0 : S4x64.Slices ![2, 0] S1x64
  slices_S5x64_S1x64_3_0 : S5x64.Slices ![3, 0] S1x64
  slices_S4x64x64_S1x64x64_3_0_0 : S4x64x64.Slices ![3, 0, 0] S1x64x64
  slices_S4x64_S1x64_3_0 : S4x64.Slices ![3, 0] S1x64
  slices_S5x64_S1x64_4_0 : S5x64.Slices ![4, 0] S1x64
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S50000x2_S2x64_S50000x64_1_0_0_1_n_n_wf : DotDims.WF S50000x2 S2x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S50000x2_S2x64_S50000x64_1_0_0_1_n_n : DotDims S50000x2 S2x64 S50000x64 where
  lhsContracting := [1]
  rhsContracting := [0]
  lhsNonContracting := [0]
  rhsNonContracting := [1]
  lhsBatch := []
  rhsBatch := []
  wf := dot_S50000x2_S2x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.ResultRun.lean ====
/-
  The run of the kernel program with its result kept.

  @main is ten launches among stretches of host operations. Its execution is followed segment by segment through the
  buffer contents at each boundary: a stretch of host operations folds its operations over the contents it finds, a
  launch replaces its output array by what its grid points write back and leaves everything else in place. At the return
  every buffer holds the last boundary's contents; here that fact is kept for the result buffer, beside the thirteen
  argument arrays, which end as launched.
-/
import proofs.«103578_j10917806867253_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the contents of the
    last boundary, and each argument array what it was launched with. -/
theorem run : θ_run defs (onTc (τ := τ) (main (F := F))) ⟨m, fun _ => 0, ρ⟩ (fun r => ∀ c : Dev nD,
      r.2.mem ((c.tc : Thread nD τ).loc main_v210) = W20 m ρ c (Proc.devRef .tc main_v210)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v210 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c)⟩)

end Cert.KernelIdeal.Result

end
-- ==== Proof.Carry.lean ====
/-
  Buffers that a stretch of host operations leaves alone.

  Between two launches @main runs a stretch of host operations; each operation writes one buffer of its own. A buffer
  that is the output of none of them holds after the stretch what it held before it. Together with the fact that a
  launch changes only its own output array, this carries the edge lists, the parameter arrays and each layer's input
  from the boundary where they are produced to the boundary where they are used.
-/
import proofs.«103578_j10917806867253_1_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers that host stretch 0 writes. -/
abbrev written0 : List (Ref sig .tc) := [main_v0, main_v1, main_v2, main_v3, main_v4, main_v5, main_v6, main_v7, main_c, main_v8, main_v9, main_c_0, main_v10, main_v11, main_v12, main_v13, main_v14, main_cst, main_v15, main_v16, main_v17, main_v18, main_v19]

set_option maxRecDepth 8192 in
theorem hostOps0_writes : (hostOps0 : List (HloOp τ sig (Elt F))).Forall fun op => op.writes ⊆ (written0.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 0 does not write holds after it what it held before. -/
theorem host0 (c : Dev nD) (b : Ref sig .tc) (hb : b ∉ written0) :
    W1 m ρ c (Proc.devRef .tc b) = W0 m ρ c (Proc.devRef .tc b) :=
  StableHlo.after_of_writes_sub hostOps0 _ hostOps0_writes hb

/-- The buffers that host stretch 1 writes. -/
abbrev written1 : List (Ref sig .tc) := [main_cst_1, main_v21, main_cst_2, main_v22, main_v23, main_v24, main_v25, main_v26, main_v27, main_cst_3, main_v28, main_cst_4, main_v29, main_v30, main_cst_5, main_v31, main_v32, main_v33, main_v34, main_v35, main_v36, main_v37]

set_option maxRecDepth 8192 in
theorem hostOps1_writes : (hostOps1 : List (HloOp τ sig (Elt F))).Forall fun op => op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 1 does not write holds after it what it held before. -/
theorem host1 (c : Dev nD) (b : Ref sig .tc) (hb : b ∉ written1) :
    W3 m ρ c (Proc.devRef .tc b) = W2 m ρ c (Proc.devRef .tc b) :=
  StableHlo.after_of_writes_sub hostOps1 _ hostOps1_writes hb

/-- The buffers that host stretch 2 writes. -/
abbrev written2 : List (Ref sig .tc) := [main_v39, main_v40, main_v41, main_v42, main_v43, main_v44, main_v45, main_v46, main_v47, main_v48, main_v49, main_v50, main_c_6, main_v51, main_v52, main_c_7, main_v53, main_v54, main_v55, main_v56, main_v57, main_cst_8, main_v58, main_v59, main_v60, main_v61, main_v62]

set_option maxRecDepth 8192 in
theorem hostOps2_writes : (hostOps2 : List (HloOp τ sig (Elt F))).Forall fun op => op.writes ⊆ (written2.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 2 does not write holds after it what it held before. -/
theorem host2 (c : Dev nD) (b : Ref sig .tc) (hb : b ∉ written2) :
    W5 m ρ c (Proc.devRef .tc b) = W4 m ρ c (Proc.devRef .tc b) :=
  StableHlo.after_of_writes_sub hostOps2 _ hostOps2_writes hb

/-- The buffers that host stretch 3 writes. -/
abbrev written3 : List (Ref sig .tc) := [main_cst_9, main_v64, main_cst_10, main_v65, main_v66, main_v67, main_v68, main_v69, main_v70, main_cst_11, main_v71, main_cst_12, main_v72, main_v73, main_cst_13, main_v74, main_v75, main_v76, main_v77, main_v78, main_v79, main_v80]

set_option maxRecDepth 8192 in
theorem hostOps3_writes : (hostOps3 : List (HloOp τ sig (Elt F))).Forall fun op => op.writes ⊆ (written3.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 3 does not write holds after it what it held before. -/
theorem host3 (c : Dev nD) (b : Ref sig .tc) (hb : b ∉ written3) :
    W7 m ρ c (Proc.devRef .tc b) = W6 m ρ c (Proc.devRef .tc b) :=
  StableHlo.after_of_writes_sub hostOps3 _ hostOps3_writes hb

/-- The buffers that host stretch 4 writes. -/
abbrev written4 : List (Ref sig .tc) := [main_v82, main_v83, main_v84, main_v85, main_v86, main_v87, main_v88, main_v89, main_v90, main_v91, main_v92, main_v93, main_c_14, main_v94, main_v95, main_c_15, main_v96, main_v97, main_v98, main_v99, main_v100, main_cst_16, main_v101, main_v102, main_v103, main_v104, main_v105]

set_option maxRecDepth 8192 in
theorem hostOps4_writes : (hostOps4 : List (HloOp τ sig (Elt F))).Forall fun op => op.writes ⊆ (written4.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 4 does not write holds after it what it held before. -/
theorem host4 (c : Dev nD) (b : Ref sig .tc) (hb : b ∉ written4) :
    W9 m ρ c (Proc.devRef .tc b) = W8 m ρ c (Proc.devRef .tc b) :=
  StableHlo.after_of_writes_sub hostOps4 _ hostOps4_writes hb

/-- The buffers that host stretch 5 writes. -/
abbrev written5 : List (Ref sig .tc) := [main_cst_17, main_v107, main_cst_18, main_v108, main_v109, main_v110, main_v111, main_v112, main_v113, main_cst_19, main_v114, main_cst_20, main_v115, main_v116, main_cst_21, main_v117, main_v118, main_v119, main_v120, main_v121, main_v122, main_v123]

set_option maxRecDepth 8192 in
theorem hostOps5_writes : (hostOps5 : List (HloOp τ sig (Elt F))).Forall fun op => op.writes ⊆ (written5.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 5 does not write holds after it what it held before. -/
theorem host5 (c : Dev nD) (b : Ref sig .tc) (hb : b ∉ written5) :
    W11 m ρ c (Proc.devRef .tc b) = W10 m ρ c (Proc.devRef .tc b) :=
  StableHlo.after_of_writes_sub hostOps5 _ hostOps5_writes hb

/-- The buffers that host stretch 6 writes. -/
abbrev written6 : List (Ref sig .tc) := [main_v125, main_v126, main_v127, main_v128, main_v129, main_v130, main_v131, main_v132, main_v133, main_v134, main_v135, main_v136, main_c_22, main_v137, main_v138, main_c_23, main_v139, main_v140, main_v141, main_v142, main_v143, main_cst_24, main_v144, main_v145, main_v146, main_v147, main_v148]

set_option maxRecDepth 8192 in
theorem hostOps6_writes : (hostOps6 : List (HloOp τ sig (Elt F))).Forall fun op => op.writes ⊆ (written6.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 6 does not write holds after it what it held before. -/
theorem host6 (c : Dev nD) (b : Ref sig .tc) (hb : b ∉ written6) :
    W13 m ρ c (Proc.devRef .tc b) = W12 m ρ c (Proc.devRef .tc b) :=
  StableHlo.after_of_writes_sub hostOps6 _ hostOps6_writes hb

/-- The buffers that host stretch 7 writes. -/
abbrev written7 : List (Ref sig .tc) := [main_cst_25, main_v150, main_cst_26, main_v151, main_v152, main_v153, main_v154, main_v155, main_v156, main_cst_27, main_v157, main_cst_28, main_v158, main_v159, main_cst_29, main_v160, main_v161, main_v162, main_v163, main_v164, main_v165, main_v166]

set_option maxRecDepth 8192 in
theorem hostOps7_writes : (hostOps7 : List (HloOp τ sig (Elt F))).Forall fun op => op.writes ⊆ (written7.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 7 does not write holds after it what it held before. -/
theorem host7 (c : Dev nD) (b : Ref sig .tc) (hb : b ∉ written7) :
    W15 m ρ c (Proc.devRef .tc b) = W14 m ρ c (Proc.devRef .tc b) :=
  StableHlo.after_of_writes_sub hostOps7 _ hostOps7_writes hb

/-- The buffers that host stretch 8 writes. -/
abbrev written8 : List (Ref sig .tc) := [main_v168, main_v169, main_v170, main_v171, main_v172, main_v173, main_v174, main_v175, main_v176, main_v177, main_v178, main_v179, main_c_30, main_v180, main_v181, main_c_31, main_v182, main_v183, main_v184, main_v185, main_v186, main_cst_32, main_v187, main_v188, main_v189, main_v190, main_v191]

set_option maxRecDepth 8192 in
theorem hostOps8_writes : (hostOps8 : List (HloOp τ sig (Elt F))).Forall fun op => op.writes ⊆ (written8.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 8 does not write holds after it what it held before. -/
theorem host8 (c : Dev nD) (b : Ref sig .tc) (hb : b ∉ written8) :
    W17 m ρ c (Proc.devRef .tc b) = W16 m ρ c (Proc.devRef .tc b) :=
  StableHlo.after_of_writes_sub hostOps8 _ hostOps8_writes hb

/-- The buffers that host stretch 9 writes. -/
abbrev written9 : List (Ref sig .tc) := [main_cst_33, main_v193, main_cst_34, main_v194, main_v195, main_v196, main_v197, main_v198, main_v199, main_cst_35, main_v200, main_cst_36, main_v201, main_v202, main_cst_37, main_v203, main_v204, main_v205, main_v206, main_v207, main_v208, main_v209]

set_option maxRecDepth 8192 in
theorem hostOps9_writes : (hostOps9 : List (HloOp τ sig (Elt F))).Forall fun op => op.writes ⊆ (written9.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer host stretch 9 does not write holds after it what it held before. -/
theorem host9 (c : Dev nD) (b : Ref sig .tc) (hb : b ∉ written9) :
    W19 m ρ c (Proc.devRef .tc b) = W18 m ρ c (Proc.devRef .tc b) :=
  StableHlo.after_of_writes_sub hostOps9 _ hostOps9_writes hb

end Cert.KernelIdeal.Carry

end
-- ==== Proof.KernelTerms.lean ====
/-
  The host-side pieces of one layer, named.

  Around its launches (in the reference: around its dense and normalising steps) a layer uses the same few host
  computations: the two edge lists cut out of the edge array, the aggregation of neighbours' rows along the edges, the
  per-feature mean over the 50000 nodes, the per-feature inverse deviation `rsqrt (mean of squared deviations + ε)`, and
  the layer's own slices of the stacked parameter arrays. Each is written once here, with the program's own operation
  records, so that a statement about a layer names them instead of repeating them.
-/
import proofs.«103578_j10917806867253_1_alg».proof.KernelIdeal
import proofs.«103578_j10917806867253_1_alg».proof.Proof.Gen.KernelIdeal
import Idealize.ShloMosaic.PureOps.Ideal

noncomputable section

namespace Cert.KernelIdeal.Terms

open Cert.KernelIdeal Idealize.ShloMosaic

variable [Facts₀]
open Facts₀

/-- The edges' source nodes: row 0 of the edge array. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edges' destination nodes: row 1 of the edge array. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- Neighbour aggregation over 2 features: gather the source nodes' rows along the edges (a negative index wrapped
    by the node count), and add each gathered row into its destination node's row of a zero array. -/
def aggOf2 (x : FVec Ideal S50000x2 .f32) (src dst : (⟨S800000, .i32⟩ : BufTy).Contents (Elt Ideal)) : FVec Ideal S50000x2 .f32 :=
  Host.scatterAdd scatter_S50000x2_S800000x1_S800000x2_1_0_0_1
    (broadcastInDim S50000x2 ![] bcast_S_S50000x2 (constant (F := Ideal) S_ .f32 0x00000000#32))
    (broadcastInDim S800000x1 ![0] bcast_S800000_S800000x1_0 dst)
    (Host.gather gather_S50000x2_S800000x1_S800000x2_1_0_n_n_0_1_12 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Neighbour aggregation over 64 features: gather the source nodes' rows along the edges (a negative index wrapped
    by the node count), and add each gathered row into its destination node's row of a zero array. -/
def aggOf64 (x : FVec Ideal S50000x64 .f32) (src dst : (⟨S800000, .i32⟩ : BufTy).Contents (Elt Ideal)) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A `[64]` vector laid along a new leading axis and repeated down the 50000 rows. -/
def downRows (v : FVec Ideal S64 .f32) : FVec Ideal S50000x64 .f32 :=
  broadcastInDim S50000x64 ![0, 1] bcast_S1x64_S50000x64_0_1 (broadcastInDim S1x64 ![1] bcast_S64_S1x64_1 v)

/-- The per-feature mean over the nodes: the column sums divided by 50000. -/
def meanOf (h : FVec Ideal S50000x64 .f32) : FVec Ideal S64 .f32 :=
  Host.divf (Host.reduceAdd h (constant (F := Ideal) S_ .f32 0x00000000#32) reducesTo_S50000x64_S64_d0 h_S_)
    (broadcastInDim S64 ![] bcast_S_S64 (constant (F := Ideal) S_ .f32 0x47435000#32))

/-- The deviations from the per-feature mean. -/
def devOf (h : FVec Ideal S50000x64 .f32) : FVec Ideal S50000x64 .f32 := subf h (downRows (meanOf h))

/-- The per-feature inverse deviation: `rsqrt` of the mean squared deviation plus the float nearest 1e-5. -/
def invOf (h : FVec Ideal S50000x64 .f32) : FVec Ideal S64 .f32 :=
  Host.rsqrt (addf
    (Host.divf (Host.reduceAdd (mulf (devOf h) (devOf h)) (constant (F := Ideal) S_ .f32 0x00000000#32) reducesTo_S50000x64_S64_d0 h_S_)
      (broadcastInDim S64 ![] bcast_S_S64 (constant (F := Ideal) S_ .f32 0x47435000#32)))
    (broadcastInDim S64 ![] bcast_S_S64 (constant (F := Ideal) S_ .f32 0x3727C5AC#32)))

/-- Layer 1's weight matrix: slab 0 of a stack of four. -/
def matOf0 (a : FVec Ideal S4x64x64 .f32) : FVec Ideal S64x64 .f32 :=
  shapeCast _ (extractStridedSlice S1x64x64 ![0, 0, 0] a slices_S4x64x64_S1x64x64_0_0_0) shapeCasts_S1x64x64_S64x64

/-- Layer 1's bias vector: row 0 of a stack of four. -/
def vecOf4_0 (a : FVec Ideal S4x64 .f32) : FVec Ideal S64 .f32 :=
  shapeCast _ (extractStridedSlice S1x64 ![0, 0] a slices_S4x64_S1x64_0_0) shapeCasts_S1x64_S64

/-- Layer 2's weight matrix: slab 1 of a stack of four. -/
def matOf1 (a : FVec Ideal S4x64x64 .f32) : FVec Ideal S64x64 .f32 :=
  shapeCast _ (extractStridedSlice S1x64x64 ![1, 0, 0] a slices_S4x64x64_S1x64x64_1_0_0) shapeCasts_S1x64x64_S64x64

/-- Layer 2's bias vector: row 1 of a stack of four. -/
def vecOf4_1 (a : FVec Ideal S4x64 .f32) : FVec Ideal S64 .f32 :=
  shapeCast _ (extractStridedSlice S1x64 ![1, 0] a slices_S4x64_S1x64_1_0) shapeCasts_S1x64_S64

/-- Layer 3's weight matrix: slab 2 of a stack of four. -/
def matOf2 (a : FVec Ideal S4x64x64 .f32) : FVec Ideal S64x64 .f32 :=
  shapeCast _ (extractStridedSlice S1x64x64 ![2, 0, 0] a slices_S4x64x64_S1x64x64_2_0_0) shapeCasts_S1x64x64_S64x64

/-- Layer 3's bias vector: row 2 of a stack of four. -/
def vecOf4_2 (a : FVec Ideal S4x64 .f32) : FVec Ideal S64 .f32 :=
  shapeCast _ (extractStridedSlice S1x64 ![2, 0] a slices_S4x64_S1x64_2_0) shapeCasts_S1x64_S64

/-- Layer 4's weight matrix: slab 3 of a stack of four. -/
def matOf3 (a : FVec Ideal S4x64x64 .f32) : FVec Ideal S64x64 .f32 :=
  shapeCast _ (extractStridedSlice S1x64x64 ![3, 0, 0] a slices_S4x64x64_S1x64x64_3_0_0) shapeCasts_S1x64x64_S64x64

/-- Layer 4's bias vector: row 3 of a stack of four. -/
def vecOf4_3 (a : FVec Ideal S4x64 .f32) : FVec Ideal S64 .f32 :=
  shapeCast _ (extractStridedSlice S1x64 ![3, 0] a slices_S4x64_S1x64_3_0) shapeCasts_S1x64_S64

/-- Layer 0's scale (or shift) vector: row 0 of a stack of five. -/
def vecOf5_0 (a : FVec Ideal S5x64 .f32) : FVec Ideal S64 .f32 :=
  shapeCast _ (extractStridedSlice S1x64 ![0, 0] a slices_S5x64_S1x64_0_0) shapeCasts_S1x64_S64

/-- Layer 1's scale (or shift) vector: row 1 of a stack of five. -/
def vecOf5_1 (a : FVec Ideal S5x64 .f32) : FVec Ideal S64 .f32 :=
  shapeCast _ (extractStridedSlice S1x64 ![1, 0] a slices_S5x64_S1x64_1_0) shapeCasts_S1x64_S64

/-- Layer 2's scale (or shift) vector: row 2 of a stack of five. -/
def vecOf5_2 (a : FVec Ideal S5x64 .f32) : FVec Ideal S64 .f32 :=
  shapeCast _ (extractStridedSlice S1x64 ![2, 0] a slices_S5x64_S1x64_2_0) shapeCasts_S1x64_S64

/-- Layer 3's scale (or shift) vector: row 3 of a stack of five. -/
def vecOf5_3 (a : FVec Ideal S5x64 .f32) : FVec Ideal S64 .f32 :=
  shapeCast _ (extractStridedSlice S1x64 ![3, 0] a slices_S5x64_S1x64_3_0) shapeCasts_S1x64_S64

/-- Layer 4's scale (or shift) vector: row 4 of a stack of five. -/
def vecOf5_4 (a : FVec Ideal S5x64 .f32) : FVec Ideal S64 .f32 :=
  shapeCast _ (extractStridedSlice S1x64 ![4, 0] a slices_S5x64_S1x64_4_0) shapeCasts_S1x64_S64

end Cert.KernelIdeal.Terms

end
-- ==== Proof.NodeRow.lean ====
/-
  One node of the graph network, as plain extended-real arithmetic.

  Every layer first adds to a node's feature row the sum of its in-neighbours' rows, then passes the row through two
  dense layers with a rectifier between them, and finally normalises each feature over all nodes. The dense part acts
  on ONE row at a time, and the normalisation on ONE entry at a time (given the feature's mean and inverse deviation):
  that is what makes a tiling of the node axis invisible. This module states those two per-row / per-entry functions
  once; a block of 5000 rows and the whole array of 50000 rows are both read through them.
-/
import Idealize.ShloMosaic.PureOps.Ideal

noncomputable section

namespace Cert.Gin

open Idealize.ShloMosaic

/-- The rectifier's threshold: the float word zero, read at the exact instance. -/
def zeroWord : EReal := Ideal.ofBits .f32 0x00000000#32

/-- The rectifier `max x 0`. -/
def relu (x : EReal) : EReal := max x zeroWord

/-- One node's row `x + a` (own features plus aggregated neighbours) through the two dense layers:
    entry `q` of `relu ((x + a) · W₁ + b₁) · W₂ + b₂`. -/
def mlpRow {K : ℕ} (x a : Fin K → EReal) (w1 : Fin K → Fin 64 → EReal) (b1 : Fin 64 → EReal)
    (w2 : Fin 64 → Fin 64 → EReal) (b2 : Fin 64 → EReal) (q : Fin 64) : EReal :=
  (∑ j : Fin 64, relu ((∑ i : Fin K, (x i + a i) * w1 i j) + b1 j) * w2 j q) + b2 q

/-- One normalised entry: `((h - μ) · s) · γ + β`, with `s` the feature's inverse deviation. -/
def bnEntry (h mu s g b : EReal) : EReal := (h - mu) * s * g + b

end Cert.Gin

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.BlockRows.lean ====
/-
  The block kernels' stored values, read at one row and one feature.

  Each layer of the network runs two block kernels on 5000 rows at a time. The first adds a block of node rows to
  the block of aggregated neighbour rows and passes the sum through two dense layers with a rectifier between them;
  the second normalises each entry with its feature's mean and inverse deviation, scales and shifts it, and (in all
  layers but the last) rectifies it. At the exact instance the roundings on the way into the matrix products are the
  identity, a matrix product into the zero accumulator is the plain finite sum, and a one-row array broadcast down
  the rows is read at its column. So entry `(p, q)` of the first kernel's block is the dense function of row `p`
  alone, and entry `(p, q)` of the second is the normalisation of entry `(p, q)` alone: the statements below.
-/
import proofs.«103578_j10917806867253_1_alg».proof.Proof.Gen.KernelIdeal.Skeleton
import proofs.«103578_j10917806867253_1_alg».proof.Proof.NodeRow
import proofs.«103578_j10917806867253_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

namespace Cert.Gin.Block

open Idealize.ShloMosaic Idealize.ShloMosaic.ValueIdx Cert.KernelIdeal Cert.KernelIdeal.Gen

/-- A one-row array broadcast down 5000 rows reads, at row `p` and column `q`, the row's entry `q`. -/
theorem bcast_row (v : FVec Ideal S1x64 .f32) (p : Fin 5000) (q : Fin 64) :
    broadcastTo S5000x64 v broadcasts_S1x64_S5000x64 (ix2 p q) = v (ix2 0 q) :=
  broadcastTo_1b_ab_apply v _ p q

/-- The first dense layer's product on two input features: entry `(p, q)` is the sum over the two features. -/
theorem mm2 (lhs : FVec Ideal S5000x2 .bf16) (rhs : FVec Ideal S2x64 .bf16) (p : Fin 5000) (q : Fin 64) :
    matmul dot_S5000x2_S2x64_S5000x64_1_0_0_1_n_n none lhs rhs
        (constant (F := Ideal) S5000x64 .f32 0x00000000#32) (ix2 p q)
      = ∑ k : Fin 2, lhs (ix2 p k) * rhs (ix2 k q) :=
  Cert.Lib.PlainMatmul.matmul_zero_apply dot_S5000x2_S2x64_S5000x64_1_0_0_1_n_n rfl rfl rfl rfl rfl rfl none lhs rhs p q

/-- A dense layer's product on 64 features: entry `(p, q)` is the sum over the 64 features. -/
theorem mm64 (lhs : FVec Ideal S5000x64 .bf16) (rhs : FVec Ideal S64x64 .bf16) (p : Fin 5000) (q : Fin 64) :
    matmul dot_S5000x64_S64x64_S5000x64_1_0_0_1_n_n none lhs rhs
        (constant (F := Ideal) S5000x64 .f32 0x00000000#32) (ix2 p q)
      = ∑ k : Fin 64, lhs (ix2 p k) * rhs (ix2 k q) :=
  Cert.Lib.PlainMatmul.matmul_zero_apply dot_S5000x64_S64x64_S5000x64_1_0_0_1_n_n rfl rfl rfl rfl rfl rfl none lhs rhs p q

/-! ## The dense kernels -/

/-- The first layer's dense block (two input features): entry `(p, q)` is the dense function of row `p`. -/
theorem pay0_apply (x0 x1 : Vec Ideal S5000x2 .f32) (x2 : Vec Ideal S2x64 .f32) (x3 : Vec Ideal S1x64 .f32)
    (x4 : Vec Ideal S64x64 .f32) (x5 : Vec Ideal S1x64 .f32) (p : Fin 5000) (q : Fin 64) :
    k0_pay1 (F := Ideal) x0 x1 x2 x3 x4 x5 (ix2 p q)
      = Cert.Gin.mlpRow (fun i => x0 (ix2 p i)) (fun i => x1 (ix2 p i)) (fun i j => x2 (ix2 i j))
          (fun j => x3 (ix2 0 j)) (fun j c => x4 (ix2 j c)) (fun c => x5 (ix2 0 c)) q := by
  unfold k0_pay1
  simp only [shapeCast_self]
  rw [addf_apply, bcast_row, mm64]
  unfold Cert.Gin.mlpRow
  refine congrArg (· + x5 (ix2 0 q)) (Finset.sum_congr rfl fun j _ => ?_)
  rw [truncf_apply, truncf_apply, maximumf_apply, broadcast_apply, addf_apply, bcast_row, mm2]
  refine congrArg (fun t => Cert.Gin.relu (t + x3 (ix2 0 j)) * x4 (ix2 j q)) (Finset.sum_congr rfl fun i _ => ?_)
  rw [truncf_apply, truncf_apply, addf_apply]

/-- A later layer's dense block (64 input features): entry `(p, q)` is the dense function of row `p`. -/
theorem pay2_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k2_pay1 (F := Ideal) x0 x1 x2 x3 x4 x5 (ix2 p q)
      = Cert.Gin.mlpRow (fun i => x0 (ix2 p i)) (fun i => x1 (ix2 p i)) (fun i j => x2 (ix2 i j))
          (fun j => x3 (ix2 0 j)) (fun j c => x4 (ix2 j c)) (fun c => x5 (ix2 0 c)) q := by
  unfold k2_pay1
  simp only [shapeCast_self]
  rw [addf_apply, bcast_row, mm64]
  unfold Cert.Gin.mlpRow
  refine congrArg (· + x5 (ix2 0 q)) (Finset.sum_congr rfl fun j _ => ?_)
  rw [truncf_apply, truncf_apply, maximumf_apply, broadcast_apply, addf_apply, bcast_row, mm64]
  refine congrArg (fun t => Cert.Gin.relu (t + x3 (ix2 0 j)) * x4 (ix2 j q)) (Finset.sum_congr rfl fun i _ => ?_)
  rw [truncf_apply, truncf_apply, addf_apply]

/-- The third layer's dense kernel is the second layer's, word for word. -/
theorem pay4_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k4_pay1 (F := Ideal) x0 x1 x2 x3 x4 x5 (ix2 p q)
      = Cert.Gin.mlpRow (fun i => x0 (ix2 p i)) (fun i => x1 (ix2 p i)) (fun i j => x2 (ix2 i j))
          (fun j => x3 (ix2 0 j)) (fun j c => x4 (ix2 j c)) (fun c => x5 (ix2 0 c)) q :=
  pay2_apply x0 x1 x2 x3 x4 x5 p q

/-- The fourth layer's dense kernel is the second layer's, word for word. -/
theorem pay6_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k6_pay1 (F := Ideal) x0 x1 x2 x3 x4 x5 (ix2 p q)
      = Cert.Gin.mlpRow (fun i => x0 (ix2 p i)) (fun i => x1 (ix2 p i)) (fun i j => x2 (ix2 i j))
          (fun j => x3 (ix2 0 j)) (fun j c => x4 (ix2 j c)) (fun c => x5 (ix2 0 c)) q :=
  pay2_apply x0 x1 x2 x3 x4 x5 p q

/-- The fifth layer's dense kernel is the second layer's, word for word. -/
theorem pay8_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k8_pay1 (F := Ideal) x0 x1 x2 x3 x4 x5 (ix2 p q)
      = Cert.Gin.mlpRow (fun i => x0 (ix2 p i)) (fun i => x1 (ix2 p i)) (fun i j => x2 (ix2 i j))
          (fun j => x3 (ix2 0 j)) (fun j c => x4 (ix2 j c)) (fun c => x5 (ix2 0 c)) q :=
  pay2_apply x0 x1 x2 x3 x4 x5 p q

/-! ## The normalisation kernels -/

/-- The first layer's normalisation block: entry `(p, q)` is the rectified normalisation of entry `(p, q)`. -/
theorem pay1_apply (x0 : Vec Ideal S5000x64 .f32) (x1 x2 x3 x4 : Vec Ideal S1x64 .f32) (p : Fin 5000) (q : Fin 64) :
    k1_pay1 (F := Ideal) x0 x1 x2 x3 x4 (ix2 p q)
      = Cert.Gin.relu (Cert.Gin.bnEntry (x0 (ix2 p q)) (x1 (ix2 0 q)) (x2 (ix2 0 q)) (x3 (ix2 0 q)) (x4 (ix2 0 q))) := by
  unfold k1_pay1
  simp only [shapeCast_self]
  rw [maximumf_apply, broadcast_apply, addf_apply, mulf_apply, mulf_apply, subf_apply, bcast_row, bcast_row, bcast_row, bcast_row]
  rfl

/-- The second layer's normalisation kernel is the first layer's, word for word. -/
theorem pay3_apply (x0 : Vec Ideal S5000x64 .f32) (x1 x2 x3 x4 : Vec Ideal S1x64 .f32) (p : Fin 5000) (q : Fin 64) :
    k3_pay1 (F := Ideal) x0 x1 x2 x3 x4 (ix2 p q)
      = Cert.Gin.relu (Cert.Gin.bnEntry (x0 (ix2 p q)) (x1 (ix2 0 q)) (x2 (ix2 0 q)) (x3 (ix2 0 q)) (x4 (ix2 0 q))) :=
  pay1_apply x0 x1 x2 x3 x4 p q

/-- The third layer's normalisation kernel is the first layer's, word for word. -/
theorem pay5_apply (x0 : Vec Ideal S5000x64 .f32) (x1 x2 x3 x4 : Vec Ideal S1x64 .f32) (p : Fin 5000) (q : Fin 64) :
    k5_pay1 (F := Ideal) x0 x1 x2 x3 x4 (ix2 p q)
      = Cert.Gin.relu (Cert.Gin.bnEntry (x0 (ix2 p q)) (x1 (ix2 0 q)) (x2 (ix2 0 q)) (x3 (ix2 0 q)) (x4 (ix2 0 q))) :=
  pay1_apply x0 x1 x2 x3 x4 p q

/-- The fourth layer's normalisation kernel is the first layer's, word for word. -/
theorem pay7_apply (x0 : Vec Ideal S5000x64 .f32) (x1 x2 x3 x4 : Vec Ideal S1x64 .f32) (p : Fin 5000) (q : Fin 64) :
    k7_pay1 (F := Ideal) x0 x1 x2 x3 x4 (ix2 p q)
      = Cert.Gin.relu (Cert.Gin.bnEntry (x0 (ix2 p q)) (x1 (ix2 0 q)) (x2 (ix2 0 q)) (x3 (ix2 0 q)) (x4 (ix2 0 q))) :=
  pay1_apply x0 x1 x2 x3 x4 p q

/-- The last layer's normalisation block has no rectifier: entry `(p, q)` is the normalisation of entry `(p, q)`. -/
theorem pay9_apply (x0 : Vec Ideal S5000x64 .f32) (x1 x2 x3 x4 : Vec Ideal S1x64 .f32) (p : Fin 5000) (q : Fin 64) :
    k9_pay1 (F := Ideal) x0 x1 x2 x3 x4 (ix2 p q)
      = Cert.Gin.bnEntry (x0 (ix2 p q)) (x1 (ix2 0 q)) (x2 (ix2 0 q)) (x3 (ix2 0 q)) (x4 (ix2 0 q)) := by
  unfold k9_pay1
  simp only [shapeCast_self]
  rw [addf_apply, mulf_apply, mulf_apply, subf_apply, bcast_row, bcast_row, bcast_row, bcast_row]
  rfl

end Cert.Gin.Block
-- ==== Proof.NodeArrays.lean ====
/-
  What one launch leaves in its output array, as a function of the arrays it reads.

  A dense launch reads the node features `X` and the aggregated neighbours `A` (both `[50000, K]`), two weight matrices
  and two bias rows (each bias laid out as a `[1, 64]` row), and writes, for node `r` and feature `q`, entry `q` of
  that node's row through the two dense layers. A normalising launch reads the pre-activations `H` and four `[1, 64]`
  rows (mean, inverse deviation, scale, shift) and writes the normalised entry, rectified or not. Neither depends on
  how the node axis is cut into blocks.
-/
import proofs.«103578_j10917806867253_1_alg».proof.Proof.NodeRow
import Idealize.ShloMosaic.Lib.ValueIdx

noncomputable section

namespace Cert.Gin

open Idealize.ShloMosaic Idealize.ShloMosaic.ValueIdx

/-- The dense launch's output: row `r` of `X + A` through the two dense layers, the biases read from their rows. -/
def mlpArr {K : ℕ} (X A : (⟨2, ![50000, K]⟩ : Shape).Idx → EReal) (w1 : (⟨2, ![K, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![50000, 64]⟩ : Shape).Idx → EReal :=
  fun i => mlpRow (fun k => X (ix2 (i 0) k)) (fun k => A (ix2 (i 0) k)) (fun k j => w1 (ix2 k j))
    (fun j => b1 (ix2 0 j)) (fun j q => w2 (ix2 j q)) (fun q => b2 (ix2 0 q)) (i 1)

/-- The normalising launch's output without the rectifier. -/
def bnArr (H : (⟨2, ![50000, 64]⟩ : Shape).Idx → EReal) (mu s g b : (⟨2, ![1, 64]⟩ : Shape).Idx → EReal) :
    (⟨2, ![50000, 64]⟩ : Shape).Idx → EReal :=
  fun i => bnEntry (H i) (mu (ix2 0 (i 1))) (s (ix2 0 (i 1))) (g (ix2 0 (i 1))) (b (ix2 0 (i 1)))

/-- The normalising launch's output with the rectifier. -/
def bnReluArr (H : (⟨2, ![50000, 64]⟩ : Shape).Idx → EReal) (mu s g b : (⟨2, ![1, 64]⟩ : Shape).Idx → EReal) :
    (⟨2, ![50000, 64]⟩ : Shape).Idx → EReal :=
  fun i => relu (bnArr H mu s g b i)

end Cert.Gin

end
-- ==== Proof.Dense0.lean ====
/-
  Launch 0 (a dense launch over 2 input features), read as a whole-array function.

  The grid has ten points. Point `t` is handed rows `5000·t … 5000·t + 4999` of the node features and of the aggregated
  neighbours, and the two weight matrices and the two bias rows whole; it writes rows `5000·t … 5000·t + 4999` of the
  output. Since an output row depends only on the same row of the two inputs, the block a point writes is the
  restriction of one function of the whole arrays, and the ten blocks tile the output: after the launch the output
  array is that function of the arrays as the launch found them.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Dense0

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: one row through the two dense layers. -/
def PayloadReadsRows : Prop :=
  ∀ (x0 x1 : Vec Ideal S5000x2 .f32) (x2 : Vec Ideal S2x64 .f32) (x3 : Vec Ideal S1x64 .f32) (x4 : Vec Ideal S64x64 .f32)
    (x5 : Vec Ideal S1x64 .f32) (p : Fin 5000) (q : Fin 64),
    k0_pay1 (F := Ideal) x0 x1 x2 x3 x4 x5 (ix2 p q)
      = mlpRow (fun i => x0 (ix2 p i)) (fun i => x1 (ix2 p i)) (fun i j => x2 (ix2 i j)) (fun j => x3 (ix2 0 j))
          (fun j c => x4 (ix2 j c)) (fun c => x5 (ix2 0 c)) q

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the two node blocks and the output block move with the point, the weights and
    the bias rows stay at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- The output array after the launch: every node's row through the two dense layers. -/
abbrev G (c : Dev nD) : S50000x64.Idx → Elt Ideal .f32 :=
  mlpArr (K := 2) (V c main_arg0) (V c main_v17) (V c main_arg3) (V c main_v18) (V c main_arg5) (V c main_v19)

/-- An entry of a block of rows is the body's row function of the matching rows of the whole arrays. -/
theorem block_entry (hpay : PayloadReadsRows) (X A : S50000x2.Idx → EReal) (w1 : S2x64.Idx → EReal) (b1 : S1x64.Idx → EReal)
    (w2 : S64x64.Idx → EReal) (b2 : S1x64.Idx → EReal)
    (x0 x1 : Vec Ideal S5000x2 .f32) (x2 : Vec Ideal S2x64 .f32) (x3 : Vec Ideal S1x64 .f32) (x4 : Vec Ideal S64x64 .f32)
    (x5 : Vec Ideal S1x64 .f32) (j : S5000x64.Idx) (i : S50000x64.Idx)
    (h0 : ∀ k, x0 (ix2 (j 0) k) = X (ix2 (i 0) k)) (h1 : ∀ k, x1 (ix2 (j 0) k) = A (ix2 (i 0) k))
    (h2 : x2 = w1) (h3 : x3 = b1) (h4 : x4 = w2) (h5 : x5 = b2) (hq : j 1 = i 1) :
    k0_pay1 (F := Ideal) x0 x1 x2 x3 x4 x5 j = mlpArr (K := 2) X A w1 b1 w2 b2 i := by
  subst h2 h3 h4 h5
  refine ((congrArg (k0_pay1 (F := Ideal) x0 x1 x2 x3 x4 x5) (eq_ix2 j)).trans (hpay x0 x1 x2 x3 x4 x5 (j 0) (j 1))).trans ?_
  unfold mlpArr
  simp only [h0, h1, hq]

/-- A node block at point `t` holds rows `5000·t …` of its array. -/
theorem rows0 (c : Dev nD) (t : Fin cfg0.N) (j : S5000x64.Idx) (i : S50000x64.Idx) (hi : (i 0).val = t.val * 5000 + (j 0).val)
    (k : Fin 2) : (iblk0 V c 0 t : S5000x2.Idx → EReal) (ix2 (j 0) k) = (V c main_arg0 : S50000x2.Idx → EReal) (ix2 (i 0) k) := by
  obtain ⟨e00, e01, -⟩ := idx_facts t
  unfold iblk0
  rw [View.read_apply]
  show V c main_arg0 _ = V c main_arg0 _
  congr 1
  funext d
  apply Fin.ext
  match d with
  | ⟨0, _⟩ => show win0_0.index t (0 : Fin 2) * 5000 + 1 * (j 0).val = (i 0).val; rw [e00, hi]; omega
  | ⟨1, _⟩ => show win0_0.index t (1 : Fin 2) * 2 + 1 * k.val = k.val; rw [e01]; omega

theorem rows1 (c : Dev nD) (t : Fin cfg0.N) (j : S5000x64.Idx) (i : S50000x64.Idx) (hi : (i 0).val = t.val * 5000 + (j 0).val)
    (k : Fin 2) : (iblk0 V c 1 t : S5000x2.Idx → EReal) (ix2 (j 0) k) = (V c main_v17 : S50000x2.Idx → EReal) (ix2 (i 0) k) := by
  obtain ⟨-, -, e10, e11, -⟩ := idx_facts t
  unfold iblk0
  rw [View.read_apply]
  show V c main_v17 _ = V c main_v17 _
  congr 1
  funext d
  apply Fin.ext
  match d with
  | ⟨0, _⟩ => show win0_1.index t (0 : Fin 2) * 5000 + 1 * (j 0).val = (i 0).val; rw [e10, hi]; omega
  | ⟨1, _⟩ => show win0_1.index t (1 : Fin 2) * 2 + 1 * k.val = k.val; rw [e11]; omega

/-- The weights and the bias rows are handed whole to every point. -/
theorem whole2 (c : Dev nD) (t : Fin cfg0.N) : (iblk0 V c 2 t : S2x64.Idx → EReal) = V c main_arg3 := by
  obtain ⟨-, -, -, -, e0, e1, -⟩ := idx_facts t
  funext x
  unfold iblk0
  rw [View.read_apply]
  show V c main_arg3 _ = V c main_arg3 _
  congr 1
  funext d
  apply Fin.ext
  match d with
  | ⟨0, _⟩ => show win0_2.index t (0 : Fin 2) * 2 + 1 * (x 0).val = (x 0).val; rw [e0]; omega
  | ⟨1, _⟩ => show win0_2.index t (1 : Fin 2) * 64 + 1 * (x 1).val = (x 1).val; rw [e1]; omega

theorem whole3 (c : Dev nD) (t : Fin cfg0.N) : (iblk0 V c 3 t : S1x64.Idx → EReal) = V c main_v18 := by
  obtain ⟨-, -, -, -, -, -, e0, e1, -⟩ := idx_facts t
  funext x
  unfold iblk0
  rw [View.read_apply]
  show V c main_v18 _ = V c main_v18 _
  congr 1
  funext d
  apply Fin.ext
  match d with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

theorem whole4 (c : Dev nD) (t : Fin cfg0.N) : (iblk0 V c 4 t : S64x64.Idx → EReal) = V c main_arg5 := by
  obtain ⟨-, -, -, -, -, -, -, -, e0, e1, -⟩ := idx_facts t
  funext x
  unfold iblk0
  rw [View.read_apply]
  show V c main_arg5 _ = V c main_arg5 _
  congr 1
  funext d
  apply Fin.ext
  match d with
  | ⟨0, _⟩ => show win0_4.index t (0 : Fin 2) * 64 + 1 * (x 0).val = (x 0).val; rw [e0]; omega
  | ⟨1, _⟩ => show win0_4.index t (1 : Fin 2) * 64 + 1 * (x 1).val = (x 1).val; rw [e1]; omega

theorem whole5 (c : Dev nD) (t : Fin cfg0.N) : (iblk0 V c 5 t : S1x64.Idx → EReal) = V c main_v19 := by
  obtain ⟨-, -, -, -, -, -, -, -, -, -, e0, e1, -⟩ := idx_facts t
  funext x
  unfold iblk0
  rw [View.read_apply]
  show V c main_v19 _ = V c main_v19 _
  congr 1
  funext d
  apply Fin.ext
  match d with
  | ⟨0, _⟩ => show win0_5.index t (0 : Fin 2) * 1 + 1 * (x 0).val = (x 0).val; rw [e0]; omega
  | ⟨1, _⟩ => show win0_5.index t (1 : Fin 2) * 64 + 1 * (x 1).val = (x 1).val; rw [e1]; omega

/-- Where an entry of point `t`'s output block sits in the output array. -/
theorem out_emb (t : Fin cfg0.N) (j : S5000x64.Idx) :
    ((((cfg0.win 6).blk t).view.emb j : S50000x64.Idx) 0).val = t.val * 5000 + (j 0).val
    ∧ (((cfg0.win 6).blk t).view.emb j : S50000x64.Idx) 1 = j 1 := by
  obtain ⟨-, -, -, -, -, -, -, -, -, -, -, -, e0, e1, -⟩ := idx_facts t
  refine ⟨?_, Fin.ext ?_⟩
  · show win0_6.index t (0 : Fin 2) * 5000 + 1 * (j 0).val = _; rw [e0]; omega
  · show win0_6.index t (1 : Fin 2) * 64 + 1 * (j 1).val = (j 1).val; rw [e1]; omega

/-- What point `t` writes back is block `t` of `G`. -/
theorem flushed_eq (hpay : PayloadReadsRows) (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x2) hz, View.ld_unit_zero (S := S2x64) hz, View.ld_unit_zero (S := S1x64) hz,
    View.ld_unit_zero (S := S64x64) hz]
  funext j
  obtain ⟨hr, hc⟩ := out_emb t j
  exact block_entry hpay (V c main_arg0) (V c main_v17) (V c main_arg3) (V c main_v18) (V c main_arg5) (V c main_v19)
    (iblk0 V c 0 t) (iblk0 V c 1 t) (iblk0 V c 2 t) (iblk0 V c 3 t) (iblk0 V c 4 t) (iblk0 V c 5 t)
    j (((cfg0.win 6).blk t).view.emb j)
    (rows0 V c t j _ hr) (rows1 V c t j _ hr) (whole2 V c t) (whole3 V c t) (whole4 V c t) (whole5 V c t) hc.symm

/-- An index of the output array is in point `t`'s block iff each coordinate is in the block's range on its axis. -/
theorem mem_blk (t : Fin cfg0.N) (i : S50000x64.Idx) :
    i ∈ ((cfg0.win 6).blk t).view.set ↔ ∀ d : Fin 2, win0_6.index t d * S5000x64.size d ≤ (i d).val ∧ (i d).val < win0_6.index t d * S5000x64.size d + S5000x64.size d := by
  show i ∈ ((View.whole main_v20).slice (win0_6.rect t)).set ↔ _
  rw [View.set_slice_whole, Rect.mem_set_unit]
  exact Iff.rfl

/-- The ten output blocks tile the output array: row `r` is in the block of point `r / 5000`. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, -, -, -, -, -, -, e0, e1, -⟩ := idx_facts t
  have ht : t.val = (i 0).val / 5000 := rfl
  refine ⟨t, flush0_6 t, ?_⟩
  rw [mem_blk]
  intro d
  match d with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-- THE OUTPUT ARRAY after the launch is `G` of the arrays as the launch found them. -/
theorem out_eq (hpay : PayloadReadsRows) (c : Dev nD) : (dat0 V c).arrAt 6 cfg0.N = G V c :=
  (dat0 V c).arrAt_eq_of_cover 6 (G V c) (fun t _ => flushed_eq V hpay c t) cover

end Cert.KernelIdeal.Dense0

end
-- ==== Proof.Norm1.lean ====
/-
  Launch 1 (a normalising launch with the rectifier), read as a whole-array function.

  The grid has ten points. Point `t` is handed rows `5000·t … 5000·t + 4999` of the pre-activations and the four
  `[1, 64]` rows (mean, inverse deviation, scale, shift) whole; it writes the same rows of the output. An output entry
  depends only on the same entry of the pre-activations and on its column of the four rows, so the block a point writes
  is the restriction of one function of the whole arrays, and the ten blocks tile the output.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Norm1

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: the normalised entry, rectified. -/
def PayloadReadsEntries : Prop :=
  ∀ (x0 : Vec Ideal S5000x64 .f32) (x1 x2 x3 x4 : Vec Ideal S1x64 .f32) (p : Fin 5000) (q : Fin 64),
    k1_pay1 (F := Ideal) x0 x1 x2 x3 x4 (ix2 p q) = relu (bnEntry (x0 (ix2 p q)) (x1 (ix2 0 q)) (x2 (ix2 0 q)) (x3 (ix2 0 q)) (x4 (ix2 0 q)))

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the pre-activation block and the output block move with the point, the four
    rows stay at block (0, 0). -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- The output array after the launch: every entry normalised and rectified. -/
abbrev G (c : Dev nD) : S50000x64.Idx → Elt Ideal .f32 :=
  bnReluArr (V c main_v20) (V c main_v34) (V c main_v35) (V c main_v36) (V c main_v37)

/-- An entry of a block of rows is the body's entry function of the matching entry of the whole array. -/
theorem block_entry (hpay : PayloadReadsEntries) (H : S50000x64.Idx → EReal) (mu s g b : S1x64.Idx → EReal)
    (x0 : Vec Ideal S5000x64 .f32) (x1 x2 x3 x4 : Vec Ideal S1x64 .f32) (j : S5000x64.Idx) (i : S50000x64.Idx)
    (h0 : x0 j = H i) (h1 : x1 = mu) (h2 : x2 = s) (h3 : x3 = g) (h4 : x4 = b) (hq : j 1 = i 1) :
    k1_pay1 (F := Ideal) x0 x1 x2 x3 x4 j = bnReluArr H mu s g b i := by
  subst h1 h2 h3 h4
  refine ((congrArg (k1_pay1 (F := Ideal) x0 x1 x2 x3 x4) (eq_ix2 j)).trans (hpay x0 x1 x2 x3 x4 (j 0) (j 1))).trans ?_
  have h0' : x0 (ix2 (j 0) (j 1)) = H i := (congrArg x0 (eq_ix2 j).symm).trans h0
  unfold bnReluArr bnArr
  rw [h0', hq]

/-- The pre-activation block at point `t` holds rows `5000·t …` of its array. -/
theorem rows0 (c : Dev nD) (t : Fin cfg1.N) (j : S5000x64.Idx) (i : S50000x64.Idx) (hi : (i 0).val = t.val * 5000 + (j 0).val)
    (hq : j 1 = i 1) : (iblk1 V c 0 t : S5000x64.Idx → EReal) j = (V c main_v20 : S50000x64.Idx → EReal) i := by
  obtain ⟨e00, e01, -⟩ := idx_facts t
  unfold iblk1
  rw [View.read_apply]
  show V c main_v20 _ = V c main_v20 _
  congr 1
  funext d
  apply Fin.ext
  match d with
  | ⟨0, _⟩ => show win1_0.index t (0 : Fin 2) * 5000 + 1 * (j 0).val = (i 0).val; rw [e00, hi]; omega
  | ⟨1, _⟩ => show win1_0.index t (1 : Fin 2) * 64 + 1 * (j 1).val = (i 1).val; rw [e01, hq]; omega

/-- The four rows are handed whole to every point. -/
theorem whole1 (c : Dev nD) (t : Fin cfg1.N) : (iblk1 V c 1 t : S1x64.Idx → EReal) = V c main_v34 := by
  obtain ⟨-, -, e0, e1, -⟩ := idx_facts t
  funext x
  unfold iblk1
  rw [View.read_apply]
  show V c main_v34 _ = V c main_v34 _
  congr 1
  funext d
  apply Fin.ext
  match d with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

theorem whole2 (c : Dev nD) (t : Fin cfg1.N) : (iblk1 V c 2 t : S1x64.Idx → EReal) = V c main_v35 := by
  obtain ⟨-, -, -, -, e0, e1, -⟩ := idx_facts t
  funext x
  unfold iblk1
  rw [View.read_apply]
  show V c main_v35 _ = V c main_v35 _
  congr 1
  funext d
  apply Fin.ext
  match d with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

theorem whole3 (c : Dev nD) (t : Fin cfg1.N) : (iblk1 V c 3 t : S1x64.Idx → EReal) = V c main_v36 := by
  obtain ⟨-, -, -, -, -, -, e0, e1, -⟩ := idx_facts t
  funext x
  unfold iblk1
  rw [View.read_apply]
  show V c main_v36 _ = V c main_v36 _
  congr 1
  funext d
  apply Fin.ext
  match d with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

theorem whole4 (c : Dev nD) (t : Fin cfg1.N) : (iblk1 V c 4 t : S1x64.Idx → EReal) = V c main_v37 := by
  obtain ⟨-, -, -, -, -, -, -, -, e0, e1, -⟩ := idx_facts t
  funext x
  unfold iblk1
  rw [View.read_apply]
  show V c main_v37 _ = V c main_v37 _
  congr 1
  funext d
  apply Fin.ext
  match d with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- Where an entry of point `t`'s output block sits in the output array. -/
theorem out_emb (t : Fin cfg1.N) (j : S5000x64.Idx) :
    ((((cfg1.win 5).blk t).view.emb j : S50000x64.Idx) 0).val = t.val * 5000 + (j 0).val
    ∧ (((cfg1.win 5).blk t).view.emb j : S50000x64.Idx) 1 = j 1 := by
  obtain ⟨-, -, -, -, -, -, -, -, -, -, e0, e1, -⟩ := idx_facts t
  refine ⟨?_, Fin.ext ?_⟩
  · show win1_5.index t (0 : Fin 2) * 5000 + 1 * (j 0).val = _; rw [e0]; omega
  · show win1_5.index t (1 : Fin 2) * 64 + 1 * (j 1).val = (j 1).val; rw [e1]; omega

/-- What point `t` writes back is block `t` of `G`. -/
theorem flushed_eq (hpay : PayloadReadsEntries) (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  funext j
  obtain ⟨hr, hc⟩ := out_emb t j
  exact block_entry hpay (V c main_v20) (V c main_v34) (V c main_v35) (V c main_v36) (V c main_v37)
    (iblk1 V c 0 t) (iblk1 V c 1 t) (iblk1 V c 2 t) (iblk1 V c 3 t) (iblk1 V c 4 t)
    j (((cfg1.win 5).blk t).view.emb j)
    (rows0 V c t j _ hr hc.symm) (whole1 V c t) (whole2 V c t) (whole3 V c t) (whole4 V c t) hc.symm

/-- An index of the output array is in point `t`'s block iff each coordinate is in the block's range on its axis. -/
theorem mem_blk (t : Fin cfg1.N) (i : S50000x64.Idx) :
    i ∈ ((cfg1.win 5).blk t).view.set ↔ ∀ d : Fin 2, win1_5.index t d * S5000x64.size d ≤ (i d).val ∧ (i d).val < win1_5.index t d * S5000x64.size d + S5000x64.size d := by
  show i ∈ ((View.whole main_v38).slice (win1_5.rect t)).set ↔ _
  rw [View.set_slice_whole, Rect.mem_set_unit]
  exact Iff.rfl

/-- The ten output blocks tile the output array: row `r` is in the block of point `r / 5000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, e0, e1, -⟩ := idx_facts t
  have ht : t.val = (i 0).val / 5000 := rfl
  refine ⟨t, flush1_5 t, ?_⟩
  rw [mem_blk]
  intro d
  match d with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 64 ≤ (i 1).val ∧ (i 1).val < win1_5.index t (1 : Fin 2) * 64 + 64; rw [e1]; omega

/-- THE OUTPUT ARRAY after the launch is `G` of the arrays as the launch found them. -/
theorem out_eq (hpay : PayloadReadsEntries) (c : Dev nD) : (dat1 V c).arrAt 5 cfg1.N = G V c :=
  (dat1 V c).arrAt_eq_of_cover 5 (G V c) (fun t _ => flushed_eq V hpay c t) cover

end Cert.KernelIdeal.Norm1

end
-- ==== Proof.Layer0.lean ====
/-
  Layer 0 of the kernel program, from the launch memory to the contents at the layer's exit.

  The first stretch of host operations cuts the two edge lists out of the edge array, aggregates the neighbours' rows of
  the node features along the edges, lays the two bias vectors out as rows, and cuts layer 0's scale and shift out of
  the stacked arrays; the dense launch reads the node features, the first layer's weights and those rows; a second
  stretch takes the per-feature mean and inverse deviation of the dense output; the normalising launch writes the
  layer's output. The edge lists and the stacked parameter arrays pass through untouched.
-/
import proofs.«103578_j10917806867253_1_alg».proof.Proof.Gen.KernelIdeal.Frame
import proofs.«103578_j10917806867253_1_alg».proof.Proof.Carry
import proofs.«103578_j10917806867253_1_alg».proof.Proof.KernelTerms
import proofs.«103578_j10917806867253_1_alg».proof.Proof.BlockRows
import proofs.«103578_j10917806867253_1_alg».proof.Proof.Dense0
import proofs.«103578_j10917806867253_1_alg».proof.Proof.Norm1
import Idealize.ShloMosaic.Lib.StableHlo.Run

set_option maxRecDepth 16384
set_option maxHeartbeats 2000000

noncomputable section

namespace Cert.KernelIdeal.Layer0

open Cert.KernelIdeal Cert.KernelIdeal.Gen Cert.KernelIdeal.Terms Cert.Gin
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the dense launch finds -/

/-- The node features and the first layer's two weight matrices are arguments: the first stretch writes none. -/
theorem x_in : W1 m ρ c (Proc.devRef .tc main_arg0) = W0 m ρ c (Proc.devRef .tc main_arg0) := Carry.host0 m ρ c main_arg0 (by decide)
theorem w1_in : W1 m ρ c (Proc.devRef .tc main_arg3) = W0 m ρ c (Proc.devRef .tc main_arg3) := Carry.host0 m ρ c main_arg3 (by decide)
theorem w2_in : W1 m ρ c (Proc.devRef .tc main_arg5) = W0 m ρ c (Proc.devRef .tc main_arg5) := Carry.host0 m ρ c main_arg5 (by decide)

/-- The edges' source nodes. -/
theorem src_in : W1 m ρ c (Proc.devRef .tc main_v1) = srcOf (W0 m ρ c (Proc.devRef .tc main_arg1)) := by
  show StableHlo.after hostOps0 (W0 m ρ c) (Proc.devRef .tc main_v1) = _
  simp only [hostOps0]
  after_results_simp
  rfl

/-- The edges' destination nodes. -/
theorem dst_in : W1 m ρ c (Proc.devRef .tc main_v3) = dstOf (W0 m ρ c (Proc.devRef .tc main_arg1)) := by
  show StableHlo.after hostOps0 (W0 m ρ c) (Proc.devRef .tc main_v3) = _
  simp only [hostOps0]
  after_results_simp
  rfl

/-- The aggregated neighbours of the node features along the edges. -/
theorem agg_in : W1 m ρ c (Proc.devRef .tc main_v17) = aggOf2 (W0 m ρ c (Proc.devRef .tc main_arg0)) (srcOf (W0 m ρ c (Proc.devRef .tc main_arg1))) (dstOf (W0 m ρ c (Proc.devRef .tc main_arg1))) := by
  show StableHlo.after hostOps0 (W0 m ρ c) (Proc.devRef .tc main_v17) = _
  simp only [hostOps0]
  after_results_simp
  rfl

/-- The first bias, as a row. -/
theorem b1_in : W1 m ρ c (Proc.devRef .tc main_v18) = shapeCast S1x64 (W0 m ρ c (Proc.devRef .tc main_arg4)) shapeCasts_S64_S1x64 := by
  show StableHlo.after hostOps0 (W0 m ρ c) (Proc.devRef .tc main_v18) = _
  simp only [hostOps0]
  after_results_simp
  rfl

/-- The second bias, as a row. -/
theorem b2_in : W1 m ρ c (Proc.devRef .tc main_v19) = shapeCast S1x64 (W0 m ρ c (Proc.devRef .tc main_arg6)) shapeCasts_S64_S1x64 := by
  show StableHlo.after hostOps0 (W0 m ρ c) (Proc.devRef .tc main_v19) = _
  simp only [hostOps0]
  after_results_simp
  rfl

/-- Layer 0's scale vector. -/
theorem scale_in : W1 m ρ c (Proc.devRef .tc main_v5) = vecOf5_0 (W0 m ρ c (Proc.devRef .tc main_arg11)) := by
  show StableHlo.after hostOps0 (W0 m ρ c) (Proc.devRef .tc main_v5) = _
  simp only [hostOps0]
  after_results_simp
  rfl

/-- Layer 0's shift vector. -/
theorem shift_in : W1 m ρ c (Proc.devRef .tc main_v7) = vecOf5_0 (W0 m ρ c (Proc.devRef .tc main_arg12)) := by
  show StableHlo.after hostOps0 (W0 m ρ c) (Proc.devRef .tc main_v7) = _
  simp only [hostOps0]
  after_results_simp
  rfl

/-! ## What the dense launch leaves -/

/-- The dense launch's output: every node's row of features plus aggregated neighbours through the two dense layers. -/
theorem dense_out : W2 m ρ c (Proc.devRef .tc main_v20)
    = mlpArr (K := 2) (W0 m ρ c (Proc.devRef .tc main_arg0)) (aggOf2 (W0 m ρ c (Proc.devRef .tc main_arg0)) (srcOf (W0 m ρ c (Proc.devRef .tc main_arg1))) (dstOf (W0 m ρ c (Proc.devRef .tc main_arg1))))
        (W0 m ρ c (Proc.devRef .tc main_arg3)) (shapeCast S1x64 (W0 m ρ c (Proc.devRef .tc main_arg4)) shapeCasts_S64_S1x64)
        (W0 m ρ c (Proc.devRef .tc main_arg5)) (shapeCast S1x64 (W0 m ρ c (Proc.devRef .tc main_arg6)) shapeCasts_S64_S1x64) := by
  refine (W2_arr m ρ c 6).trans ((Dense0.out_eq (V1 m ρ) Cert.Gin.Block.pay0_apply c).trans ?_)
  show mlpArr (K := 2) (W1 m ρ c (Proc.devRef .tc main_arg0)) (W1 m ρ c (Proc.devRef .tc main_v17)) (W1 m ρ c (Proc.devRef .tc main_arg3)) (W1 m ρ c (Proc.devRef .tc main_v18)) (W1 m ρ c (Proc.devRef .tc main_arg5)) (W1 m ρ c (Proc.devRef .tc main_v19)) = _
  rw [x_in, agg_in, w1_in, b1_in, w2_in, b2_in]

/-! ## What the normalising launch finds -/

/-- The dense output is not written by the second stretch. -/
theorem h_in : W3 m ρ c (Proc.devRef .tc main_v20) = W2 m ρ c (Proc.devRef .tc main_v20) := Carry.host1 m ρ c main_v20 (by decide)

/-- The per-feature mean of the dense output, as a row. -/
theorem mean_in : W3 m ρ c (Proc.devRef .tc main_v34) = shapeCast S1x64 (meanOf (W2 m ρ c (Proc.devRef .tc main_v20))) shapeCasts_S64_S1x64 := by
  show StableHlo.after hostOps1 (W2 m ρ c) (Proc.devRef .tc main_v34) = _
  simp only [hostOps1]
  after_results_simp
  rfl

/-- The per-feature inverse deviation of the dense output, as a row. -/
theorem inv_in : W3 m ρ c (Proc.devRef .tc main_v35) = shapeCast S1x64 (invOf (W2 m ρ c (Proc.devRef .tc main_v20))) shapeCasts_S64_S1x64 := by
  show StableHlo.after hostOps1 (W2 m ρ c) (Proc.devRef .tc main_v35) = _
  simp only [hostOps1]
  after_results_simp
  rfl

/-- The scale, as a row. -/
theorem scale_row_in : W3 m ρ c (Proc.devRef .tc main_v36) = shapeCast S1x64 (W2 m ρ c (Proc.devRef .tc main_v5)) shapeCasts_S64_S1x64 := by
  show StableHlo.after hostOps1 (W2 m ρ c) (Proc.devRef .tc main_v36) = _
  simp only [hostOps1]
  after_results_simp
  rfl

/-- The shift, as a row. -/
theorem shift_row_in : W3 m ρ c (Proc.devRef .tc main_v37) = shapeCast S1x64 (W2 m ρ c (Proc.devRef .tc main_v7)) shapeCasts_S64_S1x64 := by
  show StableHlo.after hostOps1 (W2 m ρ c) (Proc.devRef .tc main_v37) = _
  simp only [hostOps1]
  after_results_simp
  rfl

/-- The scale and shift vectors pass through the dense launch. -/
theorem scale_kept : W2 m ρ c (Proc.devRef .tc main_v5) = vecOf5_0 (W0 m ρ c (Proc.devRef .tc main_arg11)) :=
  (W2_of_ne m ρ c main_v5 (by decide)).trans (scale_in m ρ c)
theorem shift_kept : W2 m ρ c (Proc.devRef .tc main_v7) = vecOf5_0 (W0 m ρ c (Proc.devRef .tc main_arg12)) :=
  (W2_of_ne m ρ c main_v7 (by decide)).trans (shift_in m ρ c)

/-! ## What the normalising launch leaves -/

/-- The layer's output: the dense output normalised per feature and rectified. -/
theorem norm_out : W4 m ρ c (Proc.devRef .tc main_v38)
    = bnReluArr (W2 m ρ c (Proc.devRef .tc main_v20)) (shapeCast S1x64 (meanOf (W2 m ρ c (Proc.devRef .tc main_v20))) shapeCasts_S64_S1x64) (shapeCast S1x64 (invOf (W2 m ρ c (Proc.devRef .tc main_v20))) shapeCasts_S64_S1x64)
        (shapeCast S1x64 (vecOf5_0 (W0 m ρ c (Proc.devRef .tc main_arg11))) shapeCasts_S64_S1x64)
        (shapeCast S1x64 (vecOf5_0 (W0 m ρ c (Proc.devRef .tc main_arg12))) shapeCasts_S64_S1x64) := by
  refine (W4_arr m ρ c 5).trans ((Norm1.out_eq (V3 m ρ) Cert.Gin.Block.pay1_apply c).trans ?_)
  show bnReluArr (W3 m ρ c (Proc.devRef .tc main_v20)) (W3 m ρ c (Proc.devRef .tc main_v34)) (W3 m ρ c (Proc.devRef .tc main_v35)) (W3 m ρ c (Proc.devRef .tc main_v36)) (W3 m ρ c (Proc.devRef .tc main_v37)) = _
  rw [h_in, mean_in, inv_in, scale_row_in, shift_row_in, scale_kept, shift_kept]

/-! ## What passes through the layer untouched -/

theorem carry_v1 : W4 m ρ c (Proc.devRef .tc main_v1) = W1 m ρ c (Proc.devRef .tc main_v1) :=
  (W4_of_ne m ρ c main_v1 (by decide)).trans ((Carry.host1 m ρ c main_v1 (by decide)).trans (W2_of_ne m ρ c main_v1 (by decide)))
theorem carry_v3 : W4 m ρ c (Proc.devRef .tc main_v3) = W1 m ρ c (Proc.devRef .tc main_v3) :=
  (W4_of_ne m ρ c main_v3 (by decide)).trans ((Carry.host1 m ρ c main_v3 (by decide)).trans (W2_of_ne m ρ c main_v3 (by decide)))
theorem carry_arg7 : W4 m ρ c (Proc.devRef .tc main_arg7) = W0 m ρ c (Proc.devRef .tc main_arg7) :=
  (W4_of_ne m ρ c main_arg7 (by decide)).trans ((Carry.host1 m ρ c main_arg7 (by decide)).trans
    ((W2_of_ne m ρ c main_arg7 (by decide)).trans (Carry.host0 m ρ c main_arg7 (by decide))))
theorem carry_arg8 : W4 m ρ c (Proc.devRef .tc main_arg8) = W0 m ρ c (Proc.devRef .tc main_arg8) :=
  (W4_of_ne m ρ c main_arg8 (by decide)).trans ((Carry.host1 m ρ c main_arg8 (by decide)).trans
    ((W2_of_ne m ρ c main_arg8 (by decide)).trans (Carry.host0 m ρ c main_arg8 (by decide))))
theorem carry_arg9 : W4 m ρ c (Proc.devRef .tc main_arg9) = W0 m ρ c (Proc.devRef .tc main_arg9) :=
  (W4_of_ne m ρ c main_arg9 (by decide)).trans ((Carry.host1 m ρ c main_arg9 (by decide)).trans
    ((W2_of_ne m ρ c main_arg9 (by decide)).trans (Carry.host0 m ρ c main_arg9 (by decide))))
theorem carry_arg10 : W4 m ρ c (Proc.devRef .tc main_arg10) = W0 m ρ c (Proc.devRef .tc main_arg10) :=
  (W4_of_ne m ρ c main_arg10 (by decide)).trans ((Carry.host1 m ρ c main_arg10 (by decide)).trans
    ((W2_of_ne m ρ c main_arg10 (by decide)).trans (Carry.host0 m ρ c main_arg10 (by decide))))
theorem carry_arg11 : W4 m ρ c (Proc.devRef .tc main_arg11) = W0 m ρ c (Proc.devRef .tc main_arg11) :=
  (W4_of_ne m ρ c main_arg11 (by decide)).trans ((Carry.host1 m ρ c main_arg11 (by decide)).trans
    ((W2_of_ne m ρ c main_arg11 (by decide)).trans (Carry.host0 m ρ c main_arg11 (by decide))))
theorem carry_arg12 : W4 m ρ c (Proc.devRef .tc main_arg12) = W0 m ρ c (Proc.devRef .tc main_arg12) :=
  (W4_of_ne m ρ c main_arg12 (by decide)).trans ((Carry.host1 m ρ c main_arg12 (by decide)).trans
    ((W2_of_ne m ρ c main_arg12 (by decide)).trans (Carry.host0 m ρ c main_arg12 (by decide))))

end Cert.KernelIdeal.Layer0

end
-- ==== Proof.Dense2.lean ====
/-
  Launch 2 (a dense launch over 64 input features), read as a whole-array function.

  The grid has ten points. Point `t` is handed rows `5000·t … 5000·t + 4999` of the node features and of the aggregated
  neighbours, and the two weight matrices and the two bias rows whole; it writes rows `5000·t … 5000·t + 4999` of the
  output. Since an output row depends only on the same row of the two inputs, the block a point writes is the
  restriction of one function of the whole arrays, and the ten blocks tile the output: after the launch the output
  array is that function of the arrays as the launch found them.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Dense2

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: one row through the two dense layers. -/
def PayloadReadsRows : Prop :=
  ∀ (x0 x1 : Vec Ideal S5000x64 .f32) (x2 : Vec Ideal S64x64 .f32) (x3 : Vec Ideal S1x64 .f32) (x4 : Vec Ideal S64x64 .f32)
    (x5 : Vec Ideal S1x64 .f32) (p : Fin 5000) (q : Fin 64),
    k2_pay1 (F := Ideal) x0 x1 x2 x3 x4 x5 (ix2 p q)
      = mlpRow (fun i => x0 (ix2 p i)) (fun i => x1 (ix2 p i)) (fun i j => x2 (ix2 i j)) (fun j => x3 (ix2 0 j))
          (fun j c => x4 (ix2 j c)) (fun c => x5 (ix2 0 c)) q

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the two node blocks and the output block move with the point, the weights and
    the bias rows stay at block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 10 :=
  (by decide +kernel : ∀ t : Fin grid2.N, _)

/-- The output array after the launch: every node's row through the two dense layers. -/
abbrev G (c : Dev nD) : S50000x64.Idx → Elt Ideal .f32 :=
  mlpArr (K := 64) (V c main_v38) (V c main_v60) (V c main_v40) (V c main_v61) (V c main_v44) (V c main_v62)

/-- An entry of a block of rows is the body's row function of the matching rows of the whole arrays. -/
theorem block_entry (hpay : PayloadReadsRows) (X A : S50000x64.Idx → EReal) (w1 : S64x64.Idx → EReal) (b1 : S1x64.Idx → EReal)
    (w2 : S64x64.Idx → EReal) (b2 : S1x64.Idx → EReal)
    (x0 x1 : Vec Ideal S5000x64 .f32) (x2 : Vec Ideal S64x64 .f32) (x3 : Vec Ideal S1x64 .f32) (x4 : Vec Ideal S64x64 .f32)
    (x5 : Vec Ideal S1x64 .f32) (j : S5000x64.Idx) (i : S50000x64.Idx)
    (h0 : ∀ k, x0 (ix2 (j 0) k) = X (ix2 (i 0) k)) (h1 : ∀ k, x1 (ix2 (j 0) k) = A (ix2 (i 0) k))
    (h2 : x2 = w1) (h3 : x3 = b1) (h4 : x4 = w2) (h5 : x5 = b2) (hq : j 1 = i 1) :
    k2_pay1 (F := Ideal) x0 x1 x2 x3 x4 x5 j = mlpArr (K := 64) X A w1 b1 w2 b2 i := by
  subst h2 h3 h4 h5
  refine ((congrArg (k2_pay1 (F := Ideal) x0 x1 x2 x3 x4 x5) (eq_ix2 j)).trans (hpay x0 x1 x2 x3 x4 x5 (j 0) (j 1))).trans ?_
  unfold mlpArr
  simp only [h0, h1, hq]

/-- A node block at point `t` holds rows `5000·t …` of its array. -/
theorem rows0 (c : Dev nD) (t : Fin cfg2.N) (j : S5000x64.Idx) (i : S50000x64.Idx) (hi : (i 0).val = t.val * 5000 + (j 0).val)
    (k : Fin 64) : (iblk2 V c 0 t : S5000x64.Idx → EReal) (ix2 (j 0) k) = (V c main_v38 : S50000x64.Idx → EReal) (ix2 (i 0) k) := by
  obtain ⟨e00, e01, -⟩ := idx_facts t
  unfold iblk2
  rw [View.read_apply]
  show V c main_v38 _ = V c main_v38 _
  congr 1
  funext d
  apply Fin.ext
  match d with
  | ⟨0, _⟩ => show win2_0.index t (0 : Fin 2) * 5000 + 1 * (j 0).val = (i 0).val; rw [e00, hi]; omega
  | ⟨1, _⟩ => show win2_0.index t (1 : Fin 2) * 64 + 1 * k.val = k.val; rw [e01]; omega

theorem rows1 (c : Dev nD) (t : Fin cfg2.N) (j : S5000x64.Idx) (i : S50000x64.Idx) (hi : (i 0).val = t.val * 5000 + (j 0).val)
    (k : Fin 64) : (iblk2 V c 1 t : S5000x64.Idx → EReal) (ix2 (j 0) k) = (V c main_v60 : S50000x64.Idx → EReal) (ix2 (i 0) k) := by
  obtain ⟨-, -, e10, e11, -⟩ := idx_facts t
  unfold iblk2
  rw [View.read_apply]
  show V c main_v60 _ = V c main_v60 _
  congr 1
  funext d
  apply Fin.ext
  match d with
  | ⟨0, _⟩ => show win2_1.index t (0 : Fin 2) * 5000 + 1 * (j 0).val = (i 0).val; rw [e10, hi]; omega
  | ⟨1, _⟩ => show win2_1.index t (1 : Fin 2) * 64 + 1 * k.val = k.val; rw [e11]; omega

/-- The weights and the bias rows are handed whole to every point. -/
theorem whole2 (c : Dev nD) (t : Fin cfg2.N) : (iblk2 V c 2 t : S64x64.Idx → EReal) = V c main_v40 := by
  obtain ⟨-, -, -, -, e0, e1, -⟩ := idx_facts t
  funext x
  unfold iblk2
  rw [View.read_apply]
  show V c main_v40 _ = V c main_v40 _
  congr 1
  funext d
  apply Fin.ext
  match d with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

theorem whole3 (c : Dev nD) (t : Fin cfg2.N) : (iblk2 V c 3 t : S1x64.Idx → EReal) = V c main_v61 := by
  obtain ⟨-, -, -, -, -, -, e0, e1, -⟩ := idx_facts t
  funext x
  unfold iblk2
  rw [View.read_apply]
  show V c main_v61 _ = V c main_v61 _
  congr 1
  funext d
  apply Fin.ext
  match d with
  | ⟨0, _⟩ => show win2_3.index t (0 : Fin 2) * 1 + 1 * (x 0).val = (x 0).val; rw [e0]; omega
  | ⟨1, _⟩ => show win2_3.index t (1 : Fin 2) * 64 + 1 * (x 1).val = (x 1).val; rw [e1]; omega

theorem whole4 (c : Dev nD) (t : Fin cfg2.N) : (iblk2 V c 4 t : S64x64.Idx → EReal) = V c main_v44 := by
  obtain ⟨-, -, -, -, -, -, -, -, e0, e1, -⟩ := idx_facts t
  funext x
  unfold iblk2
  rw [View.read_apply]
  show V c main_v44 _ = V c main_v44 _
  congr 1
  funext d
  apply Fin.ext
  match d with
  | ⟨0, _⟩ => show win2_4.index t (0 : Fin 2) * 64 + 1 * (x 0).val = (x 0).val; rw [e0]; omega
  | ⟨1, _⟩ => show win2_4.index t (1 : Fin 2) * 64 + 1 * (x 1).val = (x 1).val; rw [e1]; omega

theorem whole5 (c : Dev nD) (t : Fin cfg2.N) : (iblk2 V c 5 t : S1x64.Idx → EReal) = V c main_v62 := by
  obtain ⟨-, -, -, -, -, -, -, -, -, -, e0, e1, -⟩ := idx_facts t
  funext x
  unfold iblk2
  rw [View.read_apply]
  show V c main_v62 _ = V c main_v62 _
  congr 1
  funext d
  apply Fin.ext
  match d with
  | ⟨0, _⟩ => show win2_5.index t (0 : Fin 2) * 1 + 1 * (x 0).val = (x 0).val; rw [e0]; omega
  | ⟨1, _⟩ => show win2_5.index t (1 : Fin 2) * 64 + 1 * (x 1).val = (x 1).val; rw [e1]; omega

/-- Where an entry of point `t`'s output block sits in the output array. -/
theorem out_emb (t : Fin cfg2.N) (j : S5000x64.Idx) :
    ((((cfg2.win 6).blk t).view.emb j : S50000x64.Idx) 0).val = t.val * 5000 + (j 0).val
    ∧ (((cfg2.win 6).blk t).view.emb j : S50000x64.Idx) 1 = j 1 := by
  obtain ⟨-, -, -, -, -, -, -, -, -, -, -, -, e0, e1, -⟩ := idx_facts t
  refine ⟨?_, Fin.ext ?_⟩
  · show win2_6.index t (0 : Fin 2) * 5000 + 1 * (j 0).val = _; rw [e0]; omega
  · show win2_6.index t (1 : Fin 2) * 64 + 1 * (j 1).val = (j 1).val; rw [e1]; omega

/-- What point `t` writes back is block `t` of `G`. -/
theorem flushed_eq (hpay : PayloadReadsRows) (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz,
    View.ld_unit_zero (S := S64x64) hz]
  funext j
  obtain ⟨hr, hc⟩ := out_emb t j
  exact block_entry hpay (V c main_v38) (V c main_v60) (V c main_v40) (V c main_v61) (V c main_v44) (V c main_v62)
    (iblk2 V c 0 t) (iblk2 V c 1 t) (iblk2 V c 2 t) (iblk2 V c 3 t) (iblk2 V c 4 t) (iblk2 V c 5 t)
    j (((cfg2.win 6).blk t).view.emb j)
    (rows0 V c t j _ hr) (rows1 V c t j _ hr) (whole2 V c t) (whole3 V c t) (whole4 V c t) (whole5 V c t) hc.symm

/-- An index of the output array is in point `t`'s block iff each coordinate is in the block's range on its axis. -/
theorem mem_blk (t : Fin cfg2.N) (i : S50000x64.Idx) :
    i ∈ ((cfg2.win 6).blk t).view.set ↔ ∀ d : Fin 2, win2_6.index t d * S5000x64.size d ≤ (i d).val ∧ (i d).val < win2_6.index t d * S5000x64.size d + S5000x64.size d := by
  show i ∈ ((View.whole main_v63).slice (win2_6.rect t)).set ↔ _
  rw [View.set_slice_whole, Rect.mem_set_unit]
  exact Iff.rfl

/-- The ten output blocks tile the output array: row `r` is in the block of point `r / 5000`. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, -, -, -, -, -, -, e0, e1, -⟩ := idx_facts t
  have ht : t.val = (i 0).val / 5000 := rfl
  refine ⟨t, flush2_6 t, ?_⟩
  rw [mem_blk]
  intro d
  match d with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 64 ≤ (i 1).val ∧ (i 1).val < win2_6.index t (1 : Fin 2) * 64 + 64; rw [e1]; omega

/-- THE OUTPUT ARRAY after the launch is `G` of the arrays as the launch found them. -/
theorem out_eq (hpay : PayloadReadsRows) (c : Dev nD) : (dat2 V c).arrAt 6 cfg2.N = G V c :=
  (dat2 V c).arrAt_eq_of_cover 6 (G V c) (fun t _ => flushed_eq V hpay c t) cover

end Cert.KernelIdeal.Dense2

end
-- ==== Proof.Norm3.lean ====
/-
  Launch 3 (a normalising launch with the rectifier), read as a whole-array function.

  The grid has ten points. Point `t` is handed rows `5000·t … 5000·t + 4999` of the pre-activations and the four
  `[1, 64]` rows (mean, inverse deviation, scale, shift) whole; it writes the same rows of the output. An output entry
  depends only on the same entry of the pre-activations and on its column of the four rows, so the block a point writes
  is the restriction of one function of the whole arrays, and the ten blocks tile the output.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Norm3

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: the normalised entry, rectified. -/
def PayloadReadsEntries : Prop :=
  ∀ (x0 : Vec Ideal S5000x64 .f32) (x1 x2 x3 x4 : Vec Ideal S1x64 .f32) (p : Fin 5000) (q : Fin 64),
    k3_pay1 (F := Ideal) x0 x1 x2 x3 x4 (ix2 p q) = relu (bnEntry (x0 (ix2 p q)) (x1 (ix2 0 q)) (x2 (ix2 0 q)) (x3 (ix2 0 q)) (x4 (ix2 0 q)))

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the pre-activation block and the output block move with the point, the four
    rows stay at block (0, 0). -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- The output array after the launch: every entry normalised and rectified. -/
abbrev G (c : Dev nD) : S50000x64.Idx → Elt Ideal .f32 :=
  bnReluArr (V c main_v63) (V c main_v77) (V c main_v78) (V c main_v79) (V c main_v80)

/-- An entry of a block of rows is the body's entry function of the matching entry of the whole array. -/
theorem block_entry (hpay : PayloadReadsEntries) (H : S50000x64.Idx → EReal) (mu s g b : S1x64.Idx → EReal)
    (x0 : Vec Ideal S5000x64 .f32) (x1 x2 x3 x4 : Vec Ideal S1x64 .f32) (j : S5000x64.Idx) (i : S50000x64.Idx)
    (h0 : x0 j = H i) (h1 : x1 = mu) (h2 : x2 = s) (h3 : x3 = g) (h4 : x4 = b) (hq : j 1 = i 1) :
    k3_pay1 (F := Ideal) x0 x1 x2 x3 x4 j = bnReluArr H mu s g b i := by
  subst h1 h2 h3 h4
  refine ((congrArg (k3_pay1 (F := Ideal) x0 x1 x2 x3 x4) (eq_ix2 j)).trans (hpay x0 x1 x2 x3 x4 (j 0) (j 1))).trans ?_
  have h0' : x0 (ix2 (j 0) (j 1)) = H i := (congrArg x0 (eq_ix2 j).symm).trans h0
  unfold bnReluArr bnArr
  rw [h0', hq]

/-- The pre-activation block at point `t` holds rows `5000·t …` of its array. -/
theorem rows0 (c : Dev nD) (t : Fin cfg3.N) (j : S5000x64.Idx) (i : S50000x64.Idx) (hi : (i 0).val = t.val * 5000 + (j 0).val)
    (hq : j 1 = i 1) : (iblk3 V c 0 t : S5000x64.Idx → EReal) j = (V c main_v63 : S50000x64.Idx → EReal) i := by
  obtain ⟨e00, e01, -⟩ := idx_facts t
  unfold iblk3
  rw [View.read_apply]
  show V c main_v63 _ = V c main_v63 _
  congr 1
  funext d
  apply Fin.ext
  match d with
  | ⟨0, _⟩ => show win3_0.index t (0 : Fin 2) * 5000 + 1 * (j 0).val = (i 0).val; rw [e00, hi]; omega
  | ⟨1, _⟩ => show win3_0.index t (1 : Fin 2) * 64 + 1 * (j 1).val = (i 1).val; rw [e01, hq]; omega

/-- The four rows are handed whole to every point. -/
theorem whole1 (c : Dev nD) (t : Fin cfg3.N) : (iblk3 V c 1 t : S1x64.Idx → EReal) = V c main_v77 := by
  obtain ⟨-, -, e0, e1, -⟩ := idx_facts t
  funext x
  unfold iblk3
  rw [View.read_apply]
  show V c main_v77 _ = V c main_v77 _
  congr 1
  funext d
  apply Fin.ext
  match d with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

theorem whole2 (c : Dev nD) (t : Fin cfg3.N) : (iblk3 V c 2 t : S1x64.Idx → EReal) = V c main_v78 := by
  obtain ⟨-, -, -, -, e0, e1, -⟩ := idx_facts t
  funext x
  unfold iblk3
  rw [View.read_apply]
  show V c main_v78 _ = V c main_v78 _
  congr 1
  funext d
  apply Fin.ext
  match d with
  | ⟨0, _⟩ => show win3_2.index t (0 : Fin 2) * 1 + 1 * (x 0).val = (x 0).val; rw [e0]; omega
  | ⟨1, _⟩ => show win3_2.index t (1 : Fin 2) * 64 + 1 * (x 1).val = (x 1).val; rw [e1]; omega

theorem whole3 (c : Dev nD) (t : Fin cfg3.N) : (iblk3 V c 3 t : S1x64.Idx → EReal) = V c main_v79 := by
  obtain ⟨-, -, -, -, -, -, e0, e1, -⟩ := idx_facts t
  funext x
  unfold iblk3
  rw [View.read_apply]
  show V c main_v79 _ = V c main_v79 _
  congr 1
  funext d
  apply Fin.ext
  match d with
  | ⟨0, _⟩ => show win3_3.index t (0 : Fin 2) * 1 + 1 * (x 0).val = (x 0).val; rw [e0]; omega
  | ⟨1, _⟩ => show win3_3.index t (1 : Fin 2) * 64 + 1 * (x 1).val = (x 1).val; rw [e1]; omega

theorem whole4 (c : Dev nD) (t : Fin cfg3.N) : (iblk3 V c 4 t : S1x64.Idx → EReal) = V c main_v80 := by
  obtain ⟨-, -, -, -, -, -, -, -, e0, e1, -⟩ := idx_facts t
  funext x
  unfold iblk3
  rw [View.read_apply]
  show V c main_v80 _ = V c main_v80 _
  congr 1
  funext d
  apply Fin.ext
  match d with
  | ⟨0, _⟩ => show win3_4.index t (0 : Fin 2) * 1 + 1 * (x 0).val = (x 0).val; rw [e0]; omega
  | ⟨1, _⟩ => show win3_4.index t (1 : Fin 2) * 64 + 1 * (x 1).val = (x 1).val; rw [e1]; omega

/-- Where an entry of point `t`'s output block sits in the output array. -/
theorem out_emb (t : Fin cfg3.N) (j : S5000x64.Idx) :
    ((((cfg3.win 5).blk t).view.emb j : S50000x64.Idx) 0).val = t.val * 5000 + (j 0).val
    ∧ (((cfg3.win 5).blk t).view.emb j : S50000x64.Idx) 1 = j 1 := by
  obtain ⟨-, -, -, -, -, -, -, -, -, -, e0, e1, -⟩ := idx_facts t
  refine ⟨?_, Fin.ext ?_⟩
  · show win3_5.index t (0 : Fin 2) * 5000 + 1 * (j 0).val = _; rw [e0]; omega
  · show win3_5.index t (1 : Fin 2) * 64 + 1 * (j 1).val = (j 1).val; rw [e1]; omega

/-- What point `t` writes back is block `t` of `G`. -/
theorem flushed_eq (hpay : PayloadReadsEntries) (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  funext j
  obtain ⟨hr, hc⟩ := out_emb t j
  exact block_entry hpay (V c main_v63) (V c main_v77) (V c main_v78) (V c main_v79) (V c main_v80)
    (iblk3 V c 0 t) (iblk3 V c 1 t) (iblk3 V c 2 t) (iblk3 V c 3 t) (iblk3 V c 4 t)
    j (((cfg3.win 5).blk t).view.emb j)
    (rows0 V c t j _ hr hc.symm) (whole1 V c t) (whole2 V c t) (whole3 V c t) (whole4 V c t) hc.symm

/-- An index of the output array is in point `t`'s block iff each coordinate is in the block's range on its axis. -/
theorem mem_blk (t : Fin cfg3.N) (i : S50000x64.Idx) :
    i ∈ ((cfg3.win 5).blk t).view.set ↔ ∀ d : Fin 2, win3_5.index t d * S5000x64.size d ≤ (i d).val ∧ (i d).val < win3_5.index t d * S5000x64.size d + S5000x64.size d := by
  show i ∈ ((View.whole main_v81).slice (win3_5.rect t)).set ↔ _
  rw [View.set_slice_whole, Rect.mem_set_unit]
  exact Iff.rfl

/-- The ten output blocks tile the output array: row `r` is in the block of point `r / 5000`. -/
theorem cover (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, -, -, -, -, -, -, -, e0, e1, -⟩ := idx_facts t
  have ht : t.val = (i 0).val / 5000 := rfl
  refine ⟨t, flush3_5 t, ?_⟩
  rw [mem_blk]
  intro d
  match d with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 64 ≤ (i 1).val ∧ (i 1).val < win3_5.index t (1 : Fin 2) * 64 + 64; rw [e1]; omega

/-- THE OUTPUT ARRAY after the launch is `G` of the arrays as the launch found them. -/
theorem out_eq (hpay : PayloadReadsEntries) (c : Dev nD) : (dat3 V c).arrAt 5 cfg3.N = G V c :=
  (dat3 V c).arrAt_eq_of_cover 5 (G V c) (fun t _ => flushed_eq V hpay c t) cover

end Cert.KernelIdeal.Norm3

end
-- ==== Proof.Layer1.lean ====
/-
  Layer 1 of the kernel program, from the contents at its entry to the contents at its exit.

  The layer is a stretch of host operations (the neighbour aggregation and this layer's parameter slices), the dense
  launch, a second stretch (the per-feature mean and inverse deviation of the dense output) and the normalising launch.
  Each launch's entry contents are read off the stretch before it; each launch leaves in its output array the
  whole-array function of what it found; the edge lists and the stacked parameter arrays pass through untouched.
-/
import proofs.«103578_j10917806867253_1_alg».proof.Proof.Gen.KernelIdeal.Frame
import proofs.«103578_j10917806867253_1_alg».proof.Proof.Carry
import proofs.«103578_j10917806867253_1_alg».proof.Proof.KernelTerms
import proofs.«103578_j10917806867253_1_alg».proof.Proof.BlockRows
import proofs.«103578_j10917806867253_1_alg».proof.Proof.Dense2
import proofs.«103578_j10917806867253_1_alg».proof.Proof.Norm3
import Idealize.ShloMosaic.Lib.StableHlo.Run

set_option maxRecDepth 16384
set_option maxHeartbeats 2000000

noncomputable section

namespace Cert.KernelIdeal.Layer1

open Cert.KernelIdeal Cert.KernelIdeal.Gen Cert.KernelIdeal.Terms Cert.Gin
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the dense launch finds -/

/-- The layer's input is not written by the first stretch. -/
theorem x_in : W5 m ρ c (Proc.devRef .tc main_v38) = W4 m ρ c (Proc.devRef .tc main_v38) := Carry.host2 m ρ c main_v38 (by decide)

/-- The aggregated neighbours of the layer's input along the edges. -/
theorem agg_in : W5 m ρ c (Proc.devRef .tc main_v60) = aggOf64 (W4 m ρ c (Proc.devRef .tc main_v38)) (W4 m ρ c (Proc.devRef .tc main_v1)) (W4 m ρ c (Proc.devRef .tc main_v3)) := by
  show StableHlo.after hostOps2 (W4 m ρ c) (Proc.devRef .tc main_v60) = _
  simp only [hostOps2]
  after_results_simp
  rfl

/-- The first weight matrix. -/
theorem w1_in : W5 m ρ c (Proc.devRef .tc main_v40) = matOf0 (W4 m ρ c (Proc.devRef .tc main_arg7)) := by
  show StableHlo.after hostOps2 (W4 m ρ c) (Proc.devRef .tc main_v40) = _
  simp only [hostOps2]
  after_results_simp
  rfl

/-- The first bias, as a row. -/
theorem b1_in : W5 m ρ c (Proc.devRef .tc main_v61) = shapeCast S1x64 (vecOf4_0 (W4 m ρ c (Proc.devRef .tc main_arg8))) shapeCasts_S64_S1x64 := by
  show StableHlo.after hostOps2 (W4 m ρ c) (Proc.devRef .tc main_v61) = _
  simp only [hostOps2]
  after_results_simp
  rfl

/-- The second weight matrix. -/
theorem w2_in : W5 m ρ c (Proc.devRef .tc main_v44) = matOf0 (W4 m ρ c (Proc.devRef .tc main_arg9)) := by
  show StableHlo.after hostOps2 (W4 m ρ c) (Proc.devRef .tc main_v44) = _
  simp only [hostOps2]
  after_results_simp
  rfl

/-- The second bias, as a row. -/
theorem b2_in : W5 m ρ c (Proc.devRef .tc main_v62) = shapeCast S1x64 (vecOf4_0 (W4 m ρ c (Proc.devRef .tc main_arg10))) shapeCasts_S64_S1x64 := by
  show StableHlo.after hostOps2 (W4 m ρ c) (Proc.devRef .tc main_v62) = _
  simp only [hostOps2]
  after_results_simp
  rfl

/-- The layer's scale vector. -/
theorem scale_in : W5 m ρ c (Proc.devRef .tc main_v48) = vecOf5_1 (W4 m ρ c (Proc.devRef .tc main_arg11)) := by
  show StableHlo.after hostOps2 (W4 m ρ c) (Proc.devRef .tc main_v48) = _
  simp only [hostOps2]
  after_results_simp
  rfl

/-- The layer's shift vector. -/
theorem shift_in : W5 m ρ c (Proc.devRef .tc main_v50) = vecOf5_1 (W4 m ρ c (Proc.devRef .tc main_arg12)) := by
  show StableHlo.after hostOps2 (W4 m ρ c) (Proc.devRef .tc main_v50) = _
  simp only [hostOps2]
  after_results_simp
  rfl

/-! ## What the dense launch leaves -/

/-- The dense launch's output: every node's row of input plus aggregated neighbours through the two dense layers. -/
theorem dense_out : W6 m ρ c (Proc.devRef .tc main_v63)
    = mlpArr (K := 64) (W4 m ρ c (Proc.devRef .tc main_v38)) (aggOf64 (W4 m ρ c (Proc.devRef .tc main_v38)) (W4 m ρ c (Proc.devRef .tc main_v1)) (W4 m ρ c (Proc.devRef .tc main_v3)))
        (matOf0 (W4 m ρ c (Proc.devRef .tc main_arg7))) (shapeCast S1x64 (vecOf4_0 (W4 m ρ c (Proc.devRef .tc main_arg8))) shapeCasts_S64_S1x64)
        (matOf0 (W4 m ρ c (Proc.devRef .tc main_arg9))) (shapeCast S1x64 (vecOf4_0 (W4 m ρ c (Proc.devRef .tc main_arg10))) shapeCasts_S64_S1x64) := by
  refine (W6_arr m ρ c 6).trans ((Dense2.out_eq (V5 m ρ) Cert.Gin.Block.pay2_apply c).trans ?_)
  show mlpArr (K := 64) (W5 m ρ c (Proc.devRef .tc main_v38)) (W5 m ρ c (Proc.devRef .tc main_v60)) (W5 m ρ c (Proc.devRef .tc main_v40)) (W5 m ρ c (Proc.devRef .tc main_v61)) (W5 m ρ c (Proc.devRef .tc main_v44)) (W5 m ρ c (Proc.devRef .tc main_v62)) = _
  rw [x_in, agg_in, w1_in, b1_in, w2_in, b2_in]

/-! ## What the normalising launch finds -/

/-- The dense output is not written by the second stretch. -/
theorem h_in : W7 m ρ c (Proc.devRef .tc main_v63) = W6 m ρ c (Proc.devRef .tc main_v63) := Carry.host3 m ρ c main_v63 (by decide)

/-- The per-feature mean of the dense output, as a row. -/
theorem mean_in : W7 m ρ c (Proc.devRef .tc main_v77) = shapeCast S1x64 (meanOf (W6 m ρ c (Proc.devRef .tc main_v63))) shapeCasts_S64_S1x64 := by
  show StableHlo.after hostOps3 (W6 m ρ c) (Proc.devRef .tc main_v77) = _
  simp only [hostOps3]
  after_results_simp
  rfl

/-- The per-feature inverse deviation of the dense output, as a row. -/
theorem inv_in : W7 m ρ c (Proc.devRef .tc main_v78) = shapeCast S1x64 (invOf (W6 m ρ c (Proc.devRef .tc main_v63))) shapeCasts_S64_S1x64 := by
  show StableHlo.after hostOps3 (W6 m ρ c) (Proc.devRef .tc main_v78) = _
  simp only [hostOps3]
  after_results_simp
  rfl

/-- The scale, as a row. -/
theorem scale_row_in : W7 m ρ c (Proc.devRef .tc main_v79) = shapeCast S1x64 (W6 m ρ c (Proc.devRef .tc main_v48)) shapeCasts_S64_S1x64 := by
  show StableHlo.after hostOps3 (W6 m ρ c) (Proc.devRef .tc main_v79) = _
  simp only [hostOps3]
  after_results_simp
  rfl

/-- The shift, as a row. -/
theorem shift_row_in : W7 m ρ c (Proc.devRef .tc main_v80) = shapeCast S1x64 (W6 m ρ c (Proc.devRef .tc main_v50)) shapeCasts_S64_S1x64 := by
  show StableHlo.after hostOps3 (W6 m ρ c) (Proc.devRef .tc main_v80) = _
  simp only [hostOps3]
  after_results_simp
  rfl

/-- The scale and shift vectors pass through the dense launch. -/
theorem scale_kept : W6 m ρ c (Proc.devRef .tc main_v48) = vecOf5_1 (W4 m ρ c (Proc.devRef .tc main_arg11)) :=
  (W6_of_ne m ρ c main_v48 (by decide)).trans (scale_in m ρ c)
theorem shift_kept : W6 m ρ c (Proc.devRef .tc main_v50) = vecOf5_1 (W4 m ρ c (Proc.devRef .tc main_arg12)) :=
  (W6_of_ne m ρ c main_v50 (by decide)).trans (shift_in m ρ c)

/-! ## What the normalising launch leaves -/

/-- The layer's output: the dense output normalised per feature and rectified. -/
theorem norm_out : W8 m ρ c (Proc.devRef .tc main_v81)
    = bnReluArr (W6 m ρ c (Proc.devRef .tc main_v63)) (shapeCast S1x64 (meanOf (W6 m ρ c (Proc.devRef .tc main_v63))) shapeCasts_S64_S1x64) (shapeCast S1x64 (invOf (W6 m ρ c (Proc.devRef .tc main_v63))) shapeCasts_S64_S1x64)
        (shapeCast S1x64 (vecOf5_1 (W4 m ρ c (Proc.devRef .tc main_arg11))) shapeCasts_S64_S1x64)
        (shapeCast S1x64 (vecOf5_1 (W4 m ρ c (Proc.devRef .tc main_arg12))) shapeCasts_S64_S1x64) := by
  refine (W8_arr m ρ c 5).trans ((Norm3.out_eq (V7 m ρ) Cert.Gin.Block.pay3_apply c).trans ?_)
  show bnReluArr (W7 m ρ c (Proc.devRef .tc main_v63)) (W7 m ρ c (Proc.devRef .tc main_v77)) (W7 m ρ c (Proc.devRef .tc main_v78)) (W7 m ρ c (Proc.devRef .tc main_v79)) (W7 m ρ c (Proc.devRef .tc main_v80)) = _
  rw [h_in, mean_in, inv_in, scale_row_in, shift_row_in, scale_kept, shift_kept]

/-! ## What passes through the layer untouched -/

theorem carry_v1 : W8 m ρ c (Proc.devRef .tc main_v1) = W4 m ρ c (Proc.devRef .tc main_v1) :=
  (W8_of_ne m ρ c main_v1 (by decide)).trans ((Carry.host3 m ρ c main_v1 (by decide)).trans
    ((W6_of_ne m ρ c main_v1 (by decide)).trans (Carry.host2 m ρ c main_v1 (by decide))))
theorem carry_v3 : W8 m ρ c (Proc.devRef .tc main_v3) = W4 m ρ c (Proc.devRef .tc main_v3) :=
  (W8_of_ne m ρ c main_v3 (by decide)).trans ((Carry.host3 m ρ c main_v3 (by decide)).trans
    ((W6_of_ne m ρ c main_v3 (by decide)).trans (Carry.host2 m ρ c main_v3 (by decide))))
theorem carry_arg7 : W8 m ρ c (Proc.devRef .tc main_arg7) = W4 m ρ c (Proc.devRef .tc main_arg7) :=
  (W8_of_ne m ρ c main_arg7 (by decide)).trans ((Carry.host3 m ρ c main_arg7 (by decide)).trans
    ((W6_of_ne m ρ c main_arg7 (by decide)).trans (Carry.host2 m ρ c main_arg7 (by decide))))
theorem carry_arg8 : W8 m ρ c (Proc.devRef .tc main_arg8) = W4 m ρ c (Proc.devRef .tc main_arg8) :=
  (W8_of_ne m ρ c main_arg8 (by decide)).trans ((Carry.host3 m ρ c main_arg8 (by decide)).trans
    ((W6_of_ne m ρ c main_arg8 (by decide)).trans (Carry.host2 m ρ c main_arg8 (by decide))))
theorem carry_arg9 : W8 m ρ c (Proc.devRef .tc main_arg9) = W4 m ρ c (Proc.devRef .tc main_arg9) :=
  (W8_of_ne m ρ c main_arg9 (by decide)).trans ((Carry.host3 m ρ c main_arg9 (by decide)).trans
    ((W6_of_ne m ρ c main_arg9 (by decide)).trans (Carry.host2 m ρ c main_arg9 (by decide))))
theorem carry_arg10 : W8 m ρ c (Proc.devRef .tc main_arg10) = W4 m ρ c (Proc.devRef .tc main_arg10) :=
  (W8_of_ne m ρ c main_arg10 (by decide)).trans ((Carry.host3 m ρ c main_arg10 (by decide)).trans
    ((W6_of_ne m ρ c main_arg10 (by decide)).trans (Carry.host2 m ρ c main_arg10 (by decide))))
theorem carry_arg11 : W8 m ρ c (Proc.devRef .tc main_arg11) = W4 m ρ c (Proc.devRef .tc main_arg11) :=
  (W8_of_ne m ρ c main_arg11 (by decide)).trans ((Carry.host3 m ρ c main_arg11 (by decide)).trans
    ((W6_of_ne m ρ c main_arg11 (by decide)).trans (Carry.host2 m ρ c main_arg11 (by decide))))
theorem carry_arg12 : W8 m ρ c (Proc.devRef .tc main_arg12) = W4 m ρ c (Proc.devRef .tc main_arg12) :=
  (W8_of_ne m ρ c main_arg12 (by decide)).trans ((Carry.host3 m ρ c main_arg12 (by decide)).trans
    ((W6_of_ne m ρ c main_arg12 (by decide)).trans (Carry.host2 m ρ c main_arg12 (by decide))))

end Cert.KernelIdeal.Layer1

end
-- ==== Proof.Dense4.lean ====
/-
  Launch 4 (a dense launch over 64 input features), read as a whole-array function.

  The grid has ten points. Point `t` is handed rows `5000·t … 5000·t + 4999` of the node features and of the aggregated
  neighbours, and the two weight matrices and the two bias rows whole; it writes rows `5000·t … 5000·t + 4999` of the
  output. Since an output row depends only on the same row of the two inputs, the block a point writes is the
  restriction of one function of the whole arrays, and the ten blocks tile the output: after the launch the output
  array is that function of the arrays as the launch found them.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Dense4

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: one row through the two dense layers. -/
def PayloadReadsRows : Prop :=
  ∀ (x0 x1 : Vec Ideal S5000x64 .f32) (x2 : Vec Ideal S64x64 .f32) (x3 : Vec Ideal S1x64 .f32) (x4 : Vec Ideal S64x64 .f32)
    (x5 : Vec Ideal S1x64 .f32) (p : Fin 5000) (q : Fin 64),
    k4_pay1 (F := Ideal) x0 x1 x2 x3 x4 x5 (ix2 p q)
      = mlpRow (fun i => x0 (ix2 p i)) (fun i => x1 (ix2 p i)) (fun i j => x2 (ix2 i j)) (fun j => x3 (ix2 0 j))
          (fun j c => x4 (ix2 j c)) (fun c => x5 (ix2 0 c)) q

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the two node blocks and the output block move with the point, the weights and
    the bias rows stay at block (0, 0). -/
theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 ∧ t.val < 10 :=
  (by decide +kernel : ∀ t : Fin grid4.N, _)

/-- The output array after the launch: every node's row through the two dense layers. -/
abbrev G (c : Dev nD) : S50000x64.Idx → Elt Ideal .f32 :=
  mlpArr (K := 64) (V c main_v81) (V c main_v103) (V c main_v83) (V c main_v104) (V c main_v87) (V c main_v105)

/-- An entry of a block of rows is the body's row function of the matching rows of the whole arrays. -/
theorem block_entry (hpay : PayloadReadsRows) (X A : S50000x64.Idx → EReal) (w1 : S64x64.Idx → EReal) (b1 : S1x64.Idx → EReal)
    (w2 : S64x64.Idx → EReal) (b2 : S1x64.Idx → EReal)
    (x0 x1 : Vec Ideal S5000x64 .f32) (x2 : Vec Ideal S64x64 .f32) (x3 : Vec Ideal S1x64 .f32) (x4 : Vec Ideal S64x64 .f32)
    (x5 : Vec Ideal S1x64 .f32) (j : S5000x64.Idx) (i : S50000x64.Idx)
    (h0 : ∀ k, x0 (ix2 (j 0) k) = X (ix2 (i 0) k)) (h1 : ∀ k, x1 (ix2 (j 0) k) = A (ix2 (i 0) k))
    (h2 : x2 = w1) (h3 : x3 = b1) (h4 : x4 = w2) (h5 : x5 = b2) (hq : j 1 = i 1) :
    k4_pay1 (F := Ideal) x0 x1 x2 x3 x4 x5 j = mlpArr (K := 64) X A w1 b1 w2 b2 i := by
  subst h2 h3 h4 h5
  refine ((congrArg (k4_pay1 (F := Ideal) x0 x1 x2 x3 x4 x5) (eq_ix2 j)).trans (hpay x0 x1 x2 x3 x4 x5 (j 0) (j 1))).trans ?_
  unfold mlpArr
  simp only [h0, h1, hq]

/-- A node block at point `t` holds rows `5000·t …` of its array. -/
theorem rows0 (c : Dev nD) (t : Fin cfg4.N) (j : S5000x64.Idx) (i : S50000x64.Idx) (hi : (i 0).val = t.val * 5000 + (j 0).val)
    (k : Fin 64) : (iblk4 V c 0 t : S5000x64.Idx → EReal) (ix2 (j 0) k) = (V c main_v81 : S50000x64.Idx → EReal) (ix2 (i 0) k) := by
  obtain ⟨e00, e01, -⟩ := idx_facts t
  unfold iblk4
  rw [View.read_apply]
  show V c main_v81 _ = V c main_v81 _
  congr 1
  funext d
  apply Fin.ext
  match d with
  | ⟨0, _⟩ => show win4_0.index t (0 : Fin 2) * 5000 + 1 * (j 0).val = (i 0).val; rw [e00, hi]; omega
  | ⟨1, _⟩ => show win4_0.index t (1 : Fin 2) * 64 + 1 * k.val = k.val; rw [e01]; omega

theorem rows1 (c : Dev nD) (t : Fin cfg4.N) (j : S5000x64.Idx) (i : S50000x64.Idx) (hi : (i 0).val = t.val * 5000 + (j 0).val)
    (k : Fin 64) : (iblk4 V c 1 t : S5000x64.Idx → EReal) (ix2 (j 0) k) = (V c main_v103 : S50000x64.Idx → EReal) (ix2 (i 0) k) := by
  obtain ⟨-, -, e10, e11, -⟩ := idx_facts t
  unfold iblk4
  rw [View.read_apply]
  show V c main_v103 _ = V c main_v103 _
  congr 1
  funext d
  apply Fin.ext
  match d with
  | ⟨0, _⟩ => show win4_1.index t (0 : Fin 2) * 5000 + 1 * (j 0).val = (i 0).val; rw [e10, hi]; omega
  | ⟨1, _⟩ => show win4_1.index t (1 : Fin 2) * 64 + 1 * k.val = k.val; rw [e11]; omega

/-- The weights and the bias rows are handed whole to every point. -/
theorem whole2 (c : Dev nD) (t : Fin cfg4.N) : (iblk4 V c 2 t : S64x64.Idx → EReal) = V c main_v83 := by
  obtain ⟨-, -, -, -, e0, e1, -⟩ := idx_facts t
  funext x
  unfold iblk4
  rw [View.read_apply]
  show V c main_v83 _ = V c main_v83 _
  congr 1
  funext d
  apply Fin.ext
  match d with
  | ⟨0, _⟩ => show win4_2.index t (0 : Fin 2) * 64 + 1 * (x 0).val = (x 0).val; rw [e0]; omega
  | ⟨1, _⟩ => show win4_2.index t (1 : Fin 2) * 64 + 1 * (x 1).val = (x 1).val; rw [e1]; omega

theorem whole3 (c : Dev nD) (t : Fin cfg4.N) : (iblk4 V c 3 t : S1x64.Idx → EReal) = V c main_v104 := by
  obtain ⟨-, -, -, -, -, -, e0, e1, -⟩ := idx_facts t
  funext x
  unfold iblk4
  rw [View.read_apply]
  show V c main_v104 _ = V c main_v104 _
  congr 1
  funext d
  apply Fin.ext
  match d with
  | ⟨0, _⟩ => show win4_3.index t (0 : Fin 2) * 1 + 1 * (x 0).val = (x 0).val; rw [e0]; omega
  | ⟨1, _⟩ => show win4_3.index t (1 : Fin 2) * 64 + 1 * (x 1).val = (x 1).val; rw [e1]; omega

theorem whole4 (c : Dev nD) (t : Fin cfg4.N) : (iblk4 V c 4 t : S64x64.Idx → EReal) = V c main_v87 := by
  obtain ⟨-, -, -, -, -, -, -, -, e0, e1, -⟩ := idx_facts t
  funext x
  unfold iblk4
  rw [View.read_apply]
  show V c main_v87 _ = V c main_v87 _
  congr 1
  funext d
  apply Fin.ext
  match d with
  | ⟨0, _⟩ => show win4_4.index t (0 : Fin 2) * 64 + 1 * (x 0).val = (x 0).val; rw [e0]; omega
  | ⟨1, _⟩ => show win4_4.index t (1 : Fin 2) * 64 + 1 * (x 1).val = (x 1).val; rw [e1]; omega

theorem whole5 (c : Dev nD) (t : Fin cfg4.N) : (iblk4 V c 5 t : S1x64.Idx → EReal) = V c main_v105 := by
  obtain ⟨-, -, -, -, -, -, -, -, -, -, e0, e1, -⟩ := idx_facts t
  funext x
  unfold iblk4
  rw [View.read_apply]
  show V c main_v105 _ = V c main_v105 _
  congr 1
  funext d
  apply Fin.ext
  match d with
  | ⟨0, _⟩ => show win4_5.index t (0 : Fin 2) * 1 + 1 * (x 0).val = (x 0).val; rw [e0]; omega
  | ⟨1, _⟩ => show win4_5.index t (1 : Fin 2) * 64 + 1 * (x 1).val = (x 1).val; rw [e1]; omega

/-- Where an entry of point `t`'s output block sits in the output array. -/
theorem out_emb (t : Fin cfg4.N) (j : S5000x64.Idx) :
    ((((cfg4.win 6).blk t).view.emb j : S50000x64.Idx) 0).val = t.val * 5000 + (j 0).val
    ∧ (((cfg4.win 6).blk t).view.emb j : S50000x64.Idx) 1 = j 1 := by
  obtain ⟨-, -, -, -, -, -, -, -, -, -, -, -, e0, e1, -⟩ := idx_facts t
  refine ⟨?_, Fin.ext ?_⟩
  · show win4_6.index t (0 : Fin 2) * 5000 + 1 * (j 0).val = _; rw [e0]; omega
  · show win4_6.index t (1 : Fin 2) * 64 + 1 * (j 1).val = (j 1).val; rw [e1]; omega

/-- What point `t` writes back is block `t` of `G`. -/
theorem flushed_eq (hpay : PayloadReadsRows) (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S5000x64) hz, View.ld_unit_zero (S := S64x64) hz, View.ld_unit_zero (S := S1x64) hz,
    View.ld_unit_zero (S := S64x64) hz]
  funext j
  obtain ⟨hr, hc⟩ := out_emb t j
  exact block_entry hpay (V c main_v81) (V c main_v103) (V c main_v83) (V c main_v104) (V c main_v87) (V c main_v105)
    (iblk4 V c 0 t) (iblk4 V c 1 t) (iblk4 V c 2 t) (iblk4 V c 3 t) (iblk4 V c 4 t) (iblk4 V c 5 t)
    j (((cfg4.win 6).blk t).view.emb j)
    (rows0 V c t j _ hr) (rows1 V c t j _ hr) (whole2 V c t) (whole3 V c t) (whole4 V c t) (whole5 V c t) hc.symm

/-- An index of the output array is in point `t`'s block iff each coordinate is in the block's range on its axis. -/
theorem mem_blk (t : Fin cfg4.N) (i : S50000x64.Idx) :
    i ∈ ((cfg4.win 6).blk t).view.set ↔ ∀ d : Fin 2, win4_6.index t d * S5000x64.size d ≤ (i d).val ∧ (i d).val < win4_6.index t d * S5000x64.size d + S5000x64.size d := by
  show i ∈ ((View.whole main_v106).slice (win4_6.rect t)).set ↔ _
  rw [View.set_slice_whole, Rect.mem_set_unit]
  exact Iff.rfl

/-- The ten output blocks tile the output array: row `r` is in the block of point `r / 5000`. -/
theorem cover (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, -, -, -, -, -, -, -, -, -, -, e0, e1, -⟩ := idx_facts t
  have ht : t.val = (i 0).val / 5000 := rfl
  refine ⟨t, flush4_6 t, ?_⟩
  rw [mem_blk]
  intro d
  match d with
  | ⟨0, _⟩ => show win4_6.index t (0 : Fin 2) * 5000 ≤ (i 0).val ∧ (i 0).val < win4_6.index t (0 : Fin 2) * 5000 + 5000; rw [e0, ht]; omega
  | ⟨1, _⟩ => show win4_6.index t (1 : Fin 2) * 64 ≤ (i 1).val ∧ (i 1).val < win4_6.index t (1 : Fin 2) * 64 + 64; rw [e1]; omega

/-- THE OUTPUT ARRAY after the launch is `G` of the arrays as the launch found them. -/
theorem out_eq (hpay : PayloadReadsRows) (c : Dev nD) : (dat4 V c).arrAt 6 cfg4.N = G V c :=
  (dat4 V c).arrAt_eq_of_cover 6 (G V c) (fun t _ => flushed_eq V hpay c t) cover

end Cert.KernelIdeal.Dense4

end
-- ==== Proof.Norm5.lean ====
/-
  Launch 5 (a normalising launch with the rectifier), read as a whole-array function.

  The grid has ten points. Point `t` is handed rows `5000·t … 5000·t + 4999` of the pre-activations and the four
  `[1, 64]` rows (mean, inverse deviation, scale, shift) whole; it writes the same rows of the output. An output entry
  depends only on the same entry of the pre-activations and on its column of the four rows, so the block a point writes
  is the restriction of one function of the whole arrays, and the ten blocks tile the output.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Norm5

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: the normalised entry, rectified. -/
def PayloadReadsEntries : Prop :=
  ∀ (x0 : Vec Ideal S5000x64 .f32) (x1 x2 x3 x4 : Vec Ideal S1x64 .f32) (p : Fin 5000) (q : Fin 64),
    k5_pay1 (F := Ideal) x0 x1 x2 x3 x4 (ix2 p q) = relu (bnEntry (x0 (ix2 p q)) (x1 (ix2 0 q)) (x2 (ix2 0 q)) (x3 (ix2 0 q)) (x4 (ix2 0 q)))

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the pre-activation block and the output block move with the point, the four
    rows stay at block (0, 0). -/
theorem idx_facts : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 10 :=
  (by decide +kernel : ∀ t : Fin grid5.N, _)

/-- The output array after the launch: every entry normalised and rectified. -/
abbrev G (c : Dev nD) : S50000x64.Idx → Elt Ideal .f32 :=
  bnReluArr (V c main_v106) (V c main_v120) (V c main_v121) (V c main_v122) (V c main_v123)

/-- An entry of a block of rows is the body's entry function of the matching entry of the whole array. -/
theorem block_entry (hpay : PayloadReadsEntries) (H : S50000x64.Idx → EReal) (mu s g b : S1x64.Idx → EReal)
    (x0 : Vec Ideal S5000x64 .f32) (x1 x2 x3 x4 : Vec Ideal S1x64 .f32) (j : S5000x64.Idx) (i : S50000x64.Idx)
    (h0 : x0 j = H i) (h1 : x1 = mu) (h2 : x2 = s) (h3 : x3 = g) (h4 : x4 = b) (hq : j 1 = i 1) :
    k5_pay1 (F := Ideal) x0 x1 x2 x3 x4 j = bnReluArr H mu s g b i := by
  subst h1 h2 h3 h4
  refine ((congrArg (k5_pay1 (F := Ideal) x0 x1 x2 x3 x4) (eq_ix2 j)).trans (hpay x0 x1 x2 x3 x4 (j 0) (j 1))).trans ?_
  have h0' : x0 (ix2 (j 0) (j 1)) = H i := (congrArg x0 (eq_ix2 j).symm).trans h0
  unfold bnReluArr bnArr
  rw [h0', hq]

/-- The pre-activation block at point `t` holds rows `5000·t …` of its array. -/
theorem rows0 (c : Dev nD) (t : Fin cfg5.N) (j : S5000x64.Idx) (i : S50000x64.Idx) (hi : (i 0).val = t.val * 5000 + (j 0).val)
    (hq : j 1 = i 1) : (iblk5 V c 0 t : S5000x64.Idx → EReal) j = (V c main_v106 : S50000x64.Idx → EReal) i := by
  obtain ⟨e00, e01, -⟩ := idx_facts t
  unfold iblk5
  rw [View.read_apply]
  show V c main_v106 _ = V c main_v106 _
  congr 1
  funext d
  apply Fin.ext
  match d with
  | ⟨0, _⟩ => show win5_0.index t (0 : Fin 2) * 5000 + 1 * (j 0).val = (i 0).val; rw [e00, hi]; omega
  | ⟨1, _⟩ => show win5_0.index t (1 : Fin 2) * 64 + 1 * (j 1).val = (i 1).val; rw [e01, hq]; omega

/-- The four rows are handed whole to every point. -/
theorem whole1 (c : Dev nD) (t : Fin cfg5.N) : (iblk5 V c 1 t : S1x64.Idx → EReal) = V c main_v120 := by
  obtain ⟨-, -, e0, e1, -⟩ := idx_facts t
  funext x
  unfold iblk5
  rw [View.read_apply]
  show V c main_v120 _ = V c main_v120 _
  congr 1
  funext d
  apply Fin.ext
  match d with
  | ⟨0, _⟩ => show win5_1.index t (0 : Fin 2) * 1 + 1 * (x 0).val = (x 0).val; rw [e0]; omega
  | ⟨1, _⟩ => show win5_1.index t (1 : Fin 2) * 64 + 1 * (x 1).val = (x 1).val; rw [e1]; omega

theorem whole2 (c : Dev nD) (t : Fin cfg5.N) : (iblk5 V c 2 t : S1x64.Idx → EReal) = V c main_v121 := by
  obtain ⟨-, -, -, -, e0, e1, -⟩ := idx_facts t
  funext x
  unfold iblk5
  rw [View.read_apply]
  show V c main_v121 _ = V c main_v121 _
  congr 1
  funext d
  apply Fin.ext
  match d with
  | ⟨0, _⟩ => show win5_2.index t (0 : Fin 2) * 1 + 1 * (x 0).val = (x 0).val; rw [e0]; omega
  | ⟨1, _⟩ => show win5_2.index t (1 : Fin 2) * 64 + 1 * (x 1).val = (x 1).val; rw [e1]; omega

theorem whole3 (c : Dev nD) (t : Fin cfg5.N) : (iblk5 V c 3 t : S1x64.Idx → EReal) = V c main_v122 := by
  obtain ⟨-, -, -, -, -, -, e0, e1, -⟩ := idx_facts t
  funext x
  unfold iblk5
  rw [View.read_apply]
  show V c main_v122 _ = V c main_v122 _
  congr 1
  funext d
  apply Fin.ext
  match d with
  | ⟨0, _⟩ => show win5_3.index t (0 : Fin 2) * 1 + 1 * (x 0).val = (x 0).val; rw [e0]; omega
  | ⟨1, _⟩ => show win5_3.index t (1 : Fin 2) * 64 + 1 * (x 1).val = (x 1).val; rw [e1]; omega

theorem whole4 (c : Dev nD) (t : Fin cfg5.N) : (iblk5 V c 4 t : S1x64.Idx → EReal) = V c main_v123 := by
  obtain ⟨-, -, -, -, -, -, -, -, e0, e1, -⟩ := idx_facts t
  funext x
  unfold iblk5
  rw [View.read_apply]
  show V c main_v123 _ = V c main_v123 _
  congr 1
  funext d
  apply Fin.ext
  match d with
  | ⟨0, _⟩ => show win5_4.index t (0 : Fin 2) * 1 + 1 * (x 0).val = (x 0).val; rw [e0]; omega
  | ⟨1, _⟩ => show win5_4.index t (1 : Fin 2) * 64 + 1 * (x 1).val = (x 1).val; rw [e1]; omega

/-- Where an entry of point `t`'s output block sits in the output array. -/
theorem out_emb (t : Fin cfg5.N) (j : S5000x64.Idx) :
    ((((cfg5.win 5).blk t).view.emb j : S50000x64.Idx) 0).val = t.val * 5000 + (j 0).val
    ∧ (((cfg5.win 5).blk t).view.emb j : S50000x64.Idx) 1 = j 1 := by
  obtain ⟨-, -, -, -, -, -, -, -, -, -, e0, e1, -⟩ := idx_facts t
  refine ⟨?_, Fin.ext ?_⟩
  · show win5_5.index t (0 : Fin 2) * 5000 + 1 * (j 0).val = _; rw [e0]; omega
  · show win5_5.index t (1 : Fin 2) * 64 + 1 * (j 1).val = (j 1).val; rw [e1]; omega

/-- What point `t` writes back is block `t` of `G`. -/
theorem flushed_eq (hpay : PayloadReadsEntries) (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x64) hz, View.ld_unit_zero (S := S1x64) hz]
  funext j
  obtain ⟨hr, hc⟩ := out_emb t j
  exact block_entry hpay (V c main_v106) (V c main_v120) (V c main_v121) (V c main_v122) (V c main_v123)
    (iblk5 V c 0 t) (iblk5 V c 1 t) (iblk5 V c 2 t) (iblk5 V c 3 t) (iblk5 V c 4 t)
    j (((cfg5.win 5).blk t).view.emb j)
    (rows0 V c t j _ hr hc.symm) (whole1 V c t) (whole2 V c t) (whole3 V c t) (whole4 V c t) hc.symm

/-- An index of the output array is in point `t`'s block iff each coordinate is in the block's range on its axis. -/
theorem mem_blk (t : Fin cfg5.N) (i : S50000x64.Idx) :
    i ∈ ((cfg5.win 5).blk t).view.set ↔ ∀ d : Fin 2, win5_5.index t d * S5000x64.size d ≤ (i d).val ∧ (i d).val < win5_5.index t d * S5000x64.size d + S5000x64.size d := by
  show i ∈ ((View.whole main_v124).slice (win5_5.rect t)).set ↔ _
  rw [View.set_slice_whole, Rect.mem_set_unit]
  exact Iff.rfl

/-- The ten output blocks tile the output array: row `r` is in the block of point `r / 5000`. -/
theorem cover (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  obtain ⟨-, -, -, -, -, -, -, -, -, -, e0, e1, -⟩ := idx_facts t
  have ht : t.val = (i 0).val / 5000 := rfl
  refine ⟨t, flush5_5 t, ?_⟩
  rw [mem_blk]
  intro d
  match d with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 64 ≤ (i 1).val ∧ (i 1).val < win5_5.index t (1 : Fin 2) * 64 + 64; rw [e1]; omega

/-- THE OUTPUT ARRAY after the launch is `G` of the arrays as the launch found them. -/
theorem out_eq (hpay : PayloadReadsEntries) (c : Dev nD) : (dat5 V c).arrAt 5 cfg5.N = G V c :=
  (dat5 V c).arrAt_eq_of_cover 5 (G V c) (fun t _ => flushed_eq V hpay c t) cover

end Cert.KernelIdeal.Norm5

end
-- ==== Proof.Layer2.lean ====
/-
  Layer 2 of the kernel program, from the contents at its entry to the contents at its exit.

  The layer is a stretch of host operations (the neighbour aggregation and this layer's parameter slices), the dense
  launch, a second stretch (the per-feature mean and inverse deviation of the dense output) and the normalising launch.
  Each launch's entry contents are read off the stretch before it; each launch leaves in its output array the
  whole-array function of what it found; the edge lists and the stacked parameter arrays pass through untouched.
-/
import proofs.«103578_j10917806867253_1_alg».proof.Proof.Gen.KernelIdeal.Frame
import proofs.«103578_j10917806867253_1_alg».proof.Proof.Carry
import proofs.«103578_j10917806867253_1_alg».proof.Proof.KernelTerms
import proofs.«103578_j10917806867253_1_alg».proof.Proof.BlockRows
import proofs.«103578_j10917806867253_1_alg».proof.Proof.Dense4
import proofs.«103578_j10917806867253_1_alg».proof.Proof.Norm5
import Idealize.ShloMosaic.Lib.StableHlo.Run

set_option maxRecDepth 16384
set_option maxHeartbeats 2000000

noncomputable section

namespace Cert.KernelIdeal.Layer2

open Cert.KernelIdeal Cert.KernelIdeal.Gen Cert.KernelIdeal.Terms Cert.Gin
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the dense launch finds -/

/-- The layer's input is not written by the first stretch. -/
theorem x_in : W9 m ρ c (Proc.devRef .tc main_v81) = W8 m ρ c (Proc.devRef .tc main_v81) := Carry.host4 m ρ c main_v81 (by decide)

/-- The aggregated neighbours of the layer's input along the edges. -/
theorem agg_in : W9 m ρ c (Proc.devRef .tc main_v103) = aggOf64 (W8 m ρ c (Proc.devRef .tc main_v81)) (W8 m ρ c (Proc.devRef .tc main_v1)) (W8 m ρ c (Proc.devRef .tc main_v3)) := by
  show StableHlo.after hostOps4 (W8 m ρ c) (Proc.devRef .tc main_v103) = _
  simp only [hostOps4]
  after_results_simp
  rfl

/-- The first weight matrix. -/
theorem w1_in : W9 m ρ c (Proc.devRef .tc main_v83) = matOf1 (W8 m ρ c (Proc.devRef .tc main_arg7)) := by
  show StableHlo.after hostOps4 (W8 m ρ c) (Proc.devRef .tc main_v83) = _
  simp only [hostOps4]
  after_results_simp
  rfl

/-- The first bias, as a row. -/
theorem b1_in : W9 m ρ c (Proc.devRef .tc main_v104) = shapeCast S1x64 (vecOf4_1 (W8 m ρ c (Proc.devRef .tc main_arg8))) shapeCasts_S64_S1x64 := by
  show StableHlo.after hostOps4 (W8 m ρ c) (Proc.devRef .tc main_v104) = _
  simp only [hostOps4]
  after_results_simp
  rfl

/-- The second weight matrix. -/
theorem w2_in : W9 m ρ c (Proc.devRef .tc main_v87) = matOf1 (W8 m ρ c (Proc.devRef .tc main_arg9)) := by
  show StableHlo.after hostOps4 (W8 m ρ c) (Proc.devRef .tc main_v87) = _
  simp only [hostOps4]
  after_results_simp
  rfl

/-- The second bias, as a row. -/
theorem b2_in : W9 m ρ c (Proc.devRef .tc main_v105) = shapeCast S1x64 (vecOf4_1 (W8 m ρ c (Proc.devRef .tc main_arg10))) shapeCasts_S64_S1x64 := by
  show StableHlo.after hostOps4 (W8 m ρ c) (Proc.devRef .tc main_v105) = _
  simp only [hostOps4]
  after_results_simp
  rfl

/-- The layer's scale vector. -/
theorem scale_in : W9 m ρ c (Proc.devRef .tc main_v91) = vecOf5_2 (W8 m ρ c (Proc.devRef .tc main_arg11)) := by
  show StableHlo.after hostOps4 (W8 m ρ c) (Proc.devRef .tc main_v91) = _
  simp only [hostOps4]
  after_results_simp
  rfl

/-- The layer's shift vector. -/
theorem shift_in : W9 m ρ c (Proc.devRef .tc main_v93) = vecOf5_2 (W8 m ρ c (Proc.devRef .tc main_arg12)) := by
  show StableHlo.after hostOps4 (W8 m ρ c) (Proc.devRef .tc main_v93) = _
  simp only [hostOps4]
  after_results_simp
  rfl

/-! ## What the dense launch leaves -/

/-- The dense launch's output: every node's row of input plus aggregated neighbours through the two dense layers. -/
theorem dense_out : W10 m ρ c (Proc.devRef .tc main_v106)
    = mlpArr (K := 64) (W8 m ρ c (Proc.devRef .tc main_v81)) (aggOf64 (W8 m ρ c (Proc.devRef .tc main_v81)) (W8 m ρ c (Proc.devRef .tc main_v1)) (W8 m ρ c (Proc.devRef .tc main_v3)))
        (matOf1 (W8 m ρ c (Proc.devRef .tc main_arg7))) (shapeCast S1x64 (vecOf4_1 (W8 m ρ c (Proc.devRef .tc main_arg8))) shapeCasts_S64_S1x64)
        (matOf1 (W8 m ρ c (Proc.devRef .tc main_arg9))) (shapeCast S1x64 (vecOf4_1 (W8 m ρ c (Proc.devRef .tc main_arg10))) shapeCasts_S64_S1x64) := by
  refine (W10_arr m ρ c 6).trans ((Dense4.out_eq (V9 m ρ) Cert.Gin.Block.pay4_apply c).trans ?_)
  show mlpArr (K := 64) (W9 m ρ c (Proc.devRef .tc main_v81)) (W9 m ρ c (Proc.devRef .tc main_v103)) (W9 m ρ c (Proc.devRef .tc main_v83)) (W9 m ρ c (Proc.devRef .tc main_v104)) (W9 m ρ c (Proc.devRef .tc main_v87)) (W9 m ρ c (Proc.devRef .tc main_v105)) = _
  rw [x_in, agg_in, w1_in, b1_in, w2_in, b2_in]

/-! ## What the normalising launch finds -/

/-- The dense output is not written by the second stretch. -/
theorem h_in : W11 m ρ c (Proc.devRef .tc main_v106) = W10 m ρ c (Proc.devRef .tc main_v106) := Carry.host5 m ρ c main_v106 (by decide)

/-- The per-feature mean of the dense output, as a row. -/
theorem mean_in : W11 m ρ c (Proc.devRef .tc main_v120) = shapeCast S1x64 (meanOf (W10 m ρ c (Proc.devRef .tc main_v106))) shapeCasts_S64_S1x64 := by
  show StableHlo.after hostOps5 (W10 m ρ c) (Proc.devRef .tc main_v120) = _
  simp only [hostOps5]
  after_results_simp
  rfl

/-- The per-feature inverse deviation of the dense output, as a row. -/
theorem inv_in : W11 m ρ c (Proc.devRef .tc main_v121) = shapeCast S1x64 (invOf (W10 m ρ c (Proc.devRef .tc main_v106))) shapeCasts_S64_S1x64 := by
  show StableHlo.after hostOps5 (W10 m ρ c) (Proc.devRef .tc main_v121) = _
  simp only [hostOps5]
  after_results_simp
  rfl

/-- The scale, as a row. -/
theorem scale_row_in : W11 m ρ c (Proc.devRef .tc main_v122) = shapeCast S1x64 (W10 m ρ c (Proc.devRef .tc main_v91)) shapeCasts_S64_S1x64 := by
  show StableHlo.after hostOps5 (W10 m ρ c) (Proc.devRef .tc main_v122) = _
  simp only [hostOps5]
  after_results_simp
  rfl

/-- The shift, as a row. -/
theorem shift_row_in : W11 m ρ c (Proc.devRef .tc main_v123) = shapeCast S1x64 (W10 m ρ c (Proc.devRef .tc main_v93)) shapeCasts_S64_S1x64 := by
  show StableHlo.after hostOps5 (W10 m ρ c) (Proc.devRef .tc main_v123) = _
  simp only [hostOps5]
  after_results_simp
  rfl

/-- The scale and shift vectors pass through the dense launch. -/
theorem scale_kept : W10 m ρ c (Proc.devRef .tc main_v91) = vecOf5_2 (W8 m ρ c (Proc.devRef .tc main_arg11)) :=
  (W10_of_ne m ρ c main_v91 (by decide)).trans (scale_in m ρ c)
theorem shift_kept : W10 m ρ c (Proc.devRef .tc main_v93) = vecOf5_2 (W8 m ρ c (Proc.devRef .tc main_arg12)) :=
  (W10_of_ne m ρ c main_v93 (by decide)).trans (shift_in m ρ c)

/-! ## What the normalising launch leaves -/

/-- The layer's output: the dense output normalised per feature and rectified. -/
theorem norm_out : W12 m ρ c (Proc.devRef .tc main_v124)
    = bnReluArr (W10 m ρ c (Proc.devRef .tc main_v106)) (shapeCast S1x64 (meanOf (W10 m ρ c (Proc.devRef .tc main_v106))) shapeCasts_S64_S1x64) (shapeCast S1x64 (invOf (W10 m ρ c (Proc.devRef .tc main_v106))) shapeCasts_S64_S1x64)
        (shapeCast S1x64 (vecOf5_2 (W8 m ρ c (Proc.devRef .tc main_arg11))) shapeCasts_S64_S1x64)
        (shapeCast S1x64 (vecOf5_2 (W8 m ρ c (Proc.devRef .tc main_arg12))) shapeCasts_S64_S1x64) := by
  refine (W12_arr m ρ c 5).trans ((Norm5.out_eq (V11 m ρ) Cert.Gin.Block.pay5_apply c).trans ?_)
  show bnReluArr (W11 m ρ c (Proc.devRef .tc main_v106)) (W11 m ρ c (Proc.devRef .tc main_v120)) (W11 m ρ c (Proc.devRef .tc main_v121)) (W11 m ρ c (Proc.devRef .tc main_v122)) (W11 m ρ c (Proc.devRef .tc main_v123)) = _
  rw [h_in, mean_in, inv_in, scale_row_in, shift_row_in, scale_kept, shift_kept]

/-! ## What passes through the layer untouched -/

theorem carry_v1 : W12 m ρ c (Proc.devRef .tc main_v1) = W8 m ρ c (Proc.devRef .tc main_v1) :=
  (W12_of_ne m ρ c main_v1 (by decide)).trans ((Carry.host5 m ρ c main_v1 (by decide)).trans
    ((W10_of_ne m ρ c main_v1 (by decide)).trans (Carry.host4 m ρ c main_v1 (by decide))))
theorem carry_v3 : W12 m ρ c (Proc.devRef .tc main_v3) = W8 m ρ c (Proc.devRef .tc main_v3) :=
  (W12_of_ne m ρ c main_v3 (by decide)).trans ((Carry.host5 m ρ c main_v3 (by decide)).trans
    ((W10_of_ne m ρ c main_v3 (by decide)).trans (Carry.host4 m ρ c main_v3 (by decide))))
theorem carry_arg7 : W12 m ρ c (Proc.devRef .tc main_arg7) = W8 m ρ c (Proc.devRef .tc main_arg7) :=
  (W12_of_ne m ρ c main_arg7 (by decide)).trans ((Carry.host5 m ρ c main_arg7 (by decide)).trans
    ((W10_of_ne m ρ c main_arg7 (by decide)).trans (Carry.host4 m ρ c main_arg7 (by decide))))
theorem carry_arg8 : W12 m ρ c (Proc.devRef .tc main_arg8) = W8 m ρ c (Proc.devRef .tc main_arg8) :=
  (W12_of_ne m ρ c main_arg8 (by decide)).trans ((Carry.host5 m ρ c main_arg8 (by decide)).trans
    ((W10_of_ne m ρ c main_arg8 (by decide)).trans (Carry.host4 m ρ c main_arg8 (by decide))))
theorem carry_arg9 : W12 m ρ c (Proc.devRef .tc main_arg9) = W8 m ρ c (Proc.devRef .tc main_arg9) :=
  (W12_of_ne m ρ c main_arg9 (by decide)).trans ((Carry.host5 m ρ c main_arg9 (by decide)).trans
    ((W10_of_ne m ρ c main_arg9 (by decide)).trans (Carry.host4 m ρ c main_arg9 (by decide))))
theorem carry_arg10 : W12 m ρ c (Proc.devRef .tc main_arg10) = W8 m ρ c (Proc.devRef .tc main_arg10) :=
  (W12_of_ne m ρ c main_arg10 (by decide)).trans ((Carry.host5 m ρ c main_arg10 (by decide)).trans
    ((W10_of_ne m ρ c main_arg10 (by decide)).trans (Carry.host4 m ρ c main_arg10 (by decide))))
theorem carry_arg11 : W12 m ρ c (Proc.devRef .tc main_arg11) = W8 m ρ c (Proc.devRef .tc main_arg11) :=
  (W12_of_ne m ρ c main_arg11 (by decide)).trans ((Carry.host5 m ρ c main_arg11 (by decide)).trans
    ((W10_of_ne m ρ c main_arg11 (by decide)).trans (Carry.host4 m ρ c main_arg11 (by decide))))
theorem carry_arg12 : W12 m ρ c (Proc.devRef .tc main_arg12) = W8 m ρ c (Proc.devRef .tc main_arg12) :=
  (W12_of_ne m ρ c main_arg12 (by decide)).trans ((Carry.host5 m ρ c main_arg12 (by decide)).trans
    ((W10_of_ne m ρ c main_arg12 (by decide)).trans (Carry.host4 m ρ c main_arg12 (by decide))))

end Cert.KernelIdeal.Layer2

end
-- ==== Proof.Dense6.lean ====
/-
  Launch 6 (a dense launch over 64 input features), read as a whole-array function.

  The grid has ten points. Point `t` is handed rows `5000·t … 5000·t + 4999` of the node features and of the aggregated
  neighbours, and the two weight matrices and the two bias rows whole; it writes rows `5000·t … 5000·t + 4999` of the
  output. Since an output row depends only on the same row of the two inputs, the block a point writes is the
  restriction of one function of the whole arrays, and the ten blocks tile the output: after the launch the output
  array is that function of the arrays as the launch found them.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Dense6

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: one row through the two dense layers. -/
def PayloadReadsRows : Prop :=
  ∀ (x0 x1 : Vec Ideal S5000x64 .f32) (x2 : Vec Ideal S64x64 .f32) (x3 : Vec Ideal S1x64 .f32) (x4 : Vec Ideal S64x64 .f32)
    (x5 : Vec Ideal S1x64 .f32) (p : Fin 5000) (q : Fin 64),
    k6_pay1 (F := Ideal) x0 x1 x2 x3 x4 x5 (ix2 p q)
      = mlpRow (fun i => x0 (ix2 p i)) (fun i => x1 (ix2 p i)) (fun i j => x2 (ix2 i j)) (fun j => x3 (ix2 0 j))
          (fun j c => x4 (ix2 j c)) (fun c => x5 (ix2 0 c)) q

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the two node blocks and the output block move with the point, the weights and
    the bias rows stay at block (0, 0). -/
theorem idx_facts : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 ∧ t.val < 10 :=
  (by decide +kernel : ∀ t : Fin grid6.N, _)

/-- The output array after the launch: every node's row through the two dense layers. -/
abbrev G (c : Dev nD) : S50000x64.Idx → Elt Ideal .f32 :=
  mlpArr (K := 64) (V c main_v124) (V c main_v146) (V c main_v126) (V c main_v147) (V c main_v130) (V c main_v148)

/-- An entry of a block of rows is the body's row function of the matching rows of the whole arrays. -/
theorem block_entry (hpay : PayloadReadsRows) (X A : S50000x64.Idx → EReal) (w1 : S64x64.Idx → EReal) (b1 : S1x64.Idx → EReal)
    (w2 : S64x64.Idx → EReal) (b2 : S1x64.Idx → EReal)
    (x0 x1 : Vec Ideal S5000x64 .f32) (x2 : Vec Ideal S64x64 .f32) (x3 : Vec Ideal S1x64 .f32) (x4 : Vec Ideal S64x64 .f32)
    (x5 : Vec Ideal S1x64 .f32) (j : S5000x64.Idx) (i : S50000x64.Idx)
    (h0 : ∀ k, x0 (ix2 (j 0) k) = X (ix2 (i 0) k)) (h1 : ∀ k, x1 (ix2 (j 0) k) = A (ix2 (i 0) k))
    (h2 : x2 = w1) (h3 : x3 = b1) (h4 : x4 = w2) (h5 : x5 = b2) (hq : j 1 = i 1) :
    k6_pay1 (F := Ideal) x0 x1 x2 x3 x4 x5 j = mlpArr (K := 64) X A w1 b1 w2 b2 i := by
  subst h2 h3 h4 h5
  refine ((congrArg (k6_pay1 (F := Ideal) x0 x1 x2 x3 x4 x5) (eq_ix2 j)).trans (hpay x0 x1 x2 x3 x4 x5 (j 0) (j 1))).trans ?_
  unfold mlpArr
  simp only [h0, h1, hq]

/-- A node block at point `t` holds rows `5000·t …` of its array. -/
theorem rows0 (c : Dev nD) (t : Fin cfg6.N) (j : S5000x64.Idx) (i : S50000x64.Idx) (hi : (i 0).val = t.val * 5000 + (j 0).val)
    (k : Fin 64) : (iblk6 V c 0 t : S5000x64.Idx → EReal) (ix2 (j 0) k) = (V c main_v124 : S50000x64.Idx → EReal) (ix2 (i 0) k) := by
  obtain ⟨e00, e01, -⟩ := idx_facts t
  unfold iblk6
  rw [View.read_apply]
  show V c main_v124 _ = V c main_v124 _
  congr 1
  funext d
  apply Fin.ext
  match d with
  | ⟨0, _⟩ => show win6_0.index t (0 : Fin 2) * 5000 + 1 * (j 0).val = (i 0).val; rw [e00, hi]; omega
  | ⟨1, _⟩ => show win6_0.index t (1 : Fin 2) * 64 + 1 * k.val = k.val; rw [e01]; omega

theorem rows1 (c : Dev nD) (t : Fin cfg6.N) (j : S5000x64.Idx) (i : S50000x64.Idx) (hi : (i 0).val = t.val * 5000 + (j 0).val)
    (k : Fin 64) : (iblk6 V c 1 t : S5000x64.Idx → EReal) (ix2 (j 0) k) = (V c main_v146 : S50000x64.Idx → EReal) (ix2 (i 0) k) := by
  obtain ⟨-, -, e10, e11, -⟩ := idx_facts t
  unfold iblk6
  rw [View.read_apply]
  show V c main_v146 _ = V c main_v146 _
  congr 1
  funext d
  apply Fin.ext
  match d with
  | ⟨0, _⟩ => show win6_1.index t (0 : Fin 2) * 5000 + 1 * (j 0).val = (i 0).val; rw [e10, hi]; omega
  | ⟨1, _⟩ => show win6_1.index t (1 : Fin 2) * 64 + 1 * k.val = k.val; rw [e11]; omega

/-- The weights and the bias rows are handed whole to every point. -/
theorem whole2 (c : Dev nD) (t : Fin cfg6.N) : (iblk6 V c 2 t : S64x64.Idx → EReal) = V c main_v126 := by
  obtain ⟨-, -, -, -, e0, e1, -⟩ := idx_facts t
  funext x
  unfold iblk6
  rw [View.read_apply]
  show V c main_v126 _ = V c main_v126 _
  congr 1
  funext d
  apply Fin.ext
  match d with
  | ⟨0, _⟩ => show win6_2.index t (0 : Fin 2) * 64 + 1 * (x 0).val = (x 0).val; rw [e0]; omega
  | ⟨1, _⟩ => show win6_2.index t (1 : Fin 2) * 64 + 1 * (x 1).val = (x 1).val; rw [e1]; omega

theorem whole3 (c : Dev nD) (t : Fin cfg6.N) : (iblk6 V c 3 t : S1x64.Idx → EReal) = V c main_v147 := by
  obtain ⟨-, -, -, -, -, -, e0, e1, -⟩ := idx_facts t
  funext x
  unfold iblk6
  rw [View.read_apply]
  show V c main_v147 _ = V c main_v147 _
  congr 1
  funext d
  apply Fin.ext
  match d with
  | ⟨0, _⟩ => show win6_3.index t (0 : Fin 2) * 1 + 1 * (x 0).val = (x 0).val; rw [e0]; omega
  | ⟨1, _⟩ => show win6_3.index t (1 : Fin 2) * 64 + 1 * (x 1).val = (x 1).val; rw [e1]; omega

theorem whole4 (c : Dev nD) (t : Fin cfg6.N) : (iblk6 V c 4 t : S64x64.Idx → EReal) = V c main_v130 := by
  obtain ⟨-, -, -, -, -, -, -, -, e0, e1, -⟩ := idx_facts t
  funext x
  unfold iblk6
  rw [View.read_apply]
  show V c main_v130 _ = V c main_v130 _
  congr 1
  funext d
  apply Fin.ext
  match d with
  | ⟨0, _⟩ => show win6_4.index t (0 : Fin 2) * 64 + 1 * (x 0).val = (x 0).val; rw [e0]; omega
  | ⟨1, _⟩ => show win6_4.index t (1 : Fin 2) * 64 + 1 * (x 1).val = (x 1).val; rw [e1]; omega

theorem whole5 (c : Dev nD) (t : Fin cfg6.N) : (iblk6 V c 5 t : S1x64.Idx → EReal) = V c main_v148 := by
  obtain ⟨-, -, -, -, -, -, -, -, -, -, e0, e1, -⟩ := idx_facts t
  funext x
  unfold iblk6
  rw [View.read_apply]
  show V c main_v148 _ = V c main_v148 _
  congr 1
  funext d
  apply Fin.ext
  match d with
  | ⟨0, _⟩ => show win6_5.index t (0 : Fin 2) * 1 + 1 * (x 0).val = (x 0).val; rw [e0]; omega
  | ⟨1, _⟩ => show win6_5.index t (1 : Fin 2) * 64 + 1 * (x 1).val = (x 1).val; rw [e1]; omega

/-- Where an entry of point `t`'s output block sits in the output array. -/
theorem out_emb (t : Fin cfg6.N) (j : S5000x64.Idx) :
    ((((cfg6.win 6).blk t).view.emb j : S50000x64.Idx) 0).val = t.val * 5000 + (j 0).val
    ∧ (((cfg6.win 6).blk t).view.emb j : S50000x64.Idx) 1 = j 1 := by
  obtain ⟨-, -, -, -, -, -, -, -, -, -, -, -, e0, e1, -⟩ := idx_facts t
  refine ⟨?_, Fin.ext ?_⟩
  · show win6_6.index t (0 : Fin 2) * 5000 + 1 * (j 0).val = _; rw [e0]; omega
  · show win6_6.index t (1 : Fin 2) * 64 + 1 * (j 1).val = (j 1).val; rw [e1]; omega

/-- What point `t` writes back is block `t` of `G`. -/
theorem flushed_eq (hpay : PayloadReadsRows) (c : Dev nD) (t : Fin cfg6.N) :
    (dat6 V c).flushed 6 t = ((cfg6.win 6).blk t).view.read (Elt Ideal) (G V c) := by
  show (cfg6.win 6).cut (grid6.coords t) ((dat6 V c).after 6 t) = _
  rw [after6_6]
  unfold out6_6
  rw [View.canon_unit_zero hz]
  simp only [View.ld_unit_zero (S := S5000x64) hz, View.ld_unit_zero (S := S64x64) hz, View.ld_unit_zero (S := S1x64) hz,
    View.ld_unit_zero (S := S64x64) hz]
  funext j
  obtain ⟨hr, hc⟩ := out_emb t j
  exact block_entry hpay (V c main_v124) (V c main_v146) (V c main_v126) (V c main_v147) (V c main_v130) (V c main_v148)
    (iblk6 V c 0 t) (iblk6 V c 1 t) (iblk6 V c 2 t) (iblk6 V c 3 t) (iblk6 V c 4 t) (iblk6 V c 5 t)
    j (((cfg6.win 6).blk t).view.emb j)
    (rows0 V c t j _ hr) (rows1 V c t j _ hr) (whole2 V c t) (whole3 V c t) (whole4 V c t) (whole5 V c t) hc.symm

/-- An index of the output array is in point `t`'s block iff each coordinate is in the block's range on its axis. -/
theorem mem_blk (t : Fin cfg6.N) (i : S50000x64.Idx) :
    i ∈ ((cfg6.win 6).blk t).view.set ↔ ∀ d : Fin 2, win6_6.index t d * S5000x64.size d ≤ (i d).val ∧ (i d).val < win6_6.index t d * S5000x64.size d + S5000x64.size d := by
  show i ∈ ((View.whole main_v149).slice (win6_6.rect t)).set ↔ _
  rw [View.set_slice_whole, Rect.mem_set_unit]
  exact Iff.rfl

/-- The ten output blocks tile the output array: row `r` is in the block of point `r / 5000`. -/
theorem cover (i : S50000x64.Idx) : ∃ t : Fin cfg6.N, (cfg6.win 6).flush t = true ∧ i ∈ ((cfg6.win 6).blk t).view.set := by
  have hi0 : (i 0).val < 50000 := (i 0).isLt
  have hi1 : (i 1).val < 64 := (i 1).isLt
  have hN : cfg6.N = 10 := N_6
  let t : Fin cfg6.N := ⟨(i 0).val / 5000, by rw [hN]; omega⟩
  obtain ⟨-, -, -, -, -, -, -, -, -, -, -, -, e0, e1, -⟩ := idx_facts t
  have ht : t.val = (i 0).val / 5000 := rfl
  refine ⟨t, flush6_6 t, ?_⟩
  rw [mem_blk]
  intro d
  match d with
  | ⟨0, _⟩ => show win6_6.index t (0 : Fin 2) * 5000 ≤ (i 0).val ∧ (i 0).val < win6_6.index t (0 : Fin 2) * 5000 + 5000; rw [e0, ht]; omega
  | ⟨1, _⟩ => show win6_6.index t (1 : Fin 2) * 64 ≤ (i 1).val ∧ (i 1).val < win6_6.index t (1 : Fin 2) * 64 + 64; rw [e1]; omega

/-- THE OUTPUT ARRAY after the launch is `G` of the arrays as the launch found them. -/
theorem out_eq (hpay : PayloadReadsRows) (c : Dev nD) : (dat6 V c).arrAt 6 cfg6.N = G V c :=
  (dat6 V c).arrAt_eq_of_cover 6 (G V c) (fun t _ => flushed_eq V hpay c t) cover

end Cert.KernelIdeal.Dense6

end
-- ==== Proof.Norm7.lean ====
/-
  Launch 7 (a normalising launch with the rectifier), read as a whole-array function.

  The grid has ten points. Point `t` is handed rows `5000·t … 5000·t + 4999` of the pre-activations and the four
  `[1, 64]` rows (mean, inverse deviation, scale, shift) whole; it writes the same rows of the output. An output entry
  depends only on the same entry of the pre-activations and on its column of the four rows, so the block a point writes
  is the restriction of one function of the whole arrays, and the ten blocks tile the output.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Norm7

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: the normalised entry, rectified. -/
def PayloadReadsEntries : Prop :=
  ∀ (x0 : Vec Ideal S5000x64 .f32) (x1 x2 x3 x4 : Vec Ideal S1x64 .f32) (p : Fin 5000) (q : Fin 64),
    k7_pay1 (F := Ideal) x0 x1 x2 x3 x4 (ix2 p q) = relu (bnEntry (x0 (ix2 p q)) (x1 (ix2 0 q)) (x2 (ix2 0 q)) (x3 (ix2 0 q)) (x4 (ix2 0 q)))

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the pre-activation block and the output block move with the point, the four
    rows stay at block (0, 0). -/
theorem idx_facts : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 ∧ t.val < 10 :=
  (by decide +kernel : ∀ t : Fin grid7.N, _)

/-- The output array after the launch: every entry normalised and rectified. -/
abbrev G (c : Dev nD) : S50000x64.Idx → Elt Ideal .f32 :=
  bnReluArr (V c main_v149) (V c main_v163) (V c main_v164) (V c main_v165) (V c main_v166)

/-- An entry of a block of rows is the body's entry function of the matching entry of the whole array. -/
theorem block_entry (hpay : PayloadReadsEntries) (H : S50000x64.Idx → EReal) (mu s g b : S1x64.Idx → EReal)
    (x0 : Vec Ideal S5000x64 .f32) (x1 x2 x3 x4 : Vec Ideal S1x64 .f32) (j : S5000x64.Idx) (i : S50000x64.Idx)
    (h0 : x0 j = H i) (h1 : x1 = mu) (h2 : x2 = s) (h3 : x3 = g) (h4 : x4 = b) (hq : j 1 = i 1) :
    k7_pay1 (F := Ideal) x0 x1 x2 x3 x4 j = bnReluArr H mu s g b i := by
  subst h1 h2 h3 h4
  refine ((congrArg (k7_pay1 (F := Ideal) x0 x1 x2 x3 x4) (eq_ix2 j)).trans (hpay x0 x1 x2 x3 x4 (j 0) (j 1))).trans ?_
  have h0' : x0 (ix2 (j 0) (j 1)) = H i := (congrArg x0 (eq_ix2 j).symm).trans h0
  unfold bnReluArr bnArr
  rw [h0', hq]

/-- The pre-activation block at point `t` holds rows `5000·t …` of its array. -/
theorem rows0 (c : Dev nD) (t : Fin cfg7.N) (j : S5000x64.Idx) (i : S50000x64.Idx) (hi : (i 0).val = t.val * 5000 + (j 0).val)
    (hq : j 1 = i 1) : (iblk7 V c 0 t : S5000x64.Idx → EReal) j = (V c main_v149 : S50000x64.Idx → EReal) i := by
  obtain ⟨e00, e01, -⟩ := idx_facts t
  unfold iblk7
  rw [View.read_apply]
  show V c main_v149 _ = V c main_v149 _
  congr 1
  funext d
  apply Fin.ext
  match d with
  | ⟨0, _⟩ => show win7_0.index t (0 : Fin 2) * 5000 + 1 * (j 0).val = (i 0).val; rw [e00, hi]; omega
  | ⟨1, _⟩ => show win7_0.index t (1 : Fin 2) * 64 + 1 * (j 1).val = (i 1).val; rw [e01, hq]; omega

/-- The four rows are handed whole to every point. -/
theorem whole1 (c : Dev nD) (t : Fin cfg7.N) : (iblk7 V c 1 t : S1x64.Idx → EReal) = V c main_v163 := by
  obtain ⟨-, -, e0, e1, -⟩ := idx_facts t
  funext x
  unfold iblk7
  rw [View.read_apply]
  show V c main_v163 _ = V c main_v163 _
  congr 1
  funext d
  apply Fin.ext
  match d with
  | ⟨0, _⟩ => show win7_1.index t (0 : Fin 2) * 1 + 1 * (x 0).val = (x 0).val; rw [e0]; omega
  | ⟨1, _⟩ => show win7_1.index t (1 : Fin 2) * 64 + 1 * (x 1).val = (x 1).val; rw [e1]; omega

theorem whole2 (c : Dev nD) (t : Fin cfg7.N) : (iblk7 V c 2 t : S1x64.Idx → EReal) = V c main_v164 := by
  obtain ⟨-, -, -, -, e0, e1, -⟩ := idx_facts t
  funext x
  unfold iblk7
  rw [View.read_apply]
  show V c main_v164 _ = V c main_v164 _
  congr 1
  funext d
  apply Fin.ext
  match d with
  | ⟨0, _⟩ => show win7_2.index t (0 : Fin 2) * 1 + 1 * (x 0).val = (x 0).val; rw [e0]; omega
  | ⟨1, _⟩ => show win7_2.index t (1 : Fin 2) * 64 + 1 * (x 1).val = (x 1).val; rw [e1]; omega

theorem whole3 (c : Dev nD) (t : Fin cfg7.N) : (iblk7 V c 3 t : S1x64.Idx → EReal) = V c main_v165 := by
  obtain ⟨-, -, -, -, -, -, e0, e1, -⟩ := idx_facts t
  funext x
  unfold iblk7
  rw [View.read_apply]
  show V c main_v165 _ = V c main_v165 _
  congr 1
  funext d
  apply Fin.ext
  match d with
  | ⟨0, _⟩ => show win7_3.index t (0 : Fin 2) * 1 + 1 * (x 0).val = (x 0).val; rw [e0]; omega
  | ⟨1, _⟩ => show win7_3.index t (1 : Fin 2) * 64 + 1 * (x 1).val = (x 1).val; rw [e1]; omega

theorem whole4 (c : Dev nD) (t : Fin cfg7.N) : (iblk7 V c 4 t : S1x64.Idx → EReal) = V c main_v166 := by
  obtain ⟨-, -, -, -, -, -, -, -, e0, e1, -⟩ := idx_facts t
  funext x
  unfold iblk7
  rw [View.read_apply]
  show V c main_v166 _ = V c main_v166 _
  congr 1
  funext d
  apply Fin.ext
  match d with
  | ⟨0, _⟩ => show win7_4.index t (0 : Fin 2) * 1 + 1 * (x 0).val = (x 0).val; rw [e0]; omega
  | ⟨1, _⟩ => show win7_4.index t (1 : Fin 2) * 64 + 1 * (x 1).val = (x 1).val; rw [e1]; omega

/-- Where an entry of point `t`'s output block sits in the output array. -/
theorem out_emb (t : Fin cfg7.N) (j : S5000x64.Idx) :
    ((((cfg7.win 5).blk t).view.emb j : S50000x64.Idx) 0).val = t.val * 5000 + (j 0).val
    ∧ (((cfg7.win 5).blk t).view.emb j : S50000x64.Idx) 1 = j 1 := by
  obtain ⟨-, -, -, -, -, -, -, -, -, -, e0, e1, -⟩ := idx_facts t
  refine ⟨?_, Fin.ext ?_⟩
  · show win7_5.index t (0 : Fin 2) * 5000 + 1 * (j 0).val = _; rw [e0]; omega
  · show win7_5.index t (1 : Fin 2) * 64 + 1 * (j 1).val = (j 1).val; rw [e1]; omega

/-- What point `t` writes back is block `t` of `G`. -/
theorem flushed_eq (hpay : PayloadReadsEntries) (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz]
  simp only [View.ld_unit_zero (S := S5000x64) hz, View.ld_unit_zero (S := S1x64) hz]
  funext j
  obtain ⟨hr, hc⟩ := out_emb t j
  exact block_entry hpay (V c main_v149) (V c main_v163) (V c main_v164) (V c main_v165) (V c main_v166)
    (iblk7 V c 0 t) (iblk7 V c 1 t) (iblk7 V c 2 t) (iblk7 V c 3 t) (iblk7 V c 4 t)
    j (((cfg7.win 5).blk t).view.emb j)
    (rows0 V c t j _ hr hc.symm) (whole1 V c t) (whole2 V c t) (whole3 V c t) (whole4 V c t) hc.symm

/-- An index of the output array is in point `t`'s block iff each coordinate is in the block's range on its axis. -/
theorem mem_blk (t : Fin cfg7.N) (i : S50000x64.Idx) :
    i ∈ ((cfg7.win 5).blk t).view.set ↔ ∀ d : Fin 2, win7_5.index t d * S5000x64.size d ≤ (i d).val ∧ (i d).val < win7_5.index t d * S5000x64.size d + S5000x64.size d := by
  show i ∈ ((View.whole main_v167).slice (win7_5.rect t)).set ↔ _
  rw [View.set_slice_whole, Rect.mem_set_unit]
  exact Iff.rfl

/-- The ten output blocks tile the output array: row `r` is in the block of point `r / 5000`. -/
theorem cover (i : S50000x64.Idx) : ∃ t : Fin cfg7.N, (cfg7.win 5).flush t = true ∧ i ∈ ((cfg7.win 5).blk t).view.set := by
  have hi0 : (i 0).val < 50000 := (i 0).isLt
  have hi1 : (i 1).val < 64 := (i 1).isLt
  have hN : cfg7.N = 10 := N_7
  let t : Fin cfg7.N := ⟨(i 0).val / 5000, by rw [hN]; omega⟩
  obtain ⟨-, -, -, -, -, -, -, -, -, -, e0, e1, -⟩ := idx_facts t
  have ht : t.val = (i 0).val / 5000 := rfl
  refine ⟨t, flush7_5 t, ?_⟩
  rw [mem_blk]
  intro d
  match d with
  | ⟨0, _⟩ => show win7_5.index t (0 : Fin 2) * 5000 ≤ (i 0).val ∧ (i 0).val < win7_5.index t (0 : Fin 2) * 5000 + 5000; rw [e0, ht]; omega
  | ⟨1, _⟩ => show win7_5.index t (1 : Fin 2) * 64 ≤ (i 1).val ∧ (i 1).val < win7_5.index t (1 : Fin 2) * 64 + 64; rw [e1]; omega

/-- THE OUTPUT ARRAY after the launch is `G` of the arrays as the launch found them. -/
theorem out_eq (hpay : PayloadReadsEntries) (c : Dev nD) : (dat7 V c).arrAt 5 cfg7.N = G V c :=
  (dat7 V c).arrAt_eq_of_cover 5 (G V c) (fun t _ => flushed_eq V hpay c t) cover

end Cert.KernelIdeal.Norm7

end
-- ==== Proof.Layer3.lean ====
/-
  Layer 3 of the kernel program, from the contents at its entry to the contents at its exit.

  The layer is a stretch of host operations (the neighbour aggregation and this layer's parameter slices), the dense
  launch, a second stretch (the per-feature mean and inverse deviation of the dense output) and the normalising launch.
  Each launch's entry contents are read off the stretch before it; each launch leaves in its output array the
  whole-array function of what it found; the edge lists and the stacked parameter arrays pass through untouched.
-/
import proofs.«103578_j10917806867253_1_alg».proof.Proof.Gen.KernelIdeal.Frame
import proofs.«103578_j10917806867253_1_alg».proof.Proof.Carry
import proofs.«103578_j10917806867253_1_alg».proof.Proof.KernelTerms
import proofs.«103578_j10917806867253_1_alg».proof.Proof.BlockRows
import proofs.«103578_j10917806867253_1_alg».proof.Proof.Dense6
import proofs.«103578_j10917806867253_1_alg».proof.Proof.Norm7
import Idealize.ShloMosaic.Lib.StableHlo.Run

set_option maxRecDepth 16384
set_option maxHeartbeats 2000000

noncomputable section

namespace Cert.KernelIdeal.Layer3

open Cert.KernelIdeal Cert.KernelIdeal.Gen Cert.KernelIdeal.Terms Cert.Gin
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the dense launch finds -/

/-- The layer's input is not written by the first stretch. -/
theorem x_in : W13 m ρ c (Proc.devRef .tc main_v124) = W12 m ρ c (Proc.devRef .tc main_v124) := Carry.host6 m ρ c main_v124 (by decide)

/-- The aggregated neighbours of the layer's input along the edges. -/
theorem agg_in : W13 m ρ c (Proc.devRef .tc main_v146) = aggOf64 (W12 m ρ c (Proc.devRef .tc main_v124)) (W12 m ρ c (Proc.devRef .tc main_v1)) (W12 m ρ c (Proc.devRef .tc main_v3)) := by
  show StableHlo.after hostOps6 (W12 m ρ c) (Proc.devRef .tc main_v146) = _
  simp only [hostOps6]
  after_results_simp
  rfl

/-- The first weight matrix. -/
theorem w1_in : W13 m ρ c (Proc.devRef .tc main_v126) = matOf2 (W12 m ρ c (Proc.devRef .tc main_arg7)) := by
  show StableHlo.after hostOps6 (W12 m ρ c) (Proc.devRef .tc main_v126) = _
  simp only [hostOps6]
  after_results_simp
  rfl

/-- The first bias, as a row. -/
theorem b1_in : W13 m ρ c (Proc.devRef .tc main_v147) = shapeCast S1x64 (vecOf4_2 (W12 m ρ c (Proc.devRef .tc main_arg8))) shapeCasts_S64_S1x64 := by
  show StableHlo.after hostOps6 (W12 m ρ c) (Proc.devRef .tc main_v147) = _
  simp only [hostOps6]
  after_results_simp
  rfl

/-- The second weight matrix. -/
theorem w2_in : W13 m ρ c (Proc.devRef .tc main_v130) = matOf2 (W12 m ρ c (Proc.devRef .tc main_arg9)) := by
  show StableHlo.after hostOps6 (W12 m ρ c) (Proc.devRef .tc main_v130) = _
  simp only [hostOps6]
  after_results_simp
  rfl

/-- The second bias, as a row. -/
theorem b2_in : W13 m ρ c (Proc.devRef .tc main_v148) = shapeCast S1x64 (vecOf4_2 (W12 m ρ c (Proc.devRef .tc main_arg10))) shapeCasts_S64_S1x64 := by
  show StableHlo.after hostOps6 (W12 m ρ c) (Proc.devRef .tc main_v148) = _
  simp only [hostOps6]
  after_results_simp
  rfl

/-- The layer's scale vector. -/
theorem scale_in : W13 m ρ c (Proc.devRef .tc main_v134) = vecOf5_3 (W12 m ρ c (Proc.devRef .tc main_arg11)) := by
  show StableHlo.after hostOps6 (W12 m ρ c) (Proc.devRef .tc main_v134) = _
  simp only [hostOps6]
  after_results_simp
  rfl

/-- The layer's shift vector. -/
theorem shift_in : W13 m ρ c (Proc.devRef .tc main_v136) = vecOf5_3 (W12 m ρ c (Proc.devRef .tc main_arg12)) := by
  show StableHlo.after hostOps6 (W12 m ρ c) (Proc.devRef .tc main_v136) = _
  simp only [hostOps6]
  after_results_simp
  rfl

/-! ## What the dense launch leaves -/

/-- The dense launch's output: every node's row of input plus aggregated neighbours through the two dense layers. -/
theorem dense_out : W14 m ρ c (Proc.devRef .tc main_v149)
    = mlpArr (K := 64) (W12 m ρ c (Proc.devRef .tc main_v124)) (aggOf64 (W12 m ρ c (Proc.devRef .tc main_v124)) (W12 m ρ c (Proc.devRef .tc main_v1)) (W12 m ρ c (Proc.devRef .tc main_v3)))
        (matOf2 (W12 m ρ c (Proc.devRef .tc main_arg7))) (shapeCast S1x64 (vecOf4_2 (W12 m ρ c (Proc.devRef .tc main_arg8))) shapeCasts_S64_S1x64)
        (matOf2 (W12 m ρ c (Proc.devRef .tc main_arg9))) (shapeCast S1x64 (vecOf4_2 (W12 m ρ c (Proc.devRef .tc main_arg10))) shapeCasts_S64_S1x64) := by
  refine (W14_arr m ρ c 6).trans ((Dense6.out_eq (V13 m ρ) Cert.Gin.Block.pay6_apply c).trans ?_)
  show mlpArr (K := 64) (W13 m ρ c (Proc.devRef .tc main_v124)) (W13 m ρ c (Proc.devRef .tc main_v146)) (W13 m ρ c (Proc.devRef .tc main_v126)) (W13 m ρ c (Proc.devRef .tc main_v147)) (W13 m ρ c (Proc.devRef .tc main_v130)) (W13 m ρ c (Proc.devRef .tc main_v148)) = _
  rw [x_in, agg_in, w1_in, b1_in, w2_in, b2_in]

/-! ## What the normalising launch finds -/

/-- The dense output is not written by the second stretch. -/
theorem h_in : W15 m ρ c (Proc.devRef .tc main_v149) = W14 m ρ c (Proc.devRef .tc main_v149) := Carry.host7 m ρ c main_v149 (by decide)

/-- The per-feature mean of the dense output, as a row. -/
theorem mean_in : W15 m ρ c (Proc.devRef .tc main_v163) = shapeCast S1x64 (meanOf (W14 m ρ c (Proc.devRef .tc main_v149))) shapeCasts_S64_S1x64 := by
  show StableHlo.after hostOps7 (W14 m ρ c) (Proc.devRef .tc main_v163) = _
  simp only [hostOps7]
  after_results_simp
  rfl

/-- The per-feature inverse deviation of the dense output, as a row. -/
theorem inv_in : W15 m ρ c (Proc.devRef .tc main_v164) = shapeCast S1x64 (invOf (W14 m ρ c (Proc.devRef .tc main_v149))) shapeCasts_S64_S1x64 := by
  show StableHlo.after hostOps7 (W14 m ρ c) (Proc.devRef .tc main_v164) = _
  simp only [hostOps7]
  after_results_simp
  rfl

/-- The scale, as a row. -/
theorem scale_row_in : W15 m ρ c (Proc.devRef .tc main_v165) = shapeCast S1x64 (W14 m ρ c (Proc.devRef .tc main_v134)) shapeCasts_S64_S1x64 := by
  show StableHlo.after hostOps7 (W14 m ρ c) (Proc.devRef .tc main_v165) = _
  simp only [hostOps7]
  after_results_simp
  rfl

/-- The shift, as a row. -/
theorem shift_row_in : W15 m ρ c (Proc.devRef .tc main_v166) = shapeCast S1x64 (W14 m ρ c (Proc.devRef .tc main_v136)) shapeCasts_S64_S1x64 := by
  show StableHlo.after hostOps7 (W14 m ρ c) (Proc.devRef .tc main_v166) = _
  simp only [hostOps7]
  after_results_simp
  rfl

/-- The scale and shift vectors pass through the dense launch. -/
theorem scale_kept : W14 m ρ c (Proc.devRef .tc main_v134) = vecOf5_3 (W12 m ρ c (Proc.devRef .tc main_arg11)) :=
  (W14_of_ne m ρ c main_v134 (by decide)).trans (scale_in m ρ c)
theorem shift_kept : W14 m ρ c (Proc.devRef .tc main_v136) = vecOf5_3 (W12 m ρ c (Proc.devRef .tc main_arg12)) :=
  (W14_of_ne m ρ c main_v136 (by decide)).trans (shift_in m ρ c)

/-! ## What the normalising launch leaves -/

/-- The layer's output: the dense output normalised per feature and rectified. -/
theorem norm_out : W16 m ρ c (Proc.devRef .tc main_v167)
    = bnReluArr (W14 m ρ c (Proc.devRef .tc main_v149)) (shapeCast S1x64 (meanOf (W14 m ρ c (Proc.devRef .tc main_v149))) shapeCasts_S64_S1x64) (shapeCast S1x64 (invOf (W14 m ρ c (Proc.devRef .tc main_v149))) shapeCasts_S64_S1x64)
        (shapeCast S1x64 (vecOf5_3 (W12 m ρ c (Proc.devRef .tc main_arg11))) shapeCasts_S64_S1x64)
        (shapeCast S1x64 (vecOf5_3 (W12 m ρ c (Proc.devRef .tc main_arg12))) shapeCasts_S64_S1x64) := by
  refine (W16_arr m ρ c 5).trans ((Norm7.out_eq (V15 m ρ) Cert.Gin.Block.pay7_apply c).trans ?_)
  show bnReluArr (W15 m ρ c (Proc.devRef .tc main_v149)) (W15 m ρ c (Proc.devRef .tc main_v163)) (W15 m ρ c (Proc.devRef .tc main_v164)) (W15 m ρ c (Proc.devRef .tc main_v165)) (W15 m ρ c (Proc.devRef .tc main_v166)) = _
  rw [h_in, mean_in, inv_in, scale_row_in, shift_row_in, scale_kept, shift_kept]

/-! ## What passes through the layer untouched -/

theorem carry_v1 : W16 m ρ c (Proc.devRef .tc main_v1) = W12 m ρ c (Proc.devRef .tc main_v1) :=
  (W16_of_ne m ρ c main_v1 (by decide)).trans ((Carry.host7 m ρ c main_v1 (by decide)).trans
    ((W14_of_ne m ρ c main_v1 (by decide)).trans (Carry.host6 m ρ c main_v1 (by decide))))
theorem carry_v3 : W16 m ρ c (Proc.devRef .tc main_v3) = W12 m ρ c (Proc.devRef .tc main_v3) :=
  (W16_of_ne m ρ c main_v3 (by decide)).trans ((Carry.host7 m ρ c main_v3 (by decide)).trans
    ((W14_of_ne m ρ c main_v3 (by decide)).trans (Carry.host6 m ρ c main_v3 (by decide))))
theorem carry_arg7 : W16 m ρ c (Proc.devRef .tc main_arg7) = W12 m ρ c (Proc.devRef .tc main_arg7) :=
  (W16_of_ne m ρ c main_arg7 (by decide)).trans ((Carry.host7 m ρ c main_arg7 (by decide)).trans
    ((W14_of_ne m ρ c main_arg7 (by decide)).trans (Carry.host6 m ρ c main_arg7 (by decide))))
theorem carry_arg8 : W16 m ρ c (Proc.devRef .tc main_arg8) = W12 m ρ c (Proc.devRef .tc main_arg8) :=
  (W16_of_ne m ρ c main_arg8 (by decide)).trans ((Carry.host7 m ρ c main_arg8 (by decide)).trans
    ((W14_of_ne m ρ c main_arg8 (by decide)).trans (Carry.host6 m ρ c main_arg8 (by decide))))
theorem carry_arg9 : W16 m ρ c (Proc.devRef .tc main_arg9) = W12 m ρ c (Proc.devRef .tc main_arg9) :=
  (W16_of_ne m ρ c main_arg9 (by decide)).trans ((Carry.host7 m ρ c main_arg9 (by decide)).trans
    ((W14_of_ne m ρ c main_arg9 (by decide)).trans (Carry.host6 m ρ c main_arg9 (by decide))))
theorem carry_arg10 : W16 m ρ c (Proc.devRef .tc main_arg10) = W12 m ρ c (Proc.devRef .tc main_arg10) :=
  (W16_of_ne m ρ c main_arg10 (by decide)).trans ((Carry.host7 m ρ c main_arg10 (by decide)).trans
    ((W14_of_ne m ρ c main_arg10 (by decide)).trans (Carry.host6 m ρ c main_arg10 (by decide))))
theorem carry_arg11 : W16 m ρ c (Proc.devRef .tc main_arg11) = W12 m ρ c (Proc.devRef .tc main_arg11) :=
  (W16_of_ne m ρ c main_arg11 (by decide)).trans ((Carry.host7 m ρ c main_arg11 (by decide)).trans
    ((W14_of_ne m ρ c main_arg11 (by decide)).trans (Carry.host6 m ρ c main_arg11 (by decide))))
theorem carry_arg12 : W16 m ρ c (Proc.devRef .tc main_arg12) = W12 m ρ c (Proc.devRef .tc main_arg12) :=
  (W16_of_ne m ρ c main_arg12 (by decide)).trans ((Carry.host7 m ρ c main_arg12 (by decide)).trans
    ((W14_of_ne m ρ c main_arg12 (by decide)).trans (Carry.host6 m ρ c main_arg12 (by decide))))

end Cert.KernelIdeal.Layer3

end
-- ==== Proof.Dense8.lean ====
/-
  Launch 8 (a dense launch over 64 input features), read as a whole-array function.

  The grid has ten points. Point `t` is handed rows `5000·t … 5000·t + 4999` of the node features and of the aggregated
  neighbours, and the two weight matrices and the two bias rows whole; it writes rows `5000·t … 5000·t + 4999` of the
  output. Since an output row depends only on the same row of the two inputs, the block a point writes is the
  restriction of one function of the whole arrays, and the ten blocks tile the output: after the launch the output
  array is that function of the arrays as the launch found them.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Dense8

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: one row through the two dense layers. -/
def PayloadReadsRows : Prop :=
  ∀ (x0 x1 : Vec Ideal S5000x64 .f32) (x2 : Vec Ideal S64x64 .f32) (x3 : Vec Ideal S1x64 .f32) (x4 : Vec Ideal S64x64 .f32)
    (x5 : Vec Ideal S1x64 .f32) (p : Fin 5000) (q : Fin 64),
    k8_pay1 (F := Ideal) x0 x1 x2 x3 x4 x5 (ix2 p q)
      = mlpRow (fun i => x0 (ix2 p i)) (fun i => x1 (ix2 p i)) (fun i j => x2 (ix2 i j)) (fun j => x3 (ix2 0 j))
          (fun j c => x4 (ix2 j c)) (fun c => x5 (ix2 0 c)) q

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the two node blocks and the output block move with the point, the weights and
    the bias rows stay at block (0, 0). -/
theorem idx_facts : ∀ t : Fin cfg8.N,
      win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 ∧ t.val < 10 :=
  (by decide +kernel : ∀ t : Fin grid8.N, _)

/-- The output array after the launch: every node's row through the two dense layers. -/
abbrev G (c : Dev nD) : S50000x64.Idx → Elt Ideal .f32 :=
  mlpArr (K := 64) (V c main_v167) (V c main_v189) (V c main_v169) (V c main_v190) (V c main_v173) (V c main_v191)

/-- An entry of a block of rows is the body's row function of the matching rows of the whole arrays. -/
theorem block_entry (hpay : PayloadReadsRows) (X A : S50000x64.Idx → EReal) (w1 : S64x64.Idx → EReal) (b1 : S1x64.Idx → EReal)
    (w2 : S64x64.Idx → EReal) (b2 : S1x64.Idx → EReal)
    (x0 x1 : Vec Ideal S5000x64 .f32) (x2 : Vec Ideal S64x64 .f32) (x3 : Vec Ideal S1x64 .f32) (x4 : Vec Ideal S64x64 .f32)
    (x5 : Vec Ideal S1x64 .f32) (j : S5000x64.Idx) (i : S50000x64.Idx)
    (h0 : ∀ k, x0 (ix2 (j 0) k) = X (ix2 (i 0) k)) (h1 : ∀ k, x1 (ix2 (j 0) k) = A (ix2 (i 0) k))
    (h2 : x2 = w1) (h3 : x3 = b1) (h4 : x4 = w2) (h5 : x5 = b2) (hq : j 1 = i 1) :
    k8_pay1 (F := Ideal) x0 x1 x2 x3 x4 x5 j = mlpArr (K := 64) X A w1 b1 w2 b2 i := by
  subst h2 h3 h4 h5
  refine ((congrArg (k8_pay1 (F := Ideal) x0 x1 x2 x3 x4 x5) (eq_ix2 j)).trans (hpay x0 x1 x2 x3 x4 x5 (j 0) (j 1))).trans ?_
  unfold mlpArr
  simp only [h0, h1, hq]

/-- A node block at point `t` holds rows `5000·t …` of its array. -/
theorem rows0 (c : Dev nD) (t : Fin cfg8.N) (j : S5000x64.Idx) (i : S50000x64.Idx) (hi : (i 0).val = t.val * 5000 + (j 0).val)
    (k : Fin 64) : (iblk8 V c 0 t : S5000x64.Idx → EReal) (ix2 (j 0) k) = (V c main_v167 : S50000x64.Idx → EReal) (ix2 (i 0) k) := by
  obtain ⟨e00, e01, -⟩ := idx_facts t
  unfold iblk8
  rw [View.read_apply]
  show V c main_v167 _ = V c main_v167 _
  congr 1
  funext d
  apply Fin.ext
  match d with
  | ⟨0, _⟩ => show win8_0.index t (0 : Fin 2) * 5000 + 1 * (j 0).val = (i 0).val; rw [e00, hi]; omega
  | ⟨1, _⟩ => show win8_0.index t (1 : Fin 2) * 64 + 1 * k.val = k.val; rw [e01]; omega

theorem rows1 (c : Dev nD) (t : Fin cfg8.N) (j : S5000x64.Idx) (i : S50000x64.Idx) (hi : (i 0).val = t.val * 5000 + (j 0).val)
    (k : Fin 64) : (iblk8 V c 1 t : S5000x64.Idx → EReal) (ix2 (j 0) k) = (V c main_v189 : S50000x64.Idx → EReal) (ix2 (i 0) k) := by
  obtain ⟨-, -, e10, e11, -⟩ := idx_facts t
  unfold iblk8
  rw [View.read_apply]
  show V c main_v189 _ = V c main_v189 _
  congr 1
  funext d
  apply Fin.ext
  match d with
  | ⟨0, _⟩ => show win8_1.index t (0 : Fin 2) * 5000 + 1 * (j 0).val = (i 0).val; rw [e10, hi]; omega
  | ⟨1, _⟩ => show win8_1.index t (1 : Fin 2) * 64 + 1 * k.val = k.val; rw [e11]; omega

/-- The weights and the bias rows are handed whole to every point. -/
theorem whole2 (c : Dev nD) (t : Fin cfg8.N) : (iblk8 V c 2 t : S64x64.Idx → EReal) = V c main_v169 := by
  obtain ⟨-, -, -, -, e0, e1, -⟩ := idx_facts t
  funext x
  unfold iblk8
  rw [View.read_apply]
  show V c main_v169 _ = V c main_v169 _
  congr 1
  funext d
  apply Fin.ext
  match d with
  | ⟨0, _⟩ => show win8_2.index t (0 : Fin 2) * 64 + 1 * (x 0).val = (x 0).val; rw [e0]; omega
  | ⟨1, _⟩ => show win8_2.index t (1 : Fin 2) * 64 + 1 * (x 1).val = (x 1).val; rw [e1]; omega

theorem whole3 (c : Dev nD) (t : Fin cfg8.N) : (iblk8 V c 3 t : S1x64.Idx → EReal) = V c main_v190 := by
  obtain ⟨-, -, -, -, -, -, e0, e1, -⟩ := idx_facts t
  funext x
  unfold iblk8
  rw [View.read_apply]
  show V c main_v190 _ = V c main_v190 _
  congr 1
  funext d
  apply Fin.ext
  match d with
  | ⟨0, _⟩ => show win8_3.index t (0 : Fin 2) * 1 + 1 * (x 0).val = (x 0).val; rw [e0]; omega
  | ⟨1, _⟩ => show win8_3.index t (1 : Fin 2) * 64 + 1 * (x 1).val = (x 1).val; rw [e1]; omega

theorem whole4 (c : Dev nD) (t : Fin cfg8.N) : (iblk8 V c 4 t : S64x64.Idx → EReal) = V c main_v173 := by
  obtain ⟨-, -, -, -, -, -, -, -, e0, e1, -⟩ := idx_facts t
  funext x
  unfold iblk8
  rw [View.read_apply]
  show V c main_v173 _ = V c main_v173 _
  congr 1
  funext d
  apply Fin.ext
  match d with
  | ⟨0, _⟩ => show win8_4.index t (0 : Fin 2) * 64 + 1 * (x 0).val = (x 0).val; rw [e0]; omega
  | ⟨1, _⟩ => show win8_4.index t (1 : Fin 2) * 64 + 1 * (x 1).val = (x 1).val; rw [e1]; omega

theorem whole5 (c : Dev nD) (t : Fin cfg8.N) : (iblk8 V c 5 t : S1x64.Idx → EReal) = V c main_v191 := by
  obtain ⟨-, -, -, -, -, -, -, -, -, -, e0, e1, -⟩ := idx_facts t
  funext x
  unfold iblk8
  rw [View.read_apply]
  show V c main_v191 _ = V c main_v191 _
  congr 1
  funext d
  apply Fin.ext
  match d with
  | ⟨0, _⟩ => show win8_5.index t (0 : Fin 2) * 1 + 1 * (x 0).val = (x 0).val; rw [e0]; omega
  | ⟨1, _⟩ => show win8_5.index t (1 : Fin 2) * 64 + 1 * (x 1).val = (x 1).val; rw [e1]; omega

/-- Where an entry of point `t`'s output block sits in the output array. -/
theorem out_emb (t : Fin cfg8.N) (j : S5000x64.Idx) :
    ((((cfg8.win 6).blk t).view.emb j : S50000x64.Idx) 0).val = t.val * 5000 + (j 0).val
    ∧ (((cfg8.win 6).blk t).view.emb j : S50000x64.Idx) 1 = j 1 := by
  obtain ⟨-, -, -, -, -, -, -, -, -, -, -, -, e0, e1, -⟩ := idx_facts t
  refine ⟨?_, Fin.ext ?_⟩
  · show win8_6.index t (0 : Fin 2) * 5000 + 1 * (j 0).val = _; rw [e0]; omega
  · show win8_6.index t (1 : Fin 2) * 64 + 1 * (j 1).val = (j 1).val; rw [e1]; omega

/-- What point `t` writes back is block `t` of `G`. -/
theorem flushed_eq (hpay : PayloadReadsRows) (c : Dev nD) (t : Fin cfg8.N) :
    (dat8 V c).flushed 6 t = ((cfg8.win 6).blk t).view.read (Elt Ideal) (G V c) := by
  show (cfg8.win 6).cut (grid8.coords t) ((dat8 V c).after 6 t) = _
  rw [after8_6]
  unfold out8_6
  rw [View.canon_unit_zero hz]
  simp only [View.ld_unit_zero (S := S5000x64) hz, View.ld_unit_zero (S := S64x64) hz, View.ld_unit_zero (S := S1x64) hz,
    View.ld_unit_zero (S := S64x64) hz]
  funext j
  obtain ⟨hr, hc⟩ := out_emb t j
  exact block_entry hpay (V c main_v167) (V c main_v189) (V c main_v169) (V c main_v190) (V c main_v173) (V c main_v191)
    (iblk8 V c 0 t) (iblk8 V c 1 t) (iblk8 V c 2 t) (iblk8 V c 3 t) (iblk8 V c 4 t) (iblk8 V c 5 t)
    j (((cfg8.win 6).blk t).view.emb j)
    (rows0 V c t j _ hr) (rows1 V c t j _ hr) (whole2 V c t) (whole3 V c t) (whole4 V c t) (whole5 V c t) hc.symm

/-- An index of the output array is in point `t`'s block iff each coordinate is in the block's range on its axis. -/
theorem mem_blk (t : Fin cfg8.N) (i : S50000x64.Idx) :
    i ∈ ((cfg8.win 6).blk t).view.set ↔ ∀ d : Fin 2, win8_6.index t d * S5000x64.size d ≤ (i d).val ∧ (i d).val < win8_6.index t d * S5000x64.size d + S5000x64.size d := by
  show i ∈ ((View.whole main_v192).slice (win8_6.rect t)).set ↔ _
  rw [View.set_slice_whole, Rect.mem_set_unit]
  exact Iff.rfl

/-- The ten output blocks tile the output array: row `r` is in the block of point `r / 5000`. -/
theorem cover (i : S50000x64.Idx) : ∃ t : Fin cfg8.N, (cfg8.win 6).flush t = true ∧ i ∈ ((cfg8.win 6).blk t).view.set := by
  have hi0 : (i 0).val < 50000 := (i 0).isLt
  have hi1 : (i 1).val < 64 := (i 1).isLt
  have hN : cfg8.N = 10 := N_8
  let t : Fin cfg8.N := ⟨(i 0).val / 5000, by rw [hN]; omega⟩
  obtain ⟨-, -, -, -, -, -, -, -, -, -, -, -, e0, e1, -⟩ := idx_facts t
  have ht : t.val = (i 0).val / 5000 := rfl
  refine ⟨t, flush8_6 t, ?_⟩
  rw [mem_blk]
  intro d
  match d with
  | ⟨0, _⟩ => show win8_6.index t (0 : Fin 2) * 5000 ≤ (i 0).val ∧ (i 0).val < win8_6.index t (0 : Fin 2) * 5000 + 5000; rw [e0, ht]; omega
  | ⟨1, _⟩ => show win8_6.index t (1 : Fin 2) * 64 ≤ (i 1).val ∧ (i 1).val < win8_6.index t (1 : Fin 2) * 64 + 64; rw [e1]; omega

/-- THE OUTPUT ARRAY after the launch is `G` of the arrays as the launch found them. -/
theorem out_eq (hpay : PayloadReadsRows) (c : Dev nD) : (dat8 V c).arrAt 6 cfg8.N = G V c :=
  (dat8 V c).arrAt_eq_of_cover 6 (G V c) (fun t _ => flushed_eq V hpay c t) cover

end Cert.KernelIdeal.Dense8

end
-- ==== Proof.Norm9.lean ====
/-
  Launch 9 (a normalising launch, the last one, without the rectifier), read as a whole-array function.

  The grid has ten points. Point `t` is handed rows `5000·t … 5000·t + 4999` of the pre-activations and the four
  `[1, 64]` rows (mean, inverse deviation, scale, shift) whole; it writes the same rows of the output. An output entry
  depends only on the same entry of the pre-activations and on its column of the four rows, so the block a point writes
  is the restriction of one function of the whole arrays, and the ten blocks tile the output.
-/
import proofs.«103578_j10917806867253_1_alg».proof.Proof.Gen.KernelIdeal.Frame
import proofs.«103578_j10917806867253_1_alg».proof.Proof.NodeArrays
import Idealize.ShloMosaic.Lib.Pipeline.Value
import Idealize.ShloMosaic.Lib.ValueIdx

set_option maxRecDepth 16384

noncomputable section

namespace Cert.KernelIdeal.Norm9

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- The launch's body at an entry of its block: the normalised entry. -/
def PayloadReadsEntries : Prop :=
  ∀ (x0 : Vec Ideal S5000x64 .f32) (x1 x2 x3 x4 : Vec Ideal S1x64 .f32) (p : Fin 5000) (q : Fin 64),
    k9_pay1 (F := Ideal) x0 x1 x2 x3 x4 (ix2 p q) = bnEntry (x0 (ix2 p q)) (x1 (ix2 0 q)) (x2 (ix2 0 q)) (x3 (ix2 0 q)) (x4 (ix2 0 q))

variable (V : (c : Dev nD) → (b : Ref sig .tc) → Buf (Elt Ideal) ((c : Thread nD τ).loc b))

theorem hz : (![0, 0] : Fin 2 → Nat) = fun _ => 0 := funext fun a => by fin_cases a <;> rfl

/-- The block-index maps over the grid: the pre-activation block and the output block move with the point, the four
    rows stay at block (0, 0). -/
theorem idx_facts : ∀ t : Fin cfg9.N,
      win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 ∧ t.val < 10 :=
  (by decide +kernel : ∀ t : Fin grid9.N, _)

/-- The output array after the launch: every entry normalised. -/
abbrev G (c : Dev nD) : S50000x64.Idx → Elt Ideal .f32 :=
  bnArr (V c main_v192) (V c main_v206) (V c main_v207) (V c main_v208) (V c main_v209)

/-- An entry of a block of rows is the body's entry function of the matching entry of the whole array. -/
theorem block_entry (hpay : PayloadReadsEntries) (H : S50000x64.Idx → EReal) (mu s g b : S1x64.Idx → EReal)
    (x0 : Vec Ideal S5000x64 .f32) (x1 x2 x3 x4 : Vec Ideal S1x64 .f32) (j : S5000x64.Idx) (i : S50000x64.Idx)
    (h0 : x0 j = H i) (h1 : x1 = mu) (h2 : x2 = s) (h3 : x3 = g) (h4 : x4 = b) (hq : j 1 = i 1) :
    k9_pay1 (F := Ideal) x0 x1 x2 x3 x4 j = bnArr H mu s g b i := by
  subst h1 h2 h3 h4
  refine ((congrArg (k9_pay1 (F := Ideal) x0 x1 x2 x3 x4) (eq_ix2 j)).trans (hpay x0 x1 x2 x3 x4 (j 0) (j 1))).trans ?_
  have h0' : x0 (ix2 (j 0) (j 1)) = H i := (congrArg x0 (eq_ix2 j).symm).trans h0
  unfold bnArr
  rw [h0', hq]

/-- The pre-activation block at point `t` holds rows `5000·t …` of its array. -/
theorem rows0 (c : Dev nD) (t : Fin cfg9.N) (j : S5000x64.Idx) (i : S50000x64.Idx) (hi : (i 0).val = t.val * 5000 + (j 0).val)
    (hq : j 1 = i 1) : (iblk9 V c 0 t : S5000x64.Idx → EReal) j = (V c main_v192 : S50000x64.Idx → EReal) i := by
  obtain ⟨e00, e01, -⟩ := idx_facts t
  unfold iblk9
  rw [View.read_apply]
  show V c main_v192 _ = V c main_v192 _
  congr 1
  funext d
  apply Fin.ext
  match d with
  | ⟨0, _⟩ => show win9_0.index t (0 : Fin 2) * 5000 + 1 * (j 0).val = (i 0).val; rw [e00, hi]; omega
  | ⟨1, _⟩ => show win9_0.index t (1 : Fin 2) * 64 + 1 * (j 1).val = (i 1).val; rw [e01, hq]; omega

/-- The four rows are handed whole to every point. -/
theorem whole1 (c : Dev nD) (t : Fin cfg9.N) : (iblk9 V c 1 t : S1x64.Idx → EReal) = V c main_v206 := by
  obtain ⟨-, -, e0, e1, -⟩ := idx_facts t
  funext x
  unfold iblk9
  rw [View.read_apply]
  show V c main_v206 _ = V c main_v206 _
  congr 1
  funext d
  apply Fin.ext
  match d with
  | ⟨0, _⟩ => show win9_1.index t (0 : Fin 2) * 1 + 1 * (x 0).val = (x 0).val; rw [e0]; omega
  | ⟨1, _⟩ => show win9_1.index t (1 : Fin 2) * 64 + 1 * (x 1).val = (x 1).val; rw [e1]; omega

theorem whole2 (c : Dev nD) (t : Fin cfg9.N) : (iblk9 V c 2 t : S1x64.Idx → EReal) = V c main_v207 := by
  obtain ⟨-, -, -, -, e0, e1, -⟩ := idx_facts t
  funext x
  unfold iblk9
  rw [View.read_apply]
  show V c main_v207 _ = V c main_v207 _
  congr 1
  funext d
  apply Fin.ext
  match d with
  | ⟨0, _⟩ => show win9_2.index t (0 : Fin 2) * 1 + 1 * (x 0).val = (x 0).val; rw [e0]; omega
  | ⟨1, _⟩ => show win9_2.index t (1 : Fin 2) * 64 + 1 * (x 1).val = (x 1).val; rw [e1]; omega

theorem whole3 (c : Dev nD) (t : Fin cfg9.N) : (iblk9 V c 3 t : S1x64.Idx → EReal) = V c main_v208 := by
  obtain ⟨-, -, -, -, -, -, e0, e1, -⟩ := idx_facts t
  funext x
  unfold iblk9
  rw [View.read_apply]
  show V c main_v208 _ = V c main_v208 _
  congr 1
  funext d
  apply Fin.ext
  match d with
  | ⟨0, _⟩ => show win9_3.index t (0 : Fin 2) * 1 + 1 * (x 0).val = (x 0).val; rw [e0]; omega
  | ⟨1, _⟩ => show win9_3.index t (1 : Fin 2) * 64 + 1 * (x 1).val = (x 1).val; rw [e1]; omega

theorem whole4 (c : Dev nD) (t : Fin cfg9.N) : (iblk9 V c 4 t : S1x64.Idx → EReal) = V c main_v209 := by
  obtain ⟨-, -, -, -, -, -, -, -, e0, e1, -⟩ := idx_facts t
  funext x
  unfold iblk9
  rw [View.read_apply]
  show V c main_v209 _ = V c main_v209 _
  congr 1
  funext d
  apply Fin.ext
  match d with
  | ⟨0, _⟩ => show win9_4.index t (0 : Fin 2) * 1 + 1 * (x 0).val = (x 0).val; rw [e0]; omega
  | ⟨1, _⟩ => show win9_4.index t (1 : Fin 2) * 64 + 1 * (x 1).val = (x 1).val; rw [e1]; omega

/-- Where an entry of point `t`'s output block sits in the output array. -/
theorem out_emb (t : Fin cfg9.N) (j : S5000x64.Idx) :
    ((((cfg9.win 5).blk t).view.emb j : S50000x64.Idx) 0).val = t.val * 5000 + (j 0).val
    ∧ (((cfg9.win 5).blk t).view.emb j : S50000x64.Idx) 1 = j 1 := by
  obtain ⟨-, -, -, -, -, -, -, -, -, -, e0, e1, -⟩ := idx_facts t
  refine ⟨?_, Fin.ext ?_⟩
  · show win9_5.index t (0 : Fin 2) * 5000 + 1 * (j 0).val = _; rw [e0]; omega
  · show win9_5.index t (1 : Fin 2) * 64 + 1 * (j 1).val = (j 1).val; rw [e1]; omega

/-- What point `t` writes back is block `t` of `G`. -/
theorem flushed_eq (hpay : PayloadReadsEntries) (c : Dev nD) (t : Fin cfg9.N) :
    (dat9 V c).flushed 5 t = ((cfg9.win 5).blk t).view.read (Elt Ideal) (G V c) := by
  show (cfg9.win 5).cut (grid9.coords t) ((dat9 V c).after 5 t) = _
  rw [after9_5]
  unfold out9_5
  rw [View.canon_unit_zero hz]
  simp only [View.ld_unit_zero (S := S5000x64) hz, View.ld_unit_zero (S := S1x64) hz]
  funext j
  obtain ⟨hr, hc⟩ := out_emb t j
  exact block_entry hpay (V c main_v192) (V c main_v206) (V c main_v207) (V c main_v208) (V c main_v209)
    (iblk9 V c 0 t) (iblk9 V c 1 t) (iblk9 V c 2 t) (iblk9 V c 3 t) (iblk9 V c 4 t)
    j (((cfg9.win 5).blk t).view.emb j)
    (rows0 V c t j _ hr hc.symm) (whole1 V c t) (whole2 V c t) (whole3 V c t) (whole4 V c t) hc.symm

/-- An index of the output array is in point `t`'s block iff each coordinate is in the block's range on its axis. -/
theorem mem_blk (t : Fin cfg9.N) (i : S50000x64.Idx) :
    i ∈ ((cfg9.win 5).blk t).view.set ↔ ∀ d : Fin 2, win9_5.index t d * S5000x64.size d ≤ (i d).val ∧ (i d).val < win9_5.index t d * S5000x64.size d + S5000x64.size d := by
  show i ∈ ((View.whole main_v210).slice (win9_5.rect t)).set ↔ _
  rw [View.set_slice_whole, Rect.mem_set_unit]
  exact Iff.rfl

/-- The ten output blocks tile the output array: row `r` is in the block of point `r / 5000`. -/
theorem cover (i : S50000x64.Idx) : ∃ t : Fin cfg9.N, (cfg9.win 5).flush t = true ∧ i ∈ ((cfg9.win 5).blk t).view.set := by
  have hi0 : (i 0).val < 50000 := (i 0).isLt
  have hi1 : (i 1).val < 64 := (i 1).isLt
  have hN : cfg9.N = 10 := N_9
  let t : Fin cfg9.N := ⟨(i 0).val / 5000, by rw [hN]; omega⟩
  obtain ⟨-, -, -, -, -, -, -, -, -, -, e0, e1, -⟩ := idx_facts t
  have ht : t.val = (i 0).val / 5000 := rfl
  refine ⟨t, flush9_5 t, ?_⟩
  rw [mem_blk]
  intro d
  match d with
  | ⟨0, _⟩ => show win9_5.index t (0 : Fin 2) * 5000 ≤ (i 0).val ∧ (i 0).val < win9_5.index t (0 : Fin 2) * 5000 + 5000; rw [e0, ht]; omega
  | ⟨1, _⟩ => show win9_5.index t (1 : Fin 2) * 64 ≤ (i 1).val ∧ (i 1).val < win9_5.index t (1 : Fin 2) * 64 + 64; rw [e1]; omega

/-- THE OUTPUT ARRAY after the launch is `G` of the arrays as the launch found them. -/
theorem out_eq (hpay : PayloadReadsEntries) (c : Dev nD) : (dat9 V c).arrAt 5 cfg9.N = G V c :=
  (dat9 V c).arrAt_eq_of_cover 5 (G V c) (fun t _ => flushed_eq V hpay c t) cover

end Cert.KernelIdeal.Norm9

end
-- ==== Proof.Layer4.lean ====
/-
  Layer 4 of the kernel program, from the contents at its entry to the contents at its exit.

  The layer is a stretch of host operations (the neighbour aggregation and this layer's parameter slices), the dense
  launch, a second stretch (the per-feature mean and inverse deviation of the dense output) and the normalising launch.
  Each launch's entry contents are read off the stretch before it; each launch leaves in its output array the
  whole-array function of what it found; the edge lists and the stacked parameter arrays pass through untouched.
-/
import proofs.«103578_j10917806867253_1_alg».proof.Proof.Gen.KernelIdeal.Frame
import proofs.«103578_j10917806867253_1_alg».proof.Proof.Carry
import proofs.«103578_j10917806867253_1_alg».proof.Proof.KernelTerms
import proofs.«103578_j10917806867253_1_alg».proof.Proof.BlockRows
import proofs.«103578_j10917806867253_1_alg».proof.Proof.Dense8
import proofs.«103578_j10917806867253_1_alg».proof.Proof.Norm9
import Idealize.ShloMosaic.Lib.StableHlo.Run

set_option maxRecDepth 16384
set_option maxHeartbeats 2000000

noncomputable section

namespace Cert.KernelIdeal.Layer4

open Cert.KernelIdeal Cert.KernelIdeal.Gen Cert.KernelIdeal.Terms Cert.Gin
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the dense launch finds -/

/-- The layer's input is not written by the first stretch. -/
theorem x_in : W17 m ρ c (Proc.devRef .tc main_v167) = W16 m ρ c (Proc.devRef .tc main_v167) := Carry.host8 m ρ c main_v167 (by decide)

/-- The aggregated neighbours of the layer's input along the edges. -/
theorem agg_in : W17 m ρ c (Proc.devRef .tc main_v189) = aggOf64 (W16 m ρ c (Proc.devRef .tc main_v167)) (W16 m ρ c (Proc.devRef .tc main_v1)) (W16 m ρ c (Proc.devRef .tc main_v3)) := by
  show StableHlo.after hostOps8 (W16 m ρ c) (Proc.devRef .tc main_v189) = _
  simp only [hostOps8]
  after_results_simp
  rfl

/-- The first weight matrix. -/
theorem w1_in : W17 m ρ c (Proc.devRef .tc main_v169) = matOf3 (W16 m ρ c (Proc.devRef .tc main_arg7)) := by
  show StableHlo.after hostOps8 (W16 m ρ c) (Proc.devRef .tc main_v169) = _
  simp only [hostOps8]
  after_results_simp
  rfl

/-- The first bias, as a row. -/
theorem b1_in : W17 m ρ c (Proc.devRef .tc main_v190) = shapeCast S1x64 (vecOf4_3 (W16 m ρ c (Proc.devRef .tc main_arg8))) shapeCasts_S64_S1x64 := by
  show StableHlo.after hostOps8 (W16 m ρ c) (Proc.devRef .tc main_v190) = _
  simp only [hostOps8]
  after_results_simp
  rfl

/-- The second weight matrix. -/
theorem w2_in : W17 m ρ c (Proc.devRef .tc main_v173) = matOf3 (W16 m ρ c (Proc.devRef .tc main_arg9)) := by
  show StableHlo.after hostOps8 (W16 m ρ c) (Proc.devRef .tc main_v173) = _
  simp only [hostOps8]
  after_results_simp
  rfl

/-- The second bias, as a row. -/
theorem b2_in : W17 m ρ c (Proc.devRef .tc main_v191) = shapeCast S1x64 (vecOf4_3 (W16 m ρ c (Proc.devRef .tc main_arg10))) shapeCasts_S64_S1x64 := by
  show StableHlo.after hostOps8 (W16 m ρ c) (Proc.devRef .tc main_v191) = _
  simp only [hostOps8]
  after_results_simp
  rfl

/-- The layer's scale vector. -/
theorem scale_in : W17 m ρ c (Proc.devRef .tc main_v177) = vecOf5_4 (W16 m ρ c (Proc.devRef .tc main_arg11)) := by
  show StableHlo.after hostOps8 (W16 m ρ c) (Proc.devRef .tc main_v177) = _
  simp only [hostOps8]
  after_results_simp
  rfl

/-- The layer's shift vector. -/
theorem shift_in : W17 m ρ c (Proc.devRef .tc main_v179) = vecOf5_4 (W16 m ρ c (Proc.devRef .tc main_arg12)) := by
  show StableHlo.after hostOps8 (W16 m ρ c) (Proc.devRef .tc main_v179) = _
  simp only [hostOps8]
  after_results_simp
  rfl

/-! ## What the dense launch leaves -/

/-- The dense launch's output: every node's row of input plus aggregated neighbours through the two dense layers. -/
theorem dense_out : W18 m ρ c (Proc.devRef .tc main_v192)
    = mlpArr (K := 64) (W16 m ρ c (Proc.devRef .tc main_v167)) (aggOf64 (W16 m ρ c (Proc.devRef .tc main_v167)) (W16 m ρ c (Proc.devRef .tc main_v1)) (W16 m ρ c (Proc.devRef .tc main_v3)))
        (matOf3 (W16 m ρ c (Proc.devRef .tc main_arg7))) (shapeCast S1x64 (vecOf4_3 (W16 m ρ c (Proc.devRef .tc main_arg8))) shapeCasts_S64_S1x64)
        (matOf3 (W16 m ρ c (Proc.devRef .tc main_arg9))) (shapeCast S1x64 (vecOf4_3 (W16 m ρ c (Proc.devRef .tc main_arg10))) shapeCasts_S64_S1x64) := by
  refine (W18_arr m ρ c 6).trans ((Dense8.out_eq (V17 m ρ) Cert.Gin.Block.pay8_apply c).trans ?_)
  show mlpArr (K := 64) (W17 m ρ c (Proc.devRef .tc main_v167)) (W17 m ρ c (Proc.devRef .tc main_v189)) (W17 m ρ c (Proc.devRef .tc main_v169)) (W17 m ρ c (Proc.devRef .tc main_v190)) (W17 m ρ c (Proc.devRef .tc main_v173)) (W17 m ρ c (Proc.devRef .tc main_v191)) = _
  rw [x_in, agg_in, w1_in, b1_in, w2_in, b2_in]

/-! ## What the normalising launch finds -/

/-- The dense output is not written by the second stretch. -/
theorem h_in : W19 m ρ c (Proc.devRef .tc main_v192) = W18 m ρ c (Proc.devRef .tc main_v192) := Carry.host9 m ρ c main_v192 (by decide)

/-- The per-feature mean of the dense output, as a row. -/
theorem mean_in : W19 m ρ c (Proc.devRef .tc main_v206) = shapeCast S1x64 (meanOf (W18 m ρ c (Proc.devRef .tc main_v192))) shapeCasts_S64_S1x64 := by
  show StableHlo.after hostOps9 (W18 m ρ c) (Proc.devRef .tc main_v206) = _
  simp only [hostOps9]
  after_results_simp
  rfl

/-- The per-feature inverse deviation of the dense output, as a row. -/
theorem inv_in : W19 m ρ c (Proc.devRef .tc main_v207) = shapeCast S1x64 (invOf (W18 m ρ c (Proc.devRef .tc main_v192))) shapeCasts_S64_S1x64 := by
  show StableHlo.after hostOps9 (W18 m ρ c) (Proc.devRef .tc main_v207) = _
  simp only [hostOps9]
  after_results_simp
  rfl

/-- The scale, as a row. -/
theorem scale_row_in : W19 m ρ c (Proc.devRef .tc main_v208) = shapeCast S1x64 (W18 m ρ c (Proc.devRef .tc main_v177)) shapeCasts_S64_S1x64 := by
  show StableHlo.after hostOps9 (W18 m ρ c) (Proc.devRef .tc main_v208) = _
  simp only [hostOps9]
  after_results_simp
  rfl

/-- The shift, as a row. -/
theorem shift_row_in : W19 m ρ c (Proc.devRef .tc main_v209) = shapeCast S1x64 (W18 m ρ c (Proc.devRef .tc main_v179)) shapeCasts_S64_S1x64 := by
  show StableHlo.after hostOps9 (W18 m ρ c) (Proc.devRef .tc main_v209) = _
  simp only [hostOps9]
  after_results_simp
  rfl

/-- The scale and shift vectors pass through the dense launch. -/
theorem scale_kept : W18 m ρ c (Proc.devRef .tc main_v177) = vecOf5_4 (W16 m ρ c (Proc.devRef .tc main_arg11)) :=
  (W18_of_ne m ρ c main_v177 (by decide)).trans (scale_in m ρ c)
theorem shift_kept : W18 m ρ c (Proc.devRef .tc main_v179) = vecOf5_4 (W16 m ρ c (Proc.devRef .tc main_arg12)) :=
  (W18_of_ne m ρ c main_v179 (by decide)).trans (shift_in m ρ c)

/-! ## What the normalising launch leaves -/

/-- The layer's output: the dense output normalised per feature. -/
theorem norm_out : W20 m ρ c (Proc.devRef .tc main_v210)
    = bnArr (W18 m ρ c (Proc.devRef .tc main_v192)) (shapeCast S1x64 (meanOf (W18 m ρ c (Proc.devRef .tc main_v192))) shapeCasts_S64_S1x64) (shapeCast S1x64 (invOf (W18 m ρ c (Proc.devRef .tc main_v192))) shapeCasts_S64_S1x64)
        (shapeCast S1x64 (vecOf5_4 (W16 m ρ c (Proc.devRef .tc main_arg11))) shapeCasts_S64_S1x64)
        (shapeCast S1x64 (vecOf5_4 (W16 m ρ c (Proc.devRef .tc main_arg12))) shapeCasts_S64_S1x64) := by
  refine (W20_arr m ρ c 5).trans ((Norm9.out_eq (V19 m ρ) Cert.Gin.Block.pay9_apply c).trans ?_)
  show bnArr (W19 m ρ c (Proc.devRef .tc main_v192)) (W19 m ρ c (Proc.devRef .tc main_v206)) (W19 m ρ c (Proc.devRef .tc main_v207)) (W19 m ρ c (Proc.devRef .tc main_v208)) (W19 m ρ c (Proc.devRef .tc main_v209)) = _
  rw [h_in, mean_in, inv_in, scale_row_in, shift_row_in, scale_kept, shift_kept]

/-! ## What passes through the layer untouched -/

theorem carry_v1 : W20 m ρ c (Proc.devRef .tc main_v1) = W16 m ρ c (Proc.devRef .tc main_v1) :=
  (W20_of_ne m ρ c main_v1 (by decide)).trans ((Carry.host9 m ρ c main_v1 (by decide)).trans
    ((W18_of_ne m ρ c main_v1 (by decide)).trans (Carry.host8 m ρ c main_v1 (by decide))))
theorem carry_v3 : W20 m ρ c (Proc.devRef .tc main_v3) = W16 m ρ c (Proc.devRef .tc main_v3) :=
  (W20_of_ne m ρ c main_v3 (by decide)).trans ((Carry.host9 m ρ c main_v3 (by decide)).trans
    ((W18_of_ne m ρ c main_v3 (by decide)).trans (Carry.host8 m ρ c main_v3 (by decide))))
theorem carry_arg7 : W20 m ρ c (Proc.devRef .tc main_arg7) = W16 m ρ c (Proc.devRef .tc main_arg7) :=
  (W20_of_ne m ρ c main_arg7 (by decide)).trans ((Carry.host9 m ρ c main_arg7 (by decide)).trans
    ((W18_of_ne m ρ c main_arg7 (by decide)).trans (Carry.host8 m ρ c main_arg7 (by decide))))
theorem carry_arg8 : W20 m ρ c (Proc.devRef .tc main_arg8) = W16 m ρ c (Proc.devRef .tc main_arg8) :=
  (W20_of_ne m ρ c main_arg8 (by decide)).trans ((Carry.host9 m ρ c main_arg8 (by decide)).trans
    ((W18_of_ne m ρ c main_arg8 (by decide)).trans (Carry.host8 m ρ c main_arg8 (by decide))))
theorem carry_arg9 : W20 m ρ c (Proc.devRef .tc main_arg9) = W16 m ρ c (Proc.devRef .tc main_arg9) :=
  (W20_of_ne m ρ c main_arg9 (by decide)).trans ((Carry.host9 m ρ c main_arg9 (by decide)).trans
    ((W18_of_ne m ρ c main_arg9 (by decide)).trans (Carry.host8 m ρ c main_arg9 (by decide))))
theorem carry_arg10 : W20 m ρ c (Proc.devRef .tc main_arg10) = W16 m ρ c (Proc.devRef .tc main_arg10) :=
  (W20_of_ne m ρ c main_arg10 (by decide)).trans ((Carry.host9 m ρ c main_arg10 (by decide)).trans
    ((W18_of_ne m ρ c main_arg10 (by decide)).trans (Carry.host8 m ρ c main_arg10 (by decide))))
theorem carry_arg11 : W20 m ρ c (Proc.devRef .tc main_arg11) = W16 m ρ c (Proc.devRef .tc main_arg11) :=
  (W20_of_ne m ρ c main_arg11 (by decide)).trans ((Carry.host9 m ρ c main_arg11 (by decide)).trans
    ((W18_of_ne m ρ c main_arg11 (by decide)).trans (Carry.host8 m ρ c main_arg11 (by decide))))
theorem carry_arg12 : W20 m ρ c (Proc.devRef .tc main_arg12) = W16 m ρ c (Proc.devRef .tc main_arg12) :=
  (W20_of_ne m ρ c main_arg12 (by decide)).trans ((Carry.host9 m ρ c main_arg12 (by decide)).trans
    ((W18_of_ne m ρ c main_arg12 (by decide)).trans (Carry.host8 m ρ c main_arg12 (by decide))))

end Cert.KernelIdeal.Layer4

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.WholeRows.lean ====
/-
  One layer of the reference network on whole arrays, read at a single entry.

  The reference computes a layer on the full `[50000, ·]` arrays with host operations: the dense part is
  `relu ((X + A) · W₁ + b₁) · W₂ + b₂`, each bias laid along a unit row and repeated down the 50000 rows, the rectifier
  a maximum with the zero splat; the normalisation is `((h - μ) · s) · γ + β` with the four feature vectors repeated
  down the rows in the same way. Every one of these operations acts row by row (the two products) or entry by entry
  (everything else), so entry `(r, q)` of the dense part depends only on row `r` of `X` and of `A`, and is the
  per-row function `mlpRow` of that row; entry `(r, q)` of the normalised array is the per-entry function `bnEntry`
  of `h (r, q)` and the `q`-th entries of the four vectors. This module names the whole-array terms and proves those
  readings: a product at `(r, q)` is the sum over the contracted coordinate, a repeated bias row at `(r, q)` is the
  bias at `q`, and the zero splat at any index is the zero word.
-/
import proofs.«103578_j10917806867253_1_alg».proof.ReferenceIdeal
import proofs.«103578_j10917806867253_1_alg».proof.Proof.NodeRow
import proofs.«103578_j10917806867253_1_alg».proof.Proof.LibPlainDotGeneral
import proofs.«103578_j10917806867253_1_alg».proof.Proof.LibHostRows
import Idealize.ShloMosaic.Lib.ValueIdx
import Idealize.ShloMosaic.Lib.Pipeline.Value
import Idealize.ShloMosaic.Lib.ValueLayout
import Idealize.ShloMosaic.PureOps.Ideal.Laws

noncomputable section

namespace Cert.Gin.Whole

open Idealize.ShloMosaic Idealize.ShloMosaic.ValueIdx Cert.ReferenceIdeal

variable [Facts₀]
open Facts₀

/-! ## The whole-array terms -/

/-- A feature vector `[64]` repeated down the 50000 rows: laid along a unit row, then the row repeated. -/
def rowOf (v : FVec Ideal S64 .f32) : FVec Ideal S50000x64 .f32 :=
  broadcastInDim S50000x64 ![0, 1] bcast_S1x64_S50000x64_0_1 (broadcastInDim S1x64 ![1] bcast_S64_S1x64_1 v)

/-- The rectifier on a whole array: the maximum with the zero splat. -/
def rect (h : FVec Ideal S50000x64 .f32) : FVec Ideal S50000x64 .f32 :=
  maximumf h (broadcastInDim S50000x64 ![] bcast_S_S50000x64 (constant (F := Ideal) S_ .f32 0x00000000#32))

/-- The dense part of the first layer (2 input features): `relu ((X + A) · W₁ + b₁) · W₂ + b₂` on whole arrays. -/
def dense2 (X A : FVec Ideal S50000x2 .f32) (w1 : FVec Ideal S2x64 .f32) (b1 : FVec Ideal S64 .f32)
    (w2 : FVec Ideal S64x64 .f32) (b2 : FVec Ideal S64 .f32) : FVec Ideal S50000x64 .f32 :=
  addf (Host.dotGeneral (F := Ideal) dot_S50000x64_S64x64_S50000x64_1_0_0_1_n_n none (maximumf (addf (Host.dotGeneral (F := Ideal) dot_S50000x2_S2x64_S50000x64_1_0_0_1_n_n none (addf X A) w1) (broadcastInDim S50000x64 ![0, 1] bcast_S1x64_S50000x64_0_1 (broadcastInDim S1x64 ![1] bcast_S64_S1x64_1 b1))) (broadcastInDim S50000x64 ![] bcast_S_S50000x64 (constant (F := Ideal) S_ .f32 0x00000000#32))) w2) (broadcastInDim S50000x64 ![0, 1] bcast_S1x64_S50000x64_0_1 (broadcastInDim S1x64 ![1] bcast_S64_S1x64_1 b2))

/-- The dense part of a later layer (64 input features): the same on `[50000, 64]` inputs. -/
def dense64 (X A : FVec Ideal S50000x64 .f32) (w1 : FVec Ideal S64x64 .f32) (b1 : FVec Ideal S64 .f32)
    (w2 : FVec Ideal S64x64 .f32) (b2 : FVec Ideal S64 .f32) : FVec Ideal S50000x64 .f32 :=
  addf (Host.dotGeneral (F := Ideal) dot_S50000x64_S64x64_S50000x64_1_0_0_1_n_n none (maximumf (addf (Host.dotGeneral (F := Ideal) dot_S50000x64_S64x64_S50000x64_1_0_0_1_n_n none (addf X A) w1) (broadcastInDim S50000x64 ![0, 1] bcast_S1x64_S50000x64_0_1 (broadcastInDim S1x64 ![1] bcast_S64_S1x64_1 b1))) (broadcastInDim S50000x64 ![] bcast_S_S50000x64 (constant (F := Ideal) S_ .f32 0x00000000#32))) w2) (broadcastInDim S50000x64 ![0, 1] bcast_S1x64_S50000x64_0_1 (broadcastInDim S1x64 ![1] bcast_S64_S1x64_1 b2))

/-- The normalisation on a whole array: `((h - μ) · s) · γ + β`, the four vectors repeated down the rows. -/
def normed (h : FVec Ideal S50000x64 .f32) (mu s g b : FVec Ideal S64 .f32) : FVec Ideal S50000x64 .f32 :=
  addf (mulf (mulf (subf h (rowOf mu)) (rowOf s)) (rowOf g)) (rowOf b)

/-! ## Read at an entry -/

/-- A bias vector laid along a unit row and repeated down the rows reads, at `(r, q)`, the vector at `q`. -/
theorem biasRow_apply (v : FVec Ideal S64 .f32) (r : Fin 50000) (q : Fin 64) :
    broadcastInDim S50000x64 ![0, 1] bcast_S1x64_S50000x64_0_1 (broadcastInDim S1x64 ![1] bcast_S64_S1x64_1 v) (ix2 r q)
      = v (ix1 q) :=
  (Cert.Lib.HostRows.bcast_1b_ab_apply bcast_S1x64_S50000x64_0_1 _ r q).trans
    (Cert.Lib.HostRows.bcast_b_1b_apply bcast_S64_S1x64_1 v 0 q)

/-- A vector repeated down the rows reads, at `(r, q)`, the vector at `q`. -/
theorem rowOf_apply (v : FVec Ideal S64 .f32) (r : Fin 50000) (q : Fin 64) : rowOf v (ix2 r q) = v (ix1 q) :=
  biasRow_apply v r q

/-- The zero splat reads the zero word at every index. -/
theorem zeroSplat_apply (j : S50000x64.Idx) :
    broadcastInDim S50000x64 ![] bcast_S_S50000x64 (constant (F := Ideal) S_ .f32 0x00000000#32) j = Cert.Gin.zeroWord :=
  rfl

/-- The product of a `[50000, 2]` array by a `[2, 64]` matrix at `(r, q)`: the sum over the two contracted columns. -/
theorem dot2_apply (L : FVec Ideal S50000x2 .f32) (w : FVec Ideal S2x64 .f32) (r : Fin 50000) (q : Fin 64) :
    Host.dotGeneral (F := Ideal) dot_S50000x2_S2x64_S50000x64_1_0_0_1_n_n none L w (ix2 r q)
      = ∑ k : Fin 2, L (ix2 r k) * w (ix2 k q) :=
  Cert.Lib.PlainDotGeneral.dotGeneral_apply dot_S50000x2_S2x64_S50000x64_1_0_0_1_n_n rfl rfl rfl rfl rfl rfl none .single L w r q

/-- The product of a `[50000, 64]` array by a `[64, 64]` matrix at `(r, q)`: the sum over the 64 contracted columns. -/
theorem dot64_apply (L : FVec Ideal S50000x64 .f32) (w : FVec Ideal S64x64 .f32) (r : Fin 50000) (q : Fin 64) :
    Host.dotGeneral (F := Ideal) dot_S50000x64_S64x64_S50000x64_1_0_0_1_n_n none L w (ix2 r q)
      = ∑ k : Fin 64, L (ix2 r k) * w (ix2 k q) :=
  Cert.Lib.PlainDotGeneral.dotGeneral_apply dot_S50000x64_S64x64_S50000x64_1_0_0_1_n_n rfl rfl rfl rfl rfl rfl none .single L w r q

/-- The whole-array rectifier at `(r, q)` is the rectifier of the entry. -/
theorem rect_apply (h : FVec Ideal S50000x64 .f32) (r : Fin 50000) (q : Fin 64) :
    rect h (ix2 r q) = Cert.Gin.relu (h (ix2 r q)) := by
  unfold rect Cert.Gin.relu
  rw [maximumf_apply, zeroSplat_apply]

/-- The whole-array normalisation at `(r, q)` is the per-entry function of `h (r, q)` and the vectors at `q`. -/
theorem normed_apply (h : FVec Ideal S50000x64 .f32) (mu s g b : FVec Ideal S64 .f32) (r : Fin 50000) (q : Fin 64) :
    normed h mu s g b (ix2 r q) = Cert.Gin.bnEntry (h (ix2 r q)) (mu (ix1 q)) (s (ix1 q)) (g (ix1 q)) (b (ix1 q)) := by
  unfold normed Cert.Gin.bnEntry
  rw [addf_apply, mulf_apply, mulf_apply, subf_apply, rowOf_apply, rowOf_apply, rowOf_apply, rowOf_apply]

/-- The first layer's dense part at `(r, q)` is the per-row function of row `r`. -/
theorem dense2_apply (X A : FVec Ideal S50000x2 .f32) (w1 : FVec Ideal S2x64 .f32) (b1 : FVec Ideal S64 .f32)
    (w2 : FVec Ideal S64x64 .f32) (b2 : FVec Ideal S64 .f32) (r : Fin 50000) (q : Fin 64) :
    dense2 X A w1 b1 w2 b2 (ix2 r q)
      = Cert.Gin.mlpRow (fun i => X (ix2 r i)) (fun i => A (ix2 r i)) (fun i j => w1 (ix2 i j)) (fun j => b1 (ix1 j))
          (fun j c => w2 (ix2 j c)) (fun c => b2 (ix1 c)) q := by
  unfold dense2 Cert.Gin.mlpRow
  rw [addf_apply, biasRow_apply, dot64_apply]
  refine congrArg (· + b2 (ix1 q)) (Finset.sum_congr rfl fun j _ => ?_)
  rw [maximumf_apply, zeroSplat_apply, addf_apply, biasRow_apply, dot2_apply]
  rfl

/-- A later layer's dense part at `(r, q)` is the per-row function of row `r`. -/
theorem dense64_apply (X A : FVec Ideal S50000x64 .f32) (w1 : FVec Ideal S64x64 .f32) (b1 : FVec Ideal S64 .f32)
    (w2 : FVec Ideal S64x64 .f32) (b2 : FVec Ideal S64 .f32) (r : Fin 50000) (q : Fin 64) :
    dense64 X A w1 b1 w2 b2 (ix2 r q)
      = Cert.Gin.mlpRow (fun i => X (ix2 r i)) (fun i => A (ix2 r i)) (fun i j => w1 (ix2 i j)) (fun j => b1 (ix1 j))
          (fun j c => w2 (ix2 j c)) (fun c => b2 (ix1 c)) q := by
  unfold dense64 Cert.Gin.mlpRow
  rw [addf_apply, biasRow_apply, dot64_apply]
  refine congrArg (· + b2 (ix1 q)) (Finset.sum_congr rfl fun j _ => ?_)
  rw [maximumf_apply, zeroSplat_apply, addf_apply, biasRow_apply, dot64_apply]
  rfl

end Cert.Gin.Whole

end
-- ==== Proof.LibRowLayout.lean ====
/-
  A vector laid out as a one-row matrix, two spellings.

  A `[n]` vector can be made a `[1, n]` matrix by a reshape or by a broadcast along a new leading axis
  (`broadcast_in_dim` with `dims = [1]`). Both read entry `k` of the vector at `(0, k)`, so they are the same matrix,
  for any element type and any length other than one (at length one the broadcast's unit-axis rule reads entry `0`,
  which is again the same entry, but the statement here leaves that case out).
-/
import Idealize.ShloMosaic.Lib.Pipeline.Value

namespace Cert.Lib.RowLayout

open Idealize.ShloMosaic

/-- `shapeCast [1, n] v = broadcastInDim [1, n] ![1] v` for a vector `v` of length `n ≠ 1`: a program that reshapes a
    bias vector to a row and one that broadcasts it along a new leading axis hold the same row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ (![1] : Fin 1 → Fin 2) hb v := by
  funext j
  exact (shapeCast_addUnit_apply ![n] v hc j).trans
    (broadcastInDim_apply (![1] : Fin 1 → Fin 2) hb v j (fun a => j a.succ)
      (fun a => by match a with | ⟨0, _⟩ => exact (if_neg hn).symm)).symm

end Cert.Lib.RowLayout
-- ==== Proof.Bridge.lean ====
/-
  A launch's whole-array function is the reference's layer.

  The kernel program hands each bias vector and each per-feature statistic to a launch as a `[1, 64]` row made by a
  reshape; the reference lays the same `[64]` vector along a new leading axis and repeats it down the 50000 rows. Read at
  an index both are the vector's entry at the column. With that, entry `(r, q)` of a dense launch's output and of the
  reference's `relu ((X + A)·W₁ + b₁)·W₂ + b₂` are the same function of row `r`, and entry `(r, q)` of a normalising
  launch's output and of the reference's `((H − μ)·s)·γ + β` (rectified or not) the same function of entry `(r, q)`.
-/
import proofs.«103578_j10917806867253_1_alg».proof.Proof.NodeArrays
import proofs.«103578_j10917806867253_1_alg».proof.Proof.WholeRows
import proofs.«103578_j10917806867253_1_alg».proof.Proof.LibRowLayout
import proofs.«103578_j10917806867253_1_alg».proof.Proof.LibHostRows

noncomputable section

namespace Cert.Gin.Bridge

open Cert.ReferenceIdeal Cert.Gin Cert.Gin.Whole
open Idealize.ShloMosaic Idealize.ShloMosaic.ValueIdx

variable [Facts₀]
open Facts₀

/-- A `[64]` vector reshaped to a `[1, 64]` row, read at column `q`, is the vector's entry `q`. -/
theorem rowCast_apply (v : FVec Ideal S64 .f32) (hc : S64.ShapeCasts S1x64) (q : Fin 64) :
    shapeCast S1x64 v hc (ix2 0 q) = v (ix1 q) := by
  rw [Cert.Lib.RowLayout.shapeCast_eq_broadcastInDim (by decide) v hc bcast_S64_S1x64_1]
  exact Cert.Lib.HostRows.bcast_b_1b_apply _ v 0 q

/-- The dense launch over 2 input features computes the reference's dense part. -/
theorem dense2_eq (X A : FVec Ideal S50000x2 .f32) (w1 : FVec Ideal S2x64 .f32) (b1 : FVec Ideal S64 .f32)
    (w2 : FVec Ideal S64x64 .f32) (b2 : FVec Ideal S64 .f32) (h1 h2 : S64.ShapeCasts S1x64) :
    mlpArr (K := 2) X A w1 (shapeCast S1x64 b1 h1) w2 (shapeCast S1x64 b2 h2) = dense2 X A w1 b1 w2 b2 := by
  funext i
  obtain ⟨r, q, rfl⟩ : ∃ (r : Fin 50000) (q : Fin 64), i = ix2 r q := ⟨i 0, i 1, eq_ix2 i⟩
  rw [dense2_apply]
  unfold mlpArr
  simp only [rowCast_apply]

/-- The dense launch over 64 input features computes the reference's dense part. -/
theorem dense64_eq (X A : FVec Ideal S50000x64 .f32) (w1 : FVec Ideal S64x64 .f32) (b1 : FVec Ideal S64 .f32)
    (w2 : FVec Ideal S64x64 .f32) (b2 : FVec Ideal S64 .f32) (h1 h2 : S64.ShapeCasts S1x64) :
    mlpArr (K := 64) X A w1 (shapeCast S1x64 b1 h1) w2 (shapeCast S1x64 b2 h2) = dense64 X A w1 b1 w2 b2 := by
  funext i
  obtain ⟨r, q, rfl⟩ : ∃ (r : Fin 50000) (q : Fin 64), i = ix2 r q := ⟨i 0, i 1, eq_ix2 i⟩
  rw [dense64_apply]
  unfold mlpArr
  simp only [rowCast_apply]

/-- The normalising launch without the rectifier computes the reference's normalisation. -/
theorem normed_eq (H : FVec Ideal S50000x64 .f32) (mu s g b : FVec Ideal S64 .f32) (h1 h2 h3 h4 : S64.ShapeCasts S1x64) :
    bnArr H (shapeCast S1x64 mu h1) (shapeCast S1x64 s h2) (shapeCast S1x64 g h3) (shapeCast S1x64 b h4) = normed H mu s g b := by
  funext i
  obtain ⟨r, q, rfl⟩ : ∃ (r : Fin 50000) (q : Fin 64), i = ix2 r q := ⟨i 0, i 1, eq_ix2 i⟩
  rw [normed_apply]
  unfold bnArr
  simp only [rowCast_apply]

/-- The normalising launch with the rectifier computes the reference's rectified normalisation. -/
theorem rect_normed_eq (H : FVec Ideal S50000x64 .f32) (mu s g b : FVec Ideal S64 .f32) (h1 h2 h3 h4 : S64.ShapeCasts S1x64) :
    bnReluArr H (shapeCast S1x64 mu h1) (shapeCast S1x64 s h2) (shapeCast S1x64 g h3) (shapeCast S1x64 b h4)
      = rect (normed H mu s g b) := by
  funext i
  obtain ⟨r, q, rfl⟩ : ∃ (r : Fin 50000) (q : Fin 64), i = ix2 r q := ⟨i 0, i 1, eq_ix2 i⟩
  rw [rect_apply, ← normed_eq H mu s g b h1 h2 h3 h4]
  rfl

end Cert.Gin.Bridge

end
-- ==== Proof.ReferenceTerms.lean ====
/-
  The host-side pieces of one layer, named.

  Around its launches (in the reference: around its dense and normalising steps) a layer uses the same few host
  computations: the two edge lists cut out of the edge array, the aggregation of neighbours' rows along the edges, the
  per-feature mean over the 50000 nodes, the per-feature inverse deviation `rsqrt (mean of squared deviations + ε)`, and
  the layer's own slices of the stacked parameter arrays. Each is written once here, with the program's own operation
  records, so that a statement about a layer names them instead of repeating them.
-/
import proofs.«103578_j10917806867253_1_alg».proof.ReferenceIdeal
import proofs.«103578_j10917806867253_1_alg».proof.Proof.Gen.ReferenceIdeal
import Idealize.ShloMosaic.PureOps.Ideal

noncomputable section

namespace Cert.ReferenceIdeal.Terms

open Cert.ReferenceIdeal Idealize.ShloMosaic

variable [Facts₀]
open Facts₀

/-- The edges' source nodes: row 0 of the edge array. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edges' destination nodes: row 1 of the edge array. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- Neighbour aggregation over 2 features: gather the source nodes' rows along the edges (a negative index wrapped
    by the node count), and add each gathered row into its destination node's row of a zero array. -/
def aggOf2 (x : FVec Ideal S50000x2 .f32) (src dst : (⟨S800000, .i32⟩ : BufTy).Contents (Elt Ideal)) : FVec Ideal S50000x2 .f32 :=
  Host.scatterAdd scatter_S50000x2_S800000x1_S800000x2_1_0_0_1
    (broadcastInDim S50000x2 ![] bcast_S_S50000x2 (constant (F := Ideal) S_ .f32 0x00000000#32))
    (broadcastInDim S800000x1 ![0] bcast_S800000_S800000x1_0 dst)
    (Host.gather gather_S50000x2_S800000x1_S800000x2_1_0_n_n_0_1_12 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Neighbour aggregation over 64 features: gather the source nodes' rows along the edges (a negative index wrapped
    by the node count), and add each gathered row into its destination node's row of a zero array. -/
def aggOf64 (x : FVec Ideal S50000x64 .f32) (src dst : (⟨S800000, .i32⟩ : BufTy).Contents (Elt Ideal)) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A `[64]` vector laid along a new leading axis and repeated down the 50000 rows. -/
def downRows (v : FVec Ideal S64 .f32) : FVec Ideal S50000x64 .f32 :=
  broadcastInDim S50000x64 ![0, 1] bcast_S1x64_S50000x64_0_1 (broadcastInDim S1x64 ![1] bcast_S64_S1x64_1 v)

/-- The per-feature mean over the nodes: the column sums divided by 50000. -/
def meanOf (h : FVec Ideal S50000x64 .f32) : FVec Ideal S64 .f32 :=
  Host.divf (Host.reduceAdd h (constant (F := Ideal) S_ .f32 0x00000000#32) reducesTo_S50000x64_S64_d0 h_S_)
    (broadcastInDim S64 ![] bcast_S_S64 (constant (F := Ideal) S_ .f32 0x47435000#32))

/-- The deviations from the per-feature mean. -/
def devOf (h : FVec Ideal S50000x64 .f32) : FVec Ideal S50000x64 .f32 := subf h (downRows (meanOf h))

/-- The per-feature inverse deviation: `rsqrt` of the mean squared deviation plus the float nearest 1e-5. -/
def invOf (h : FVec Ideal S50000x64 .f32) : FVec Ideal S64 .f32 :=
  Host.rsqrt (addf
    (Host.divf (Host.reduceAdd (mulf (devOf h) (devOf h)) (constant (F := Ideal) S_ .f32 0x00000000#32) reducesTo_S50000x64_S64_d0 h_S_)
      (broadcastInDim S64 ![] bcast_S_S64 (constant (F := Ideal) S_ .f32 0x47435000#32)))
    (broadcastInDim S64 ![] bcast_S_S64 (constant (F := Ideal) S_ .f32 0x3727C5AC#32)))

/-- Layer 1's weight matrix: slab 0 of a stack of four. -/
def matOf0 (a : FVec Ideal S4x64x64 .f32) : FVec Ideal S64x64 .f32 :=
  shapeCast _ (extractStridedSlice S1x64x64 ![0, 0, 0] a slices_S4x64x64_S1x64x64_0_0_0) shapeCasts_S1x64x64_S64x64

/-- Layer 1's bias vector: row 0 of a stack of four. -/
def vecOf4_0 (a : FVec Ideal S4x64 .f32) : FVec Ideal S64 .f32 :=
  shapeCast _ (extractStridedSlice S1x64 ![0, 0] a slices_S4x64_S1x64_0_0) shapeCasts_S1x64_S64

/-- Layer 2's weight matrix: slab 1 of a stack of four. -/
def matOf1 (a : FVec Ideal S4x64x64 .f32) : FVec Ideal S64x64 .f32 :=
  shapeCast _ (extractStridedSlice S1x64x64 ![1, 0, 0] a slices_S4x64x64_S1x64x64_1_0_0) shapeCasts_S1x64x64_S64x64

/-- Layer 2's bias vector: row 1 of a stack of four. -/
def vecOf4_1 (a : FVec Ideal S4x64 .f32) : FVec Ideal S64 .f32 :=
  shapeCast _ (extractStridedSlice S1x64 ![1, 0] a slices_S4x64_S1x64_1_0) shapeCasts_S1x64_S64

/-- Layer 3's weight matrix: slab 2 of a stack of four. -/
def matOf2 (a : FVec Ideal S4x64x64 .f32) : FVec Ideal S64x64 .f32 :=
  shapeCast _ (extractStridedSlice S1x64x64 ![2, 0, 0] a slices_S4x64x64_S1x64x64_2_0_0) shapeCasts_S1x64x64_S64x64

/-- Layer 3's bias vector: row 2 of a stack of four. -/
def vecOf4_2 (a : FVec Ideal S4x64 .f32) : FVec Ideal S64 .f32 :=
  shapeCast _ (extractStridedSlice S1x64 ![2, 0] a slices_S4x64_S1x64_2_0) shapeCasts_S1x64_S64

/-- Layer 4's weight matrix: slab 3 of a stack of four. -/
def matOf3 (a : FVec Ideal S4x64x64 .f32) : FVec Ideal S64x64 .f32 :=
  shapeCast _ (extractStridedSlice S1x64x64 ![3, 0, 0] a slices_S4x64x64_S1x64x64_3_0_0) shapeCasts_S1x64x64_S64x64

/-- Layer 4's bias vector: row 3 of a stack of four. -/
def vecOf4_3 (a : FVec Ideal S4x64 .f32) : FVec Ideal S64 .f32 :=
  shapeCast _ (extractStridedSlice S1x64 ![3, 0] a slices_S4x64_S1x64_3_0) shapeCasts_S1x64_S64

/-- Layer 0's scale (or shift) vector: row 0 of a stack of five. -/
def vecOf5_0 (a : FVec Ideal S5x64 .f32) : FVec Ideal S64 .f32 :=
  shapeCast _ (extractStridedSlice S1x64 ![0, 0] a slices_S5x64_S1x64_0_0) shapeCasts_S1x64_S64

/-- Layer 1's scale (or shift) vector: row 1 of a stack of five. -/
def vecOf5_1 (a : FVec Ideal S5x64 .f32) : FVec Ideal S64 .f32 :=
  shapeCast _ (extractStridedSlice S1x64 ![1, 0] a slices_S5x64_S1x64_1_0) shapeCasts_S1x64_S64

/-- Layer 2's scale (or shift) vector: row 2 of a stack of five. -/
def vecOf5_2 (a : FVec Ideal S5x64 .f32) : FVec Ideal S64 .f32 :=
  shapeCast _ (extractStridedSlice S1x64 ![2, 0] a slices_S5x64_S1x64_2_0) shapeCasts_S1x64_S64

/-- Layer 3's scale (or shift) vector: row 3 of a stack of five. -/
def vecOf5_3 (a : FVec Ideal S5x64 .f32) : FVec Ideal S64 .f32 :=
  shapeCast _ (extractStridedSlice S1x64 ![3, 0] a slices_S5x64_S1x64_3_0) shapeCasts_S1x64_S64

/-- Layer 4's scale (or shift) vector: row 4 of a stack of five. -/
def vecOf5_4 (a : FVec Ideal S5x64 .f32) : FVec Ideal S64 .f32 :=
  shapeCast _ (extractStridedSlice S1x64 ![4, 0] a slices_S5x64_S1x64_4_0) shapeCasts_S1x64_S64

end Cert.ReferenceIdeal.Terms

end
-- ==== Proof.TermsAgree.lean ====
/-
  The two programs name the same host computations.

  The kernel program and the reference were lowered from the same jax functions around their dense and normalising
  steps, so each host piece named for one program is, operation for operation and record for record, the piece named
  for the other: the same slices, the same gather and scatter-add dimension numbers, the same reduction over the node
  axis, the same float words. Each equation below is that observation for one piece.
-/
import proofs.«103578_j10917806867253_1_alg».proof.Proof.KernelTerms
import proofs.«103578_j10917806867253_1_alg».proof.Proof.ReferenceTerms

set_option maxRecDepth 16384

noncomputable section

namespace Cert.Gin.Agree

open Idealize.ShloMosaic

theorem srcOf_eq (e : (⟨Cert.KernelIdeal.S2x800000, .i32⟩ : BufTy).Contents (Elt Ideal)) : Cert.KernelIdeal.Terms.srcOf e = Cert.ReferenceIdeal.Terms.srcOf e := rfl
theorem dstOf_eq (e : (⟨Cert.KernelIdeal.S2x800000, .i32⟩ : BufTy).Contents (Elt Ideal)) : Cert.KernelIdeal.Terms.dstOf e = Cert.ReferenceIdeal.Terms.dstOf e := rfl
theorem aggOf2_eq (x : FVec Ideal Cert.KernelIdeal.S50000x2 .f32) (s d : (⟨Cert.KernelIdeal.S800000, .i32⟩ : BufTy).Contents (Elt Ideal)) :
    Cert.KernelIdeal.Terms.aggOf2 x s d = Cert.ReferenceIdeal.Terms.aggOf2 x s d := rfl
theorem aggOf64_eq (x : FVec Ideal Cert.KernelIdeal.S50000x64 .f32) (s d : (⟨Cert.KernelIdeal.S800000, .i32⟩ : BufTy).Contents (Elt Ideal)) :
    Cert.KernelIdeal.Terms.aggOf64 x s d = Cert.ReferenceIdeal.Terms.aggOf64 x s d := rfl
theorem downRows_eq (v : FVec Ideal Cert.KernelIdeal.S64 .f32) : Cert.KernelIdeal.Terms.downRows v = Cert.ReferenceIdeal.Terms.downRows v := rfl
theorem meanOf_eq (h : FVec Ideal Cert.KernelIdeal.S50000x64 .f32) : Cert.KernelIdeal.Terms.meanOf h = Cert.ReferenceIdeal.Terms.meanOf h := rfl
theorem devOf_eq (h : FVec Ideal Cert.KernelIdeal.S50000x64 .f32) : Cert.KernelIdeal.Terms.devOf h = Cert.ReferenceIdeal.Terms.devOf h := rfl
theorem invOf_eq (h : FVec Ideal Cert.KernelIdeal.S50000x64 .f32) : Cert.KernelIdeal.Terms.invOf h = Cert.ReferenceIdeal.Terms.invOf h := rfl
theorem matOf0_eq (a : FVec Ideal Cert.KernelIdeal.S4x64x64 .f32) : Cert.KernelIdeal.Terms.matOf0 a = Cert.ReferenceIdeal.Terms.matOf0 a := rfl
theorem vecOf4_0_eq (a : FVec Ideal Cert.KernelIdeal.S4x64 .f32) : Cert.KernelIdeal.Terms.vecOf4_0 a = Cert.ReferenceIdeal.Terms.vecOf4_0 a := rfl
theorem matOf1_eq (a : FVec Ideal Cert.KernelIdeal.S4x64x64 .f32) : Cert.KernelIdeal.Terms.matOf1 a = Cert.ReferenceIdeal.Terms.matOf1 a := rfl
theorem vecOf4_1_eq (a : FVec Ideal Cert.KernelIdeal.S4x64 .f32) : Cert.KernelIdeal.Terms.vecOf4_1 a = Cert.ReferenceIdeal.Terms.vecOf4_1 a := rfl
theorem matOf2_eq (a : FVec Ideal Cert.KernelIdeal.S4x64x64 .f32) : Cert.KernelIdeal.Terms.matOf2 a = Cert.ReferenceIdeal.Terms.matOf2 a := rfl
theorem vecOf4_2_eq (a : FVec Ideal Cert.KernelIdeal.S4x64 .f32) : Cert.KernelIdeal.Terms.vecOf4_2 a = Cert.ReferenceIdeal.Terms.vecOf4_2 a := rfl
theorem matOf3_eq (a : FVec Ideal Cert.KernelIdeal.S4x64x64 .f32) : Cert.KernelIdeal.Terms.matOf3 a = Cert.ReferenceIdeal.Terms.matOf3 a := rfl
theorem vecOf4_3_eq (a : FVec Ideal Cert.KernelIdeal.S4x64 .f32) : Cert.KernelIdeal.Terms.vecOf4_3 a = Cert.ReferenceIdeal.Terms.vecOf4_3 a := rfl
theorem vecOf5_0_eq (a : FVec Ideal Cert.KernelIdeal.S5x64 .f32) : Cert.KernelIdeal.Terms.vecOf5_0 a = Cert.ReferenceIdeal.Terms.vecOf5_0 a := rfl
theorem vecOf5_1_eq (a : FVec Ideal Cert.KernelIdeal.S5x64 .f32) : Cert.KernelIdeal.Terms.vecOf5_1 a = Cert.ReferenceIdeal.Terms.vecOf5_1 a := rfl
theorem vecOf5_2_eq (a : FVec Ideal Cert.KernelIdeal.S5x64 .f32) : Cert.KernelIdeal.Terms.vecOf5_2 a = Cert.ReferenceIdeal.Terms.vecOf5_2 a := rfl
theorem vecOf5_3_eq (a : FVec Ideal Cert.KernelIdeal.S5x64 .f32) : Cert.KernelIdeal.Terms.vecOf5_3 a = Cert.ReferenceIdeal.Terms.vecOf5_3 a := rfl
theorem vecOf5_4_eq (a : FVec Ideal Cert.KernelIdeal.S5x64 .f32) : Cert.KernelIdeal.Terms.vecOf5_4 a = Cert.ReferenceIdeal.Terms.vecOf5_4 a := rfl

end Cert.Gin.Agree

end
-- ==== Proof.ReferenceStages.lean ====
/-
  The reference's run, stage by stage.

  The reference's generated run names the intermediate arrays it uses more than once: per layer the dense output, its
  per-feature mean and deviations, and the layer's output. Each named stage is, by unfolding its definition, the
  reference's dense part (or normalisation) of the stage before it, of the named host pieces and of the argument
  arrays. The last stage is the result the run posts.
-/
import proofs.«103578_j10917806867253_1_alg».proof.Proof.Gen.ReferenceIdeal.Run
import proofs.«103578_j10917806867253_1_alg».proof.Proof.ReferenceTerms
import proofs.«103578_j10917806867253_1_alg».proof.Proof.WholeRows

set_option maxRecDepth 16384
set_option maxHeartbeats 2000000

noncomputable section

namespace Cert.ReferenceIdeal.Stages

open Cert.ReferenceIdeal Cert.Gin.Whole
open Idealize.ShloMosaic Idealize.ShloMosaic.TcCoe Idealize.ShloMosaic.StableHlo Idealize.SL.Sem

variable (R : Valuation τ sig (Elt Ideal))

/-! ## The reference's stages, spelled with the named pieces -/

theorem ref_src : Cert.ReferenceIdeal.Value.res_main_v1 R = Cert.ReferenceIdeal.Terms.srcOf (R (Proc.devRef .tc Cert.ReferenceIdeal.main_arg1)) := rfl
theorem ref_dst : Cert.ReferenceIdeal.Value.res_main_v3 R = Cert.ReferenceIdeal.Terms.dstOf (R (Proc.devRef .tc Cert.ReferenceIdeal.main_arg1)) := rfl

theorem ref_h0 : Cert.ReferenceIdeal.Value.res_main_v28 R
    = dense2 (R (Proc.devRef .tc Cert.ReferenceIdeal.main_arg0)) (Cert.ReferenceIdeal.Terms.aggOf2 (R (Proc.devRef .tc Cert.ReferenceIdeal.main_arg0)) (Cert.ReferenceIdeal.Value.res_main_v1 R) (Cert.ReferenceIdeal.Value.res_main_v3 R)) (R (Proc.devRef .tc Cert.ReferenceIdeal.main_arg3)) (R (Proc.devRef .tc Cert.ReferenceIdeal.main_arg4)) (R (Proc.devRef .tc Cert.ReferenceIdeal.main_arg5)) (R (Proc.devRef .tc Cert.ReferenceIdeal.main_arg6)) := rfl

theorem ref_x1 : Cert.ReferenceIdeal.Value.res_main_v55 R
    = rect (normed (Cert.ReferenceIdeal.Value.res_main_v28 R) (Cert.ReferenceIdeal.Terms.meanOf (Cert.ReferenceIdeal.Value.res_main_v28 R)) (Cert.ReferenceIdeal.Terms.invOf (Cert.ReferenceIdeal.Value.res_main_v28 R)) (Cert.ReferenceIdeal.Terms.vecOf5_0 (R (Proc.devRef .tc Cert.ReferenceIdeal.main_arg11))) (Cert.ReferenceIdeal.Terms.vecOf5_0 (R (Proc.devRef .tc Cert.ReferenceIdeal.main_arg12)))) := rfl

theorem ref_h1 : Cert.ReferenceIdeal.Value.res_main_v88 R
    = dense64 (Cert.ReferenceIdeal.Value.res_main_v55 R) (Cert.ReferenceIdeal.Terms.aggOf64 (Cert.ReferenceIdeal.Value.res_main_v55 R) (Cert.ReferenceIdeal.Value.res_main_v1 R) (Cert.ReferenceIdeal.Value.res_main_v3 R))
        (Cert.ReferenceIdeal.Terms.matOf0 (R (Proc.devRef .tc Cert.ReferenceIdeal.main_arg7))) (Cert.ReferenceIdeal.Terms.vecOf4_0 (R (Proc.devRef .tc Cert.ReferenceIdeal.main_arg8))) (Cert.ReferenceIdeal.Terms.matOf0 (R (Proc.devRef .tc Cert.ReferenceIdeal.main_arg9))) (Cert.ReferenceIdeal.Terms.vecOf4_0 (R (Proc.devRef .tc Cert.ReferenceIdeal.main_arg10))) := rfl

theorem ref_x2 : Cert.ReferenceIdeal.Value.res_main_v115 R
    = rect (normed (Cert.ReferenceIdeal.Value.res_main_v88 R) (Cert.ReferenceIdeal.Terms.meanOf (Cert.ReferenceIdeal.Value.res_main_v88 R)) (Cert.ReferenceIdeal.Terms.invOf (Cert.ReferenceIdeal.Value.res_main_v88 R)) (Cert.ReferenceIdeal.Terms.vecOf5_1 (R (Proc.devRef .tc Cert.ReferenceIdeal.main_arg11))) (Cert.ReferenceIdeal.Terms.vecOf5_1 (R (Proc.devRef .tc Cert.ReferenceIdeal.main_arg12)))) := rfl

theorem ref_h2 : Cert.ReferenceIdeal.Value.res_main_v148 R
    = dense64 (Cert.ReferenceIdeal.Value.res_main_v115 R) (Cert.ReferenceIdeal.Terms.aggOf64 (Cert.ReferenceIdeal.Value.res_main_v115 R) (Cert.ReferenceIdeal.Value.res_main_v1 R) (Cert.ReferenceIdeal.Value.res_main_v3 R))
        (Cert.ReferenceIdeal.Terms.matOf1 (R (Proc.devRef .tc Cert.ReferenceIdeal.main_arg7))) (Cert.ReferenceIdeal.Terms.vecOf4_1 (R (Proc.devRef .tc Cert.ReferenceIdeal.main_arg8))) (Cert.ReferenceIdeal.Terms.matOf1 (R (Proc.devRef .tc Cert.ReferenceIdeal.main_arg9))) (Cert.ReferenceIdeal.Terms.vecOf4_1 (R (Proc.devRef .tc Cert.ReferenceIdeal.main_arg10))) := rfl

theorem ref_x3 : Cert.ReferenceIdeal.Value.res_main_v175 R
    = rect (normed (Cert.ReferenceIdeal.Value.res_main_v148 R) (Cert.ReferenceIdeal.Terms.meanOf (Cert.ReferenceIdeal.Value.res_main_v148 R)) (Cert.ReferenceIdeal.Terms.invOf (Cert.ReferenceIdeal.Value.res_main_v148 R)) (Cert.ReferenceIdeal.Terms.vecOf5_2 (R (Proc.devRef .tc Cert.ReferenceIdeal.main_arg11))) (Cert.ReferenceIdeal.Terms.vecOf5_2 (R (Proc.devRef .tc Cert.ReferenceIdeal.main_arg12)))) := rfl

theorem ref_h3 : Cert.ReferenceIdeal.Value.res_main_v208 R
    = dense64 (Cert.ReferenceIdeal.Value.res_main_v175 R) (Cert.ReferenceIdeal.Terms.aggOf64 (Cert.ReferenceIdeal.Value.res_main_v175 R) (Cert.ReferenceIdeal.Value.res_main_v1 R) (Cert.ReferenceIdeal.Value.res_main_v3 R))
        (Cert.ReferenceIdeal.Terms.matOf2 (R (Proc.devRef .tc Cert.ReferenceIdeal.main_arg7))) (Cert.ReferenceIdeal.Terms.vecOf4_2 (R (Proc.devRef .tc Cert.ReferenceIdeal.main_arg8))) (Cert.ReferenceIdeal.Terms.matOf2 (R (Proc.devRef .tc Cert.ReferenceIdeal.main_arg9))) (Cert.ReferenceIdeal.Terms.vecOf4_2 (R (Proc.devRef .tc Cert.ReferenceIdeal.main_arg10))) := rfl

theorem ref_x4 : Cert.ReferenceIdeal.Value.res_main_v235 R
    = rect (normed (Cert.ReferenceIdeal.Value.res_main_v208 R) (Cert.ReferenceIdeal.Terms.meanOf (Cert.ReferenceIdeal.Value.res_main_v208 R)) (Cert.ReferenceIdeal.Terms.invOf (Cert.ReferenceIdeal.Value.res_main_v208 R)) (Cert.ReferenceIdeal.Terms.vecOf5_3 (R (Proc.devRef .tc Cert.ReferenceIdeal.main_arg11))) (Cert.ReferenceIdeal.Terms.vecOf5_3 (R (Proc.devRef .tc Cert.ReferenceIdeal.main_arg12)))) := rfl

theorem ref_h4 : Cert.ReferenceIdeal.Value.res_main_v268 R
    = dense64 (Cert.ReferenceIdeal.Value.res_main_v235 R) (Cert.ReferenceIdeal.Terms.aggOf64 (Cert.ReferenceIdeal.Value.res_main_v235 R) (Cert.ReferenceIdeal.Value.res_main_v1 R) (Cert.ReferenceIdeal.Value.res_main_v3 R))
        (Cert.ReferenceIdeal.Terms.matOf3 (R (Proc.devRef .tc Cert.ReferenceIdeal.main_arg7))) (Cert.ReferenceIdeal.Terms.vecOf4_3 (R (Proc.devRef .tc Cert.ReferenceIdeal.main_arg8))) (Cert.ReferenceIdeal.Terms.matOf3 (R (Proc.devRef .tc Cert.ReferenceIdeal.main_arg9))) (Cert.ReferenceIdeal.Terms.vecOf4_3 (R (Proc.devRef .tc Cert.ReferenceIdeal.main_arg10))) := rfl

/-- The result the run posts: layer 4's dense output normalised per feature, with no rectifier. -/
theorem ref_result : Cert.ReferenceIdeal.Value.val6 R (Proc.devRef .tc Cert.ReferenceIdeal.main_v293)
    = normed (Cert.ReferenceIdeal.Value.res_main_v268 R) (Cert.ReferenceIdeal.Terms.meanOf (Cert.ReferenceIdeal.Value.res_main_v268 R)) (Cert.ReferenceIdeal.Terms.invOf (Cert.ReferenceIdeal.Value.res_main_v268 R)) (Cert.ReferenceIdeal.Terms.vecOf5_4 (R (Proc.devRef .tc Cert.ReferenceIdeal.main_arg11))) (Cert.ReferenceIdeal.Terms.vecOf5_4 (R (Proc.devRef .tc Cert.ReferenceIdeal.main_arg12))) :=
  (Cert.ReferenceIdeal.Value.val6_main_v293 R).trans rfl

end Cert.ReferenceIdeal.Stages

end
-- ==== Proof.Agreement.lean ====
/-
  The kernel program and the reference compute the same array.

  Both programs are five layers of: aggregate the neighbours' rows, two dense layers with a rectifier between them,
  normalise each feature by its mean and inverse deviation over the nodes, rectify (all layers but the last). The kernel
  program does the dense part and the normalisation in launches over blocks of 5000 nodes, the reference on whole arrays.
  From arguments that agree, the dense output and the layer output of every layer agree, one stage after the other:
  each stage is the same function of the stage before it, of the same host pieces and of the same argument arrays.
-/
import proofs.«103578_j10917806867253_1_alg».proof.Proof.Layer0
import proofs.«103578_j10917806867253_1_alg».proof.Proof.Layer1
import proofs.«103578_j10917806867253_1_alg».proof.Proof.Layer2
import proofs.«103578_j10917806867253_1_alg».proof.Proof.Layer3
import proofs.«103578_j10917806867253_1_alg».proof.Proof.Layer4
import proofs.«103578_j10917806867253_1_alg».proof.Proof.Bridge
import proofs.«103578_j10917806867253_1_alg».proof.Proof.TermsAgree
import proofs.«103578_j10917806867253_1_alg».proof.Proof.ReferenceStages

set_option maxRecDepth 16384
set_option maxHeartbeats 2000000

noncomputable section

namespace Cert.Gin.Agreement

open Cert.Gin Cert.Gin.Whole Cert.KernelIdeal.Gen
open Idealize.ShloMosaic Idealize.ShloMosaic.TcCoe Idealize.ShloMosaic.StableHlo Idealize.SL.Sem

/-- The reference's launch contents on core `c`. -/
abbrev R (m' : (ℓ : Loc Cert.ReferenceIdeal.nD Cert.ReferenceIdeal.τ Cert.ReferenceIdeal.sig) → Buf (Elt Ideal) ℓ) (c : Dev Cert.KernelIdeal.nD) : Valuation Cert.ReferenceIdeal.τ Cert.ReferenceIdeal.sig (Elt Ideal) :=
  launchContents m' c

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The arguments at launch -/

theorem arg0_at0 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : W0 m ρ c (Proc.devRef .tc Cert.KernelIdeal.main_arg0) = R m' c (Proc.devRef .tc Cert.ReferenceIdeal.main_arg0) := a0.symm
theorem arg1_at0 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W0 m ρ c (Proc.devRef .tc Cert.KernelIdeal.main_arg1) = R m' c (Proc.devRef .tc Cert.ReferenceIdeal.main_arg1) := a1.symm
theorem arg3_at0 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : W0 m ρ c (Proc.devRef .tc Cert.KernelIdeal.main_arg3) = R m' c (Proc.devRef .tc Cert.ReferenceIdeal.main_arg3) := a3.symm
theorem arg4_at0 (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : W0 m ρ c (Proc.devRef .tc Cert.KernelIdeal.main_arg4) = R m' c (Proc.devRef .tc Cert.ReferenceIdeal.main_arg4) := a4.symm
theorem arg5_at0 (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) : W0 m ρ c (Proc.devRef .tc Cert.KernelIdeal.main_arg5) = R m' c (Proc.devRef .tc Cert.ReferenceIdeal.main_arg5) := a5.symm
theorem arg6_at0 (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) : W0 m ρ c (Proc.devRef .tc Cert.KernelIdeal.main_arg6) = R m' c (Proc.devRef .tc Cert.ReferenceIdeal.main_arg6) := a6.symm
theorem arg7_at0 (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : W0 m ρ c (Proc.devRef .tc Cert.KernelIdeal.main_arg7) = R m' c (Proc.devRef .tc Cert.ReferenceIdeal.main_arg7) := a7.symm
theorem arg8_at0 (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : W0 m ρ c (Proc.devRef .tc Cert.KernelIdeal.main_arg8) = R m' c (Proc.devRef .tc Cert.ReferenceIdeal.main_arg8) := a8.symm
theorem arg9_at0 (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : W0 m ρ c (Proc.devRef .tc Cert.KernelIdeal.main_arg9) = R m' c (Proc.devRef .tc Cert.ReferenceIdeal.main_arg9) := a9.symm
theorem arg10_at0 (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : W0 m ρ c (Proc.devRef .tc Cert.KernelIdeal.main_arg10) = R m' c (Proc.devRef .tc Cert.ReferenceIdeal.main_arg10) := a10.symm
theorem arg11_at0 (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : W0 m ρ c (Proc.devRef .tc Cert.KernelIdeal.main_arg11) = R m' c (Proc.devRef .tc Cert.ReferenceIdeal.main_arg11) := a11.symm
theorem arg12_at0 (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W0 m ρ c (Proc.devRef .tc Cert.KernelIdeal.main_arg12) = R m' c (Proc.devRef .tc Cert.ReferenceIdeal.main_arg12) := a12.symm

/-! ## The edge lists -/

theorem src_at1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W1 m ρ c (Proc.devRef .tc Cert.KernelIdeal.main_v1) = Cert.ReferenceIdeal.Value.res_main_v1 (R m' c) := by
  rw [Cert.KernelIdeal.Layer0.src_in, Cert.ReferenceIdeal.Stages.ref_src, Agree.srcOf_eq, arg1_at0 m ρ m' c a1]
theorem dst_at1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W1 m ρ c (Proc.devRef .tc Cert.KernelIdeal.main_v3) = Cert.ReferenceIdeal.Value.res_main_v3 (R m' c) := by
  rw [Cert.KernelIdeal.Layer0.dst_in, Cert.ReferenceIdeal.Stages.ref_dst, Agree.dstOf_eq, arg1_at0 m ρ m' c a1]

theorem src_at4 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W4 m ρ c (Proc.devRef .tc Cert.KernelIdeal.main_v1) = Cert.ReferenceIdeal.Value.res_main_v1 (R m' c) := (Cert.KernelIdeal.Layer0.carry_v1 m ρ c).trans (src_at1 m ρ m' c a1)
theorem dst_at4 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W4 m ρ c (Proc.devRef .tc Cert.KernelIdeal.main_v3) = Cert.ReferenceIdeal.Value.res_main_v3 (R m' c) := (Cert.KernelIdeal.Layer0.carry_v3 m ρ c).trans (dst_at1 m ρ m' c a1)
theorem arg7_at4 (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : W4 m ρ c (Proc.devRef .tc Cert.KernelIdeal.main_arg7) = R m' c (Proc.devRef .tc Cert.ReferenceIdeal.main_arg7) := (Cert.KernelIdeal.Layer0.carry_arg7 m ρ c).trans (arg7_at0 m ρ m' c a7)
theorem arg8_at4 (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : W4 m ρ c (Proc.devRef .tc Cert.KernelIdeal.main_arg8) = R m' c (Proc.devRef .tc Cert.ReferenceIdeal.main_arg8) := (Cert.KernelIdeal.Layer0.carry_arg8 m ρ c).trans (arg8_at0 m ρ m' c a8)
theorem arg9_at4 (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : W4 m ρ c (Proc.devRef .tc Cert.KernelIdeal.main_arg9) = R m' c (Proc.devRef .tc Cert.ReferenceIdeal.main_arg9) := (Cert.KernelIdeal.Layer0.carry_arg9 m ρ c).trans (arg9_at0 m ρ m' c a9)
theorem arg10_at4 (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : W4 m ρ c (Proc.devRef .tc Cert.KernelIdeal.main_arg10) = R m' c (Proc.devRef .tc Cert.ReferenceIdeal.main_arg10) := (Cert.KernelIdeal.Layer0.carry_arg10 m ρ c).trans (arg10_at0 m ρ m' c a10)
theorem arg11_at4 (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : W4 m ρ c (Proc.devRef .tc Cert.KernelIdeal.main_arg11) = R m' c (Proc.devRef .tc Cert.ReferenceIdeal.main_arg11) := (Cert.KernelIdeal.Layer0.carry_arg11 m ρ c).trans (arg11_at0 m ρ m' c a11)
theorem arg12_at4 (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W4 m ρ c (Proc.devRef .tc Cert.KernelIdeal.main_arg12) = R m' c (Proc.devRef .tc Cert.ReferenceIdeal.main_arg12) := (Cert.KernelIdeal.Layer0.carry_arg12 m ρ c).trans (arg12_at0 m ρ m' c a12)

theorem src_at8 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W8 m ρ c (Proc.devRef .tc Cert.KernelIdeal.main_v1) = Cert.ReferenceIdeal.Value.res_main_v1 (R m' c) := (Cert.KernelIdeal.Layer1.carry_v1 m ρ c).trans (src_at4 m ρ m' c a1)
theorem dst_at8 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W8 m ρ c (Proc.devRef .tc Cert.KernelIdeal.main_v3) = Cert.ReferenceIdeal.Value.res_main_v3 (R m' c) := (Cert.KernelIdeal.Layer1.carry_v3 m ρ c).trans (dst_at4 m ρ m' c a1)
theorem arg7_at8 (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : W8 m ρ c (Proc.devRef .tc Cert.KernelIdeal.main_arg7) = R m' c (Proc.devRef .tc Cert.ReferenceIdeal.main_arg7) := (Cert.KernelIdeal.Layer1.carry_arg7 m ρ c).trans (arg7_at4 m ρ m' c a7)
theorem arg8_at8 (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : W8 m ρ c (Proc.devRef .tc Cert.KernelIdeal.main_arg8) = R m' c (Proc.devRef .tc Cert.ReferenceIdeal.main_arg8) := (Cert.KernelIdeal.Layer1.carry_arg8 m ρ c).trans (arg8_at4 m ρ m' c a8)
theorem arg9_at8 (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : W8 m ρ c (Proc.devRef .tc Cert.KernelIdeal.main_arg9) = R m' c (Proc.devRef .tc Cert.ReferenceIdeal.main_arg9) := (Cert.KernelIdeal.Layer1.carry_arg9 m ρ c).trans (arg9_at4 m ρ m' c a9)
theorem arg10_at8 (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : W8 m ρ c (Proc.devRef .tc Cert.KernelIdeal.main_arg10) = R m' c (Proc.devRef .tc Cert.ReferenceIdeal.main_arg10) := (Cert.KernelIdeal.Layer1.carry_arg10 m ρ c).trans (arg10_at4 m ρ m' c a10)
theorem arg11_at8 (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : W8 m ρ c (Proc.devRef .tc Cert.KernelIdeal.main_arg11) = R m' c (Proc.devRef .tc Cert.ReferenceIdeal.main_arg11) := (Cert.KernelIdeal.Layer1.carry_arg11 m ρ c).trans (arg11_at4 m ρ m' c a11)
theorem arg12_at8 (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W8 m ρ c (Proc.devRef .tc Cert.KernelIdeal.main_arg12) = R m' c (Proc.devRef .tc Cert.ReferenceIdeal.main_arg12) := (Cert.KernelIdeal.Layer1.carry_arg12 m ρ c).trans (arg12_at4 m ρ m' c a12)

theorem src_at12 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W12 m ρ c (Proc.devRef .tc Cert.KernelIdeal.main_v1) = Cert.ReferenceIdeal.Value.res_main_v1 (R m' c) := (Cert.KernelIdeal.Layer2.carry_v1 m ρ c).trans (src_at8 m ρ m' c a1)
theorem dst_at12 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W12 m ρ c (Proc.devRef .tc Cert.KernelIdeal.main_v3) = Cert.ReferenceIdeal.Value.res_main_v3 (R m' c) := (Cert.KernelIdeal.Layer2.carry_v3 m ρ c).trans (dst_at8 m ρ m' c a1)
theorem arg7_at12 (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : W12 m ρ c (Proc.devRef .tc Cert.KernelIdeal.main_arg7) = R m' c (Proc.devRef .tc Cert.ReferenceIdeal.main_arg7) := (Cert.KernelIdeal.Layer2.carry_arg7 m ρ c).trans (arg7_at8 m ρ m' c a7)
theorem arg8_at12 (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : W12 m ρ c (Proc.devRef .tc Cert.KernelIdeal.main_arg8) = R m' c (Proc.devRef .tc Cert.ReferenceIdeal.main_arg8) := (Cert.KernelIdeal.Layer2.carry_arg8 m ρ c).trans (arg8_at8 m ρ m' c a8)
theorem arg9_at12 (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : W12 m ρ c (Proc.devRef .tc Cert.KernelIdeal.main_arg9) = R m' c (Proc.devRef .tc Cert.ReferenceIdeal.main_arg9) := (Cert.KernelIdeal.Layer2.carry_arg9 m ρ c).trans (arg9_at8 m ρ m' c a9)
theorem arg10_at12 (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : W12 m ρ c (Proc.devRef .tc Cert.KernelIdeal.main_arg10) = R m' c (Proc.devRef .tc Cert.ReferenceIdeal.main_arg10) := (Cert.KernelIdeal.Layer2.carry_arg10 m ρ c).trans (arg10_at8 m ρ m' c a10)
theorem arg11_at12 (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : W12 m ρ c (Proc.devRef .tc Cert.KernelIdeal.main_arg11) = R m' c (Proc.devRef .tc Cert.ReferenceIdeal.main_arg11) := (Cert.KernelIdeal.Layer2.carry_arg11 m ρ c).trans (arg11_at8 m ρ m' c a11)
theorem arg12_at12 (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W12 m ρ c (Proc.devRef .tc Cert.KernelIdeal.main_arg12) = R m' c (Proc.devRef .tc Cert.ReferenceIdeal.main_arg12) := (Cert.KernelIdeal.Layer2.carry_arg12 m ρ c).trans (arg12_at8 m ρ m' c a12)

theorem src_at16 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W16 m ρ c (Proc.devRef .tc Cert.KernelIdeal.main_v1) = Cert.ReferenceIdeal.Value.res_main_v1 (R m' c) := (Cert.KernelIdeal.Layer3.carry_v1 m ρ c).trans (src_at12 m ρ m' c a1)
theorem dst_at16 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : W16 m ρ c (Proc.devRef .tc Cert.KernelIdeal.main_v3) = Cert.ReferenceIdeal.Value.res_main_v3 (R m' c) := (Cert.KernelIdeal.Layer3.carry_v3 m ρ c).trans (dst_at12 m ρ m' c a1)
theorem arg7_at16 (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : W16 m ρ c (Proc.devRef .tc Cert.KernelIdeal.main_arg7) = R m' c (Proc.devRef .tc Cert.ReferenceIdeal.main_arg7) := (Cert.KernelIdeal.Layer3.carry_arg7 m ρ c).trans (arg7_at12 m ρ m' c a7)
theorem arg8_at16 (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : W16 m ρ c (Proc.devRef .tc Cert.KernelIdeal.main_arg8) = R m' c (Proc.devRef .tc Cert.ReferenceIdeal.main_arg8) := (Cert.KernelIdeal.Layer3.carry_arg8 m ρ c).trans (arg8_at12 m ρ m' c a8)
theorem arg9_at16 (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : W16 m ρ c (Proc.devRef .tc Cert.KernelIdeal.main_arg9) = R m' c (Proc.devRef .tc Cert.ReferenceIdeal.main_arg9) := (Cert.KernelIdeal.Layer3.carry_arg9 m ρ c).trans (arg9_at12 m ρ m' c a9)
theorem arg10_at16 (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : W16 m ρ c (Proc.devRef .tc Cert.KernelIdeal.main_arg10) = R m' c (Proc.devRef .tc Cert.ReferenceIdeal.main_arg10) := (Cert.KernelIdeal.Layer3.carry_arg10 m ρ c).trans (arg10_at12 m ρ m' c a10)
theorem arg11_at16 (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : W16 m ρ c (Proc.devRef .tc Cert.KernelIdeal.main_arg11) = R m' c (Proc.devRef .tc Cert.ReferenceIdeal.main_arg11) := (Cert.KernelIdeal.Layer3.carry_arg11 m ρ c).trans (arg11_at12 m ρ m' c a11)
theorem arg12_at16 (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W16 m ρ c (Proc.devRef .tc Cert.KernelIdeal.main_arg12) = R m' c (Proc.devRef .tc Cert.ReferenceIdeal.main_arg12) := (Cert.KernelIdeal.Layer3.carry_arg12 m ρ c).trans (arg12_at12 m ρ m' c a12)

/-! ## The stages, layer by layer -/

/-- Layer 0's dense output. -/
theorem h0_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W2 m ρ c (Proc.devRef .tc Cert.KernelIdeal.main_v20) = Cert.ReferenceIdeal.Value.res_main_v28 (R m' c) := by
  rw [Cert.KernelIdeal.Layer0.dense_out, Bridge.dense2_eq, Cert.ReferenceIdeal.Stages.ref_h0, Cert.ReferenceIdeal.Stages.ref_src, Cert.ReferenceIdeal.Stages.ref_dst, Agree.aggOf2_eq, Agree.srcOf_eq, Agree.dstOf_eq,
    arg0_at0 m ρ m' c a0, arg1_at0 m ρ m' c a1, arg3_at0 m ρ m' c a3, arg4_at0 m ρ m' c a4, arg5_at0 m ρ m' c a5, arg6_at0 m ρ m' c a6]

/-- Layer 0's output. -/
theorem x1_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W4 m ρ c (Proc.devRef .tc Cert.KernelIdeal.main_v38) = Cert.ReferenceIdeal.Value.res_main_v55 (R m' c) := by
  rw [Cert.KernelIdeal.Layer0.norm_out, Bridge.rect_normed_eq, Cert.ReferenceIdeal.Stages.ref_x1, h0_eq m ρ m' c a0 a1 a3 a4 a5 a6 a7 a8 a9 a10 a11 a12, Agree.meanOf_eq, Agree.invOf_eq, Agree.vecOf5_0_eq,
    arg11_at0 m ρ m' c a11, arg12_at0 m ρ m' c a12, Agree.vecOf5_0_eq]

/-- Layer 1's dense output. -/
theorem h1_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W6 m ρ c (Proc.devRef .tc Cert.KernelIdeal.main_v63) = Cert.ReferenceIdeal.Value.res_main_v88 (R m' c) := by
  rw [Cert.KernelIdeal.Layer1.dense_out, Bridge.dense64_eq, Cert.ReferenceIdeal.Stages.ref_h1, x1_eq m ρ m' c a0 a1 a3 a4 a5 a6 a7 a8 a9 a10 a11 a12, src_at4 m ρ m' c a1, dst_at4 m ρ m' c a1,
    arg7_at4 m ρ m' c a7, arg8_at4 m ρ m' c a8, arg9_at4 m ρ m' c a9, arg10_at4 m ρ m' c a10,
    Agree.aggOf64_eq, Agree.matOf0_eq, Agree.vecOf4_0_eq, Agree.matOf0_eq, Agree.vecOf4_0_eq]

/-- Layer 1's output. -/
theorem x2_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W8 m ρ c (Proc.devRef .tc Cert.KernelIdeal.main_v81) = Cert.ReferenceIdeal.Value.res_main_v115 (R m' c) := by
  rw [Cert.KernelIdeal.Layer1.norm_out, Bridge.rect_normed_eq, Cert.ReferenceIdeal.Stages.ref_x2, h1_eq m ρ m' c a0 a1 a3 a4 a5 a6 a7 a8 a9 a10 a11 a12, Agree.meanOf_eq, Agree.invOf_eq, Agree.vecOf5_1_eq,
    arg11_at4 m ρ m' c a11, arg12_at4 m ρ m' c a12, Agree.vecOf5_1_eq]

/-- Layer 2's dense output. -/
theorem h2_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W10 m ρ c (Proc.devRef .tc Cert.KernelIdeal.main_v106) = Cert.ReferenceIdeal.Value.res_main_v148 (R m' c) := by
  rw [Cert.KernelIdeal.Layer2.dense_out, Bridge.dense64_eq, Cert.ReferenceIdeal.Stages.ref_h2, x2_eq m ρ m' c a0 a1 a3 a4 a5 a6 a7 a8 a9 a10 a11 a12, src_at8 m ρ m' c a1, dst_at8 m ρ m' c a1,
    arg7_at8 m ρ m' c a7, arg8_at8 m ρ m' c a8, arg9_at8 m ρ m' c a9, arg10_at8 m ρ m' c a10,
    Agree.aggOf64_eq, Agree.matOf1_eq, Agree.vecOf4_1_eq, Agree.matOf1_eq, Agree.vecOf4_1_eq]

/-- Layer 2's output. -/
theorem x3_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W12 m ρ c (Proc.devRef .tc Cert.KernelIdeal.main_v124) = Cert.ReferenceIdeal.Value.res_main_v175 (R m' c) := by
  rw [Cert.KernelIdeal.Layer2.norm_out, Bridge.rect_normed_eq, Cert.ReferenceIdeal.Stages.ref_x3, h2_eq m ρ m' c a0 a1 a3 a4 a5 a6 a7 a8 a9 a10 a11 a12, Agree.meanOf_eq, Agree.invOf_eq, Agree.vecOf5_2_eq,
    arg11_at8 m ρ m' c a11, arg12_at8 m ρ m' c a12, Agree.vecOf5_2_eq]

/-- Layer 3's dense output. -/
theorem h3_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W14 m ρ c (Proc.devRef .tc Cert.KernelIdeal.main_v149) = Cert.ReferenceIdeal.Value.res_main_v208 (R m' c) := by
  rw [Cert.KernelIdeal.Layer3.dense_out, Bridge.dense64_eq, Cert.ReferenceIdeal.Stages.ref_h3, x3_eq m ρ m' c a0 a1 a3 a4 a5 a6 a7 a8 a9 a10 a11 a12, src_at12 m ρ m' c a1, dst_at12 m ρ m' c a1,
    arg7_at12 m ρ m' c a7, arg8_at12 m ρ m' c a8, arg9_at12 m ρ m' c a9, arg10_at12 m ρ m' c a10,
    Agree.aggOf64_eq, Agree.matOf2_eq, Agree.vecOf4_2_eq, Agree.matOf2_eq, Agree.vecOf4_2_eq]

/-- Layer 3's output. -/
theorem x4_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W16 m ρ c (Proc.devRef .tc Cert.KernelIdeal.main_v167) = Cert.ReferenceIdeal.Value.res_main_v235 (R m' c) := by
  rw [Cert.KernelIdeal.Layer3.norm_out, Bridge.rect_normed_eq, Cert.ReferenceIdeal.Stages.ref_x4, h3_eq m ρ m' c a0 a1 a3 a4 a5 a6 a7 a8 a9 a10 a11 a12, Agree.meanOf_eq, Agree.invOf_eq, Agree.vecOf5_3_eq,
    arg11_at12 m ρ m' c a11, arg12_at12 m ρ m' c a12, Agree.vecOf5_3_eq]

/-- Layer 4's dense output. -/
theorem h4_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W18 m ρ c (Proc.devRef .tc Cert.KernelIdeal.main_v192) = Cert.ReferenceIdeal.Value.res_main_v268 (R m' c) := by
  rw [Cert.KernelIdeal.Layer4.dense_out, Bridge.dense64_eq, Cert.ReferenceIdeal.Stages.ref_h4, x4_eq m ρ m' c a0 a1 a3 a4 a5 a6 a7 a8 a9 a10 a11 a12, src_at16 m ρ m' c a1, dst_at16 m ρ m' c a1,
    arg7_at16 m ρ m' c a7, arg8_at16 m ρ m' c a8, arg9_at16 m ρ m' c a9, arg10_at16 m ρ m' c a10,
    Agree.aggOf64_eq, Agree.matOf3_eq, Agree.vecOf4_3_eq, Agree.matOf3_eq, Agree.vecOf4_3_eq]

/-- THE RESULT: the kernel program's result buffer ends at the value the reference's run posts. -/
theorem result_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : W20 m ρ c (Proc.devRef .tc Cert.KernelIdeal.main_v210) = Cert.ReferenceIdeal.Value.val6 (R m' c) (Proc.devRef .tc Cert.ReferenceIdeal.main_v293) := by
  rw [Cert.KernelIdeal.Layer4.norm_out, Bridge.normed_eq, Cert.ReferenceIdeal.Stages.ref_result, h4_eq m ρ m' c a0 a1 a3 a4 a5 a6 a7 a8 a9 a10 a11 a12, Agree.meanOf_eq, Agree.invOf_eq, Agree.vecOf5_4_eq,
    arg11_at16 m ρ m' c a11, arg12_at16 m ρ m' c a12, Agree.vecOf5_4_eq]

end Cert.Gin.Agreement

end
-- ==== Proof.lean ====
/-
  The certificate of a five-layer graph network: the kernel program against its plain reference.

  Per layer the reference aggregates each node's neighbours' rows along the edges, adds them to the node's own row,
  applies two dense layers with a rectifier between them, normalises every feature by its mean and inverse deviation
  over the 50000 nodes, and rectifies (all layers but the last). The kernel program keeps the aggregation and the
  statistics as host operations and does the dense part and the normalisation in launches over ten blocks of 5000 nodes.
  At the exact instance the two agree: a dense output row depends only on the same row of the inputs and a normalised
  entry only on the same entry and on its column's statistics, so the blocks are restrictions of the reference's
  whole-array functions and tile the arrays; a change of float format is the identity; a matrix product is the same
  finite sum on both sides. No rearrangement of the arithmetic is involved, and the precondition is never opened.

  The three frames are the generated ones (the reference's is its generated run with the result dropped); the kernel
  program's idealization rewrote nothing, so `preserves` is `True`.
-/
import proofs.«103578_j10917806867253_1_alg».proof.Defs
import proofs.«103578_j10917806867253_1_alg».proof.Proof.Gen.Kernel
import proofs.«103578_j10917806867253_1_alg».proof.Proof.Gen.Kernel.Skeleton
import proofs.«103578_j10917806867253_1_alg».proof.Proof.Gen.Kernel.Launch
import proofs.«103578_j10917806867253_1_alg».proof.Proof.Gen.Kernel.Points
import proofs.«103578_j10917806867253_1_alg».proof.Proof.Gen.Kernel.Frame
import proofs.«103578_j10917806867253_1_alg».proof.Proof.Gen.KernelIdeal
import proofs.«103578_j10917806867253_1_alg».proof.Proof.Gen.KernelIdeal.Skeleton
import proofs.«103578_j10917806867253_1_alg».proof.Proof.Gen.KernelIdeal.Launch
import proofs.«103578_j10917806867253_1_alg».proof.Proof.Gen.KernelIdeal.Points
import proofs.«103578_j10917806867253_1_alg».proof.Proof.Gen.KernelIdeal.Frame
import proofs.«103578_j10917806867253_1_alg».proof.Proof.Gen.ReferenceIdeal
import proofs.«103578_j10917806867253_1_alg».proof.Proof.Gen.Pre_finite_inputs
import proofs.«103578_j10917806867253_1_alg».proof.Proof.Gen.ReferenceIdeal.Run
import proofs.«103578_j10917806867253_1_alg».proof.Proof.ResultRun
import proofs.«103578_j10917806867253_1_alg».proof.Proof.Agreement
import Idealize.ShloMosaic.Adequacy
import Idealize.ShloMosaic.Init

set_option maxRecDepth 16384

noncomputable section

namespace Cert.Proof

open Idealize.ShloMosaic Idealize.ShloMosaic.TcCoe Idealize.SL.Sem

/-- From arguments that agree, both idealized programs run to the end and leave the same result: the kernel program's
    result buffer holds the last boundary's contents, the reference's the value its run posts, and those are equal
    stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W20 m ρ c (Proc.devRef .tc Cert.KernelIdeal.main_v210),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  exact (Cert.ReferenceIdeal.Value.val6_main_v293 _).symm.trans
    (Cert.Gin.Agreement.result_eq m ρ m' c a0 a1 a3 a4 a5 a6 a7 a8 a9 a10 a11 a12).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
